-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v477) = v0 c
          ∧ r.2.mem ((c.tc : Thread Cert.ReferenceIdeal.nD Cert.ReferenceIdeal.τ).loc Cert.ReferenceIdeal.main_v364) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x64 : Shape := ⟨2, ![1, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part6 {F : FTy → Type} [FloatOps F] (main_arg22 : FVec F S1x64 .f32) (main_arg23 : FVec F S1x64 .f32) (main_arg24 : FVec F S1x64 .f32) (main_v98 : IVec S_ 1) (main_v101 : IVec S1x64 1) (main_c_39 : IVec S_ 1) : IVec S_ 1 :=
  let main_v102 : IVec S_ 1 := (fun x v => Host.reduce IntOp.andi x v reducesTo_S1x64_S_d0_1 h_S_) main_v101 main_c_39
  let main_v103 : IVec S_ 1 := andi main_v98 main_v102
  let main_v104 : FVec F S1x64 .f32 := Host.absf main_arg22
  let main_cst_40 : FVec F S_ .f32 := constant S_ .f32 0x7F800000#32
  let main_v105 : FVec F S1x64 .f32 := broadcastInDim S1x64 ![] bcast_S_S1x64 main_cst_40
  let main_v106 : IVec S1x64 1 := cmpf .olt main_v104 main_v105
  let main_c_41 : IVec S_ 1 := constantI S_ 1 1#1
  let main_v107 : IVec S_ 1 := (fun x v => Host.reduce IntOp.andi x v reducesTo_S1x64_S_d0_1 h_S_) main_v106 main_c_41
  let main_v108 : IVec S_ 1 := andi main_v103 main_v107
  let main_v109 : FVec F S1x64 .f32 := Host.absf main_arg23
  let main_cst_42 : FVec F S_ .f32 := constant S_ .f32 0x7F800000#32
  let main_v110 : FVec F S1x64 .f32 := broadcastInDim S1x64 ![] bcast_S_S1x64 main_cst_42
  let main_v111 : IVec S1x64 1 := cmpf .olt main_v109 main_v110
  let main_c_43 : IVec S_ 1 := constantI S_ 1 1#1
  let main_v112 : IVec S_ 1 := (fun x v => Host.reduce IntOp.andi x v reducesTo_S1x64_S_d0_1 h_S_) main_v111 main_c_43
  let main_v113 : IVec S_ 1 := andi main_v108 main_v112
  let main_v114 : FVec F S1x64 .f32 := Host.absf main_arg24
  let main_cst_44 : FVec F S_ .f32 := constant S_ .f32 0x7F800000#32
  let main_v115 : FVec F S1x64 .f32 := broadcastInDim S1x64 ![] bcast_S_S1x64 main_cst_44
  let main_v116 : IVec S1x64 1 := cmpf .olt main_v114 main_v115
  let main_c_45 : IVec S_ 1 := constantI S_ 1 1#1
  let main_v117 : IVec S_ 1 := (fun x v => Host.reduce IntOp.andi x v reducesTo_S1x64_S_d0_1 h_S_) main_v116 main_c_45
  let main_v118 : IVec S_ 1 := andi main_v113 main_v117
  main_v118

def fn_part5 {F : FTy → Type} [FloatOps F] (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S3x64x64 .f32 := Host.absf main_arg19
  let main_cst_34 : FVec F S_ .f32 := constant S_ .f32 0x7F800000#32
  let main_v90 : FVec F S3x64x64 .f32 := broadcastInDim S3x64x64 ![] bcast_S_S3x64x64 main_cst_34
  let main_v91 : IVec S3x64x64 1 := cmpf .olt main_v89 main_v90
  let main_c_35 : IVec S_ 1 := constantI S_ 1 1#1
  let main_v92 : IVec S_ 1 := (fun x v => Host.reduce IntOp.andi x v reducesTo_S3x64x64_S_d0_1_2 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S1x64 .f32 := Host.absf main_arg21
  let main_cst_38 : FVec F S_ .f32 := constant S_ .f32 0x7F800000#32
  let main_v100 : FVec F S1x64 .f32 := broadcastInDim S1x64 ![] bcast_S_S1x64 main_cst_38
  let main_v101 : IVec S1x64 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S3x64x64 .f32) (main_arg16 : FVec F S64 .f32) (main_arg17 : FVec F S3x64x64 .f32) (main_arg18 : FVec F S64 .f32) (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) (main_v63 : IVec S_ 1) (main_v67 : IVec S_ 1) : IVec S_ 1 :=
  let main_v68 : IVec S_ 1 := andi main_v63 main_v67
  let main_v69 : FVec F S3x64x64 .f32 := Host.absf main_arg15
  let main_cst_26 : FVec F S_ .f32 := constant S_ .f32 0x7F800000#32
  let main_v70 : FVec F S3x64x64 .f32 := broadcastInDim S3x64x64 ![] bcast_S_S3x64x64 main_cst_26
  let main_v71 : IVec S3x64x64 1 := cmpf .olt main_v69 main_v70
  let main_c_27 : IVec S_ 1 := constantI S_ 1 1#1
  let main_v72 : IVec S_ 1 := (fun x v => Host.reduce IntOp.andi x v reducesTo_S3x64x64_S_d0_1_2 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S3x64x64 .f32 := Host.absf main_arg17
  let main_cst_30 : FVec F S_ .f32 := constant S_ .f32 0x7F800000#32
  let main_v80 : FVec F S3x64x64 .f32 := broadcastInDim S3x64x64 ![] bcast_S_S3x64x64 main_cst_30
  let main_v81 : IVec S3x64x64 1 := cmpf .olt main_v79 main_v80
  let main_c_31 : IVec S_ 1 := constantI S_ 1 1#1
  let main_v82 : IVec S_ 1 := (fun x v => Host.reduce IntOp.andi x v reducesTo_S3x64x64_S_d0_1_2 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S64 .f32) (main_arg13 : FVec F S3x64x64 .f32) (main_arg14 : FVec F S64 .f32) (main_arg15 : FVec F S3x64x64 .f32) (main_arg16 : FVec F S64 .f32) (main_arg17 : FVec F S3x64x64 .f32) (main_arg18 : FVec F S64 .f32) (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S3x64x64 .f32 := Host.absf main_arg13
  let main_cst_22 : FVec F S_ .f32 := constant S_ .f32 0x7F800000#32
  let main_v60 : FVec F S3x64x64 .f32 := broadcastInDim S3x64x64 ![] bcast_S_S3x64x64 main_cst_22
  let main_v61 : IVec S3x64x64 1 := cmpf .olt main_v59 main_v60
  let main_c_23 : IVec S_ 1 := constantI S_ 1 1#1
  let main_v62 : IVec S_ 1 := (fun x v => Host.reduce IntOp.andi x v reducesTo_S3x64x64_S_d0_1_2 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S64 .f32) (main_arg9 : FVec F S3x64x64 .f32) (main_arg10 : FVec F S64 .f32) (main_arg11 : FVec F S3x64x64 .f32) (main_arg12 : FVec F S64 .f32) (main_arg13 : FVec F S3x64x64 .f32) (main_arg14 : FVec F S64 .f32) (main_arg15 : FVec F S3x64x64 .f32) (main_arg16 : FVec F S64 .f32) (main_arg17 : FVec F S3x64x64 .f32) (main_arg18 : FVec F S64 .f32) (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S3x64x64 .f32 := Host.absf main_arg11
  let main_cst_18 : FVec F S_ .f32 := constant S_ .f32 0x7F800000#32
  let main_v50 : FVec F S3x64x64 .f32 := broadcastInDim S3x64x64 ![] bcast_S_S3x64x64 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S3x64x64 .f32) (main_arg6 : FVec F S64 .f32) (main_arg7 : FVec F S3x64x64 .f32) (main_arg8 : FVec F S64 .f32) (main_arg9 : FVec F S3x64x64 .f32) (main_arg10 : FVec F S64 .f32) (main_arg11 : FVec F S3x64x64 .f32) (main_arg12 : FVec F S64 .f32) (main_arg13 : FVec F S3x64x64 .f32) (main_arg14 : FVec F S64 .f32) (main_arg15 : FVec F S3x64x64 .f32) (main_arg16 : FVec F S64 .f32) (main_arg17 : FVec F S3x64x64 .f32) (main_arg18 : FVec F S64 .f32) (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) (main_v13 : IVec S_ 1) (main_v16 : IVec S50000x64 1) : IVec S_ 1 :=
  let main_c_5 : IVec S_ 1 := constantI S_ 1 1#1
  let main_v17 : IVec S_ 1 := (fun x v => Host.reduce IntOp.andi x v reducesTo_S50000x64_S_d0_1 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x64 .f32) (main_arg1 : IVec S2x800000 32) (main_arg2 : FVec F S800000 .f32) (main_arg3 : FVec F S50000x64 .f32) (main_arg4 : FVec F S50000x64 .f32) (main_arg5 : FVec F S3x64x64 .f32) (main_arg6 : FVec F S64 .f32) (main_arg7 : FVec F S3x64x64 .f32) (main_arg8 : FVec F S64 .f32) (main_arg9 : FVec F S3x64x64 .f32) (main_arg10 : FVec F S64 .f32) (main_arg11 : FVec F S3x64x64 .f32) (main_arg12 : FVec F S64 .f32) (main_arg13 : FVec F S3x64x64 .f32) (main_arg14 : FVec F S64 .f32) (main_arg15 : FVec F S3x64x64 .f32) (main_arg16 : FVec F S64 .f32) (main_arg17 : FVec F S3x64x64 .f32) (main_arg18 : FVec F S64 .f32) (main_arg19 : FVec F S3x64x64 .f32) (main_arg20 : FVec F S64 .f32) (main_arg21 : FVec F S1x64 .f32) (main_arg22 : FVec F S1x64 .f32) (main_arg23 : FVec F S1x64 .f32) (main_arg24 : FVec F S1x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x64 .f32 := Host.absf main_arg4
  let main_cst_4 : FVec F S_ .f32 := constant S_ .f32 0x7F800000#32
  let main_v15 : FVec F S50000x64 .f32 := broadcastInDim S50000x64 ![] bcast_S_S50000x64 main_cst_4
  let main_v16 : IVec S50000x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x64 : Shape := ⟨2, ![1, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S3x64x256 : Shape := ⟨3, ![3, 64, 256]⟩
abbrev S3x128x256 : Shape := ⟨3, ![3, 128, 256]⟩
abbrev S256 : Shape := ⟨1, ![256]⟩
abbrev S1x256 : Shape := ⟨2, ![1, 256]⟩
abbrev S2000x128 : Shape := ⟨2, ![2000, 128]⟩
abbrev S2000x64 : Shape := ⟨2, ![2000, 64]⟩
abbrev S1x128x256 : Shape := ⟨3, ![1, 128, 256]⟩
abbrev S128x256 : Shape := ⟨2, ![128, 256]⟩
abbrev S2000x256 : Shape := ⟨2, ![2000, 256]⟩

abbrev nBuf : Space → Nat
  | .hbm => 135
  | .vmem => 12
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S50000x64, .f32⟩
  | 5 => ⟨S3x64x64, .f32⟩
  | 6 => ⟨S64, .f32⟩
  | 7 => ⟨S3x64x64, .f32⟩
  | 8 => ⟨S64, .f32⟩
  | 9 => ⟨S3x64x64, .f32⟩
  | 10 => ⟨S64, .f32⟩
  | 11 => ⟨S3x64x64, .f32⟩
  | 12 => ⟨S64, .f32⟩
  | 13 => ⟨S3x64x64, .f32⟩
  | 14 => ⟨S64, .f32⟩
  | 15 => ⟨S3x64x64, .f32⟩
  | 16 => ⟨S64, .f32⟩
  | 17 => ⟨S3x64x64, .f32⟩
  | 18 => ⟨S64, .f32⟩
  | 19 => ⟨S3x64x64, .f32⟩
  | 20 => ⟨S64, .f32⟩
  | 21 => ⟨S1x64, .f32⟩
  | 22 => ⟨S1x64, .f32⟩
  | 23 => ⟨S1x64, .f32⟩
  | 24 => ⟨S1x64, .f32⟩
  | 25 => ⟨S1x800000, .i32⟩
  | 26 => ⟨S800000, .i32⟩
  | 27 => ⟨S1x800000, .i32⟩
  | 28 => ⟨S800000, .i32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .i1⟩
  | 39 => ⟨S_, .f32⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S3x64x256, .f32⟩
  | 116 => ⟨S3x64x256, .f32⟩
  | 117 => ⟨S3x128x256, .f32⟩
  | 118 => ⟨S64, .f32⟩
  | 119 => ⟨S64, .f32⟩
  | 120 => ⟨S64, .f32⟩
  | 121 => ⟨S64, .f32⟩
  | 122 => ⟨S64, .f32⟩
  | 123 => ⟨S64, .f32⟩
  | 124 => ⟨S64, .f32⟩
  | 125 => ⟨S64, .f32⟩
  | 126 => ⟨S64, .f32⟩
  | 127 => ⟨S64, .f32⟩
  | _ => ⟨S50000x64, .f32⟩

abbrev hbmTy0_1 (i : Nat) : BufTy := match i % 128 with
  | 0 => ⟨S64, .f32⟩
  | 1 => ⟨S64, .f32⟩
  | 2 => ⟨S256, .f32⟩
  | 3 => ⟨S1x256, .f32⟩
  | 4 => ⟨S50000x128, .f32⟩
  | 5 => ⟨S50000x64, .f32⟩
  | 6 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x64, .f32⟩
  | .local _ .vmem, ⟨7, _⟩ => ⟨S2000x64, .f32⟩
  | .local _ .vmem, ⟨8, _⟩ => ⟨S3x128x256, .f32⟩
  | .local _ .vmem, ⟨9, _⟩ => ⟨S1x256, .f32⟩
  | .local _ .vmem, ⟨10, _⟩ => ⟨S2000x128, .f32⟩
  | .local _ .vmem, ⟨11, _⟩ => ⟨S2000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst_0 : Ref sig .tc := ⟨.hbm, 33, rfl⟩
abbrev main_v7 : Ref sig .tc := ⟨.hbm, 34, rfl⟩
abbrev main_v8 : Ref sig .tc := ⟨.hbm, 35, rfl⟩
abbrev main_cst_1 : Ref sig .tc := ⟨.hbm, 36, rfl⟩
abbrev main_v9 : Ref sig .tc := ⟨.hbm, 37, rfl⟩
abbrev main_v10 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v11 : Ref sig .tc := ⟨.hbm, 42, rfl⟩
abbrev main_v12 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v13 : Ref sig .tc := ⟨.hbm, 47, rfl⟩
abbrev main_c : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_v22 : Ref sig .tc := ⟨.hbm, 59, rfl⟩
abbrev main_v23 : Ref sig .tc := ⟨.hbm, 60, rfl⟩
abbrev main_c_6 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_7 : Ref sig .tc := ⟨.hbm, 70, rfl⟩
abbrev main_v32 : Ref sig .tc := ⟨.hbm, 71, rfl⟩
abbrev main_v33 : Ref sig .tc := ⟨.hbm, 72, rfl⟩
abbrev main_c_8 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_9 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_10 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_c_11 : Ref sig .tc := ⟨.hbm, 91, rfl⟩
abbrev main_v49 : Ref sig .tc := ⟨.hbm, 92, rfl⟩
abbrev main_v50 : Ref sig .tc := ⟨.hbm, 93, rfl⟩
abbrev main_c_12 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_13 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_14 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_15 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  concatenates_S50000x64_S50000x64_S50000x128_d1 : Shape.Concatenates [S50000x64, S50000x64] S50000x128 1
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S3x64x64_S3x64x64_S3x64x64_S3x64x64_S3x64x256_d2 : Shape.Concatenates [S3x64x64, S3x64x64, S3x64x64, S3x64x64] S3x64x256 2
  concatenates_S3x64x256_S3x64x256_S3x128x256_d1 : Shape.Concatenates [S3x64x256, S3x64x256] S3x128x256 1
  shapeCasts_S1x64_S64 : S1x64.ShapeCasts S64
  concatenates_S64_S64_S64_S64_S256_d0 : Shape.Concatenates [S64, S64, S64, S64] S256 0
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2000x256_o0_0_S2000x64 : S2000x256.Slices ![0, 0] S2000x64
  slices_S2000x256_o0_64_S2000x64 : S2000x256.Slices ![0, 64] S2000x64
  slices_S2000x256_o0_128_S2000x64 : S2000x256.Slices ![0, 128] S2000x64
  slices_S2000x256_o0_192_S2000x64 : S2000x256.Slices ![0, 192] S2000x64
  inb_S2000x64_S2000x64_0_0 : ∀ a, (![0, 0] : Fin 2 → Nat) a + S2000x64.size a ≤ S2000x64.size a
  h_S2000x64 : 0 < S2000x64.numel
  inb_S2000x128_S2000x64_0_0 : ∀ a, (![0, 0] : Fin 2 → Nat) a + S2000x64.size a ≤ S2000x128.size a
  inb_S2000x128_S2000x64_0_64 : ∀ a, (![0, 64] : Fin 2 → Nat) a + S2000x64.size a ≤ S2000x128.size a
  slices_S50000x128_S50000x64_0_0 : S50000x128.Slices ![0, 0] S50000x64
  slices_S50000x128_S50000x64_0_64 : S50000x128.Slices ![0, 64] S50000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x256.size a ≤ S3x128x256.size a
  hwx0_4 : ∀ i : grid0.Coords, EltTy.bits .f32 = 32 ∨ (Rect.block (s := S3x128x256) S3x128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v67) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v70) S3x128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v84) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v85) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x64 : Shape := ⟨2, ![1, 64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩

abbrev nBuf : Space → Nat
  | .hbm => 594
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S50000x64, .f32⟩
  | 5 => ⟨S3x64x64, .f32⟩
  | 6 => ⟨S64, .f32⟩
  | 7 => ⟨S3x64x64, .f32⟩
  | 8 => ⟨S64, .f32⟩
  | 9 => ⟨S3x64x64, .f32⟩
  | 10 => ⟨S64, .f32⟩
  | 11 => ⟨S3x64x64, .f32⟩
  | 12 => ⟨S64, .f32⟩
  | 13 => ⟨S3x64x64, .f32⟩
  | 14 => ⟨S64, .f32⟩
  | 15 => ⟨S3x64x64, .f32⟩
  | 16 => ⟨S64, .f32⟩
  | 17 => ⟨S3x64x64, .f32⟩
  | 18 => ⟨S64, .f32⟩
  | 19 => ⟨S3x64x64, .f32⟩
  | 20 => ⟨S64, .f32⟩
  | 21 => ⟨S1x64, .f32⟩
  | 22 => ⟨S1x64, .f32⟩
  | 23 => ⟨S1x64, .f32⟩
  | 24 => ⟨S1x64, .f32⟩
  | 25 => ⟨S1x800000, .i32⟩
  | 26 => ⟨S800000, .i32⟩
  | 27 => ⟨S1x800000, .i32⟩
  | 28 => ⟨S800000, .i32⟩
  | 29 => ⟨S1x800000, .i32⟩
  | 30 => ⟨S800000, .i32⟩
  | 31 => ⟨S1x800000, .i32⟩
  | 32 => ⟨S800000, .i32⟩
  | 33 => ⟨S_, .f32⟩
  | 34 => ⟨S50000, .f32⟩
  | 35 => ⟨S800000x1, .i32⟩
  | 36 => ⟨S50000, .f32⟩
  | 37 => ⟨S_, .f32⟩
  | 38 => ⟨S50000, .f32⟩
  | 39 => ⟨S50000, .i1⟩
  | 40 => ⟨S_, .f32⟩
  | 41 => ⟨S50000, .f32⟩
  | 42 => ⟨S50000, .i1⟩
  | 43 => ⟨S_, .f32⟩
  | 44 => ⟨S_, .f32⟩
  | 45 => ⟨S50000, .f32⟩
  | 46 => ⟨S50000, .f32⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S800000, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S800000, .f32⟩
  | 72 => ⟨S1x64x64, .f32⟩
  | 73 => ⟨S64x64, .f32⟩
  | 74 => ⟨S50000x64, .f32⟩
  | 75 => ⟨S800000x1, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S800000x64, .f32⟩
  | 86 => ⟨S800000x64, .f32⟩
  | 87 => ⟨S_, .f32⟩
  | 88 => ⟨S50000x64, .f32⟩
  | 89 => ⟨S800000x1, .i32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S1x64x64, .f32⟩
  | 97 => ⟨S64x64, .f32⟩
  | 98 => ⟨S50000x64, .f32⟩
  | 99 => ⟨S50000x64, .f32⟩
  | 100 => ⟨S800000x1, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x64, .f32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S50000x64, .f32⟩
  | 117 => ⟨S_, .f32⟩
  | 118 => ⟨S50000x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S50000x64, .f32⟩
  | 125 => ⟨S1x64x64, .f32⟩
  | 126 => ⟨S64x64, .f32⟩
  | 127 => ⟨S50000x64, .f32⟩
  | _ => ⟨S50000x64, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1x64x64, .f32⟩
  | 5 => ⟨S64x64, .f32⟩
  | 6 => ⟨S50000x64, .f32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x64, .f32⟩
  | 17 => ⟨S800000x64, .f32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S1x64x64, .f32⟩
  | 29 => ⟨S64x64, .f32⟩
  | 30 => ⟨S50000x64, .f32⟩
  | 31 => ⟨S50000x64, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S_, .f32⟩
  | 50 => ⟨S50000x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x64, .f32⟩
  | 57 => ⟨S1x64x64, .f32⟩
  | 58 => ⟨S64x64, .f32⟩
  | 59 => ⟨S50000x64, .f32⟩
  | 60 => ⟨S50000x64, .f32⟩
  | 61 => ⟨S1x64, .f32⟩
  | 62 => ⟨S50000x64, .f32⟩
  | 63 => ⟨S50000x64, .f32⟩
  | 64 => ⟨S50000x64, .f32⟩
  | 65 => ⟨S50000x64, .f32⟩
  | 66 => ⟨S50000x64, .f32⟩
  | 67 => ⟨S50000x64, .f32⟩
  | 68 => ⟨S50000x64, .f32⟩
  | 69 => ⟨S_, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S1x64x64, .f32⟩
  | 76 => ⟨S64x64, .f32⟩
  | 77 => ⟨S50000x64, .f32⟩
  | 78 => ⟨S800000x1, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S800000x64, .f32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S50000x64, .f32⟩
  | 103 => ⟨S800000x1, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x64, .f32⟩
  | 113 => ⟨S800000x64, .f32⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_2 (i : Nat) : BufTy := match i % 128 with
  | 0 => ⟨S1x64x64, .f32⟩
  | 1 => ⟨S64x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S1x64x64, .f32⟩
  | 8 => ⟨S64x64, .f32⟩
  | 9 => ⟨S50000x64, .f32⟩
  | 10 => ⟨S800000x1, .f32⟩
  | 11 => ⟨S_, .i32⟩
  | 12 => ⟨S800000, .i32⟩
  | 13 => ⟨S800000, .i1⟩
  | 14 => ⟨S_, .i32⟩
  | 15 => ⟨S800000, .i32⟩
  | 16 => ⟨S800000, .i32⟩
  | 17 => ⟨S800000, .i32⟩
  | 18 => ⟨S800000x1, .i32⟩
  | 19 => ⟨S800000x64, .f32⟩
  | 20 => ⟨S800000x64, .f32⟩
  | 21 => ⟨S800000x64, .f32⟩
  | 22 => ⟨S_, .f32⟩
  | 23 => ⟨S50000x64, .f32⟩
  | 24 => ⟨S800000x1, .i32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S1x64x64, .f32⟩
  | 32 => ⟨S64x64, .f32⟩
  | 33 => ⟨S50000x64, .f32⟩
  | 34 => ⟨S50000x64, .f32⟩
  | 35 => ⟨S800000x1, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S50000x64, .f32⟩
  | 60 => ⟨S1x64x64, .f32⟩
  | 61 => ⟨S64x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S1x64x64, .f32⟩
  | 79 => ⟨S64x64, .f32⟩
  | 80 => ⟨S50000x64, .f32⟩
  | 81 => ⟨S800000x1, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000x64, .f32⟩
  | 91 => ⟨S800000x64, .f32⟩
  | 92 => ⟨S800000x64, .f32⟩
  | 93 => ⟨S_, .f32⟩
  | 94 => ⟨S50000x64, .f32⟩
  | 95 => ⟨S800000x1, .i32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S1x64x64, .f32⟩
  | 103 => ⟨S64x64, .f32⟩
  | 104 => ⟨S50000x64, .f32⟩
  | 105 => ⟨S50000x64, .f32⟩
  | 106 => ⟨S800000x1, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S800000x64, .f32⟩
  | 117 => ⟨S800000x64, .f32⟩
  | 118 => ⟨S_, .f32⟩
  | 119 => ⟨S50000x64, .f32⟩
  | 120 => ⟨S800000x1, .i32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S_, .f32⟩
  | _ => ⟨S50000x64, .f32⟩

abbrev hbmTy0_3 (i : Nat) : BufTy := match i % 128 with
  | 0 => ⟨S50000x64, .f32⟩
  | 1 => ⟨S50000x64, .f32⟩
  | 2 => ⟨S50000x64, .f32⟩
  | 3 => ⟨S1x64x64, .f32⟩
  | 4 => ⟨S64x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | 10 => ⟨S1x64x64, .f32⟩
  | 11 => ⟨S64x64, .f32⟩
  | 12 => ⟨S50000x64, .f32⟩
  | 13 => ⟨S800000x1, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S800000x64, .f32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S_, .f32⟩
  | 31 => ⟨S50000x64, .f32⟩
  | 32 => ⟨S50000x64, .f32⟩
  | 33 => ⟨S50000x64, .f32⟩
  | 34 => ⟨S1x64x64, .f32⟩
  | 35 => ⟨S64x64, .f32⟩
  | 36 => ⟨S50000x64, .f32⟩
  | 37 => ⟨S50000x64, .f32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x64, .f32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S1x64x64, .f32⟩
  | 64 => ⟨S64x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S50000x64, .f32⟩
  | 76 => ⟨S50000x64, .f32⟩
  | 77 => ⟨S1x64x64, .f32⟩
  | 78 => ⟨S64x64, .f32⟩
  | 79 => ⟨S50000x64, .f32⟩
  | 80 => ⟨S800000x1, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S800000x64, .f32⟩
  | 91 => ⟨S800000x64, .f32⟩
  | 92 => ⟨S_, .f32⟩
  | 93 => ⟨S50000x64, .f32⟩
  | 94 => ⟨S800000x1, .i32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S1x64x64, .f32⟩
  | 102 => ⟨S64x64, .f32⟩
  | 103 => ⟨S50000x64, .f32⟩
  | 104 => ⟨S50000x64, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S_, .f32⟩
  | 127 => ⟨S50000x64, .f32⟩
  | _ => ⟨S50000x64, .f32⟩

abbrev hbmTy0_4 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S1x64x64, .f32⟩
  | 10 => ⟨S64x64, .f32⟩
  | 11 => ⟨S50000x64, .f32⟩
  | 12 => ⟨S800000x1, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S800000x64, .f32⟩
  | 23 => ⟨S800000x64, .f32⟩
  | 24 => ⟨S_, .f32⟩
  | 25 => ⟨S50000x64, .f32⟩
  | 26 => ⟨S800000x1, .i32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S1x64x64, .f32⟩
  | 34 => ⟨S64x64, .f32⟩
  | 35 => ⟨S50000x64, .f32⟩
  | 36 => ⟨S50000x64, .f32⟩
  | 37 => ⟨S800000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x64, .f32⟩
  | 48 => ⟨S800000x64, .f32⟩
  | 49 => ⟨S_, .f32⟩
  | 50 => ⟨S50000x64, .f32⟩
  | 51 => ⟨S800000x1, .i32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S1x64x64, .f32⟩
  | 63 => ⟨S64x64, .f32⟩
  | 64 => ⟨S50000x64, .f32⟩
  | 65 => ⟨S50000x64, .f32⟩
  | 66 => ⟨S1x64, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S50000x64, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_v16 : Ref sig .tc := ⟨.hbm, 47, rfl⟩
abbrev main_cst_3 : Ref sig .tc := ⟨.hbm, 48, rfl⟩
abbrev main_call1_v0 : Ref sig .tc := ⟨.hbm, 49, rfl⟩
abbrev main_call1_v1 : Ref sig .tc := ⟨.hbm, 50, rfl⟩
abbrev main_v17 : Ref sig .tc := ⟨.hbm, 51, rfl⟩
abbrev main_c : Ref sig .tc := ⟨.hbm, 52, rfl⟩
abbrev main_v18 : Ref sig .tc := ⟨.hbm, 53, rfl⟩
abbrev main_v19 : Ref sig .tc := ⟨.hbm, 54, rfl⟩
abbrev main_c_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_c_5 : Ref sig .tc := ⟨.hbm, 62, rfl⟩
abbrev main_v26 : Ref sig .tc := ⟨.hbm, 63, rfl⟩
abbrev main_v27 : Ref sig .tc := ⟨.hbm, 64, rfl⟩
abbrev main_c_6 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_7 : Ref sig .tc := ⟨.hbm, 76, rfl⟩
abbrev main_v38 : Ref sig .tc := ⟨.hbm, 77, rfl⟩
abbrev main_v39 : Ref sig .tc := ⟨.hbm, 78, rfl⟩
abbrev main_c_8 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_11 : Ref sig .tc := ⟨.hbm, 101, rfl⟩
abbrev main_v59 : Ref sig .tc := ⟨.hbm, 102, rfl⟩
abbrev main_v60 : Ref sig .tc := ⟨.hbm, 103, rfl⟩
abbrev main_c_12 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_13 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_cst_14 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_cst_15 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_16 : Ref sig .tc := ⟨.hbm, 136, rfl⟩
abbrev main_v89 : Ref sig .tc := ⟨.hbm, 137, rfl⟩
abbrev main_v90 : Ref sig .tc := ⟨.hbm, 138, rfl⟩
abbrev main_c_17 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_18 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_cst_19 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_c_20 : Ref sig .tc := ⟨.hbm, 161, rfl⟩
abbrev main_v110 : Ref sig .tc := ⟨.hbm, 162, rfl⟩
abbrev main_v111 : Ref sig .tc := ⟨.hbm, 163, rfl⟩
abbrev main_c_21 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_22 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_23 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_24 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_cst_25 : Ref sig .tc := ⟨.hbm, 197, rfl⟩
abbrev main_v141 : Ref sig .tc := ⟨.hbm, 198, rfl⟩
abbrev main_v142 : Ref sig .tc := ⟨.hbm, 199, rfl⟩
abbrev main_cst_26 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_c_27 : Ref sig .tc := ⟨.hbm, 207, rfl⟩
abbrev main_v149 : Ref sig .tc := ⟨.hbm, 208, rfl⟩
abbrev main_v150 : Ref sig .tc := ⟨.hbm, 209, rfl⟩
abbrev main_c_28 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_cst_29 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_cst_30 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_c_31 : Ref sig .tc := ⟨.hbm, 232, rfl⟩
abbrev main_v170 : Ref sig .tc := ⟨.hbm, 233, rfl⟩
abbrev main_v171 : Ref sig .tc := ⟨.hbm, 234, rfl⟩
abbrev main_c_32 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_cst_33 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_v182 : Ref sig .tc := ⟨.hbm, 247, rfl⟩
abbrev main_cst_34 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_cst_35 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_c_36 : Ref sig .tc := ⟨.hbm, 267, rfl⟩
abbrev main_v200 : Ref sig .tc := ⟨.hbm, 268, rfl⟩
abbrev main_v201 : Ref sig .tc := ⟨.hbm, 269, rfl⟩
abbrev main_c_37 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_cst_38 : Ref sig .tc := ⟨.hbm, 278, rfl⟩
abbrev main_v209 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_39 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_c_40 : Ref sig .tc := ⟨.hbm, 292, rfl⟩
abbrev main_v221 : Ref sig .tc := ⟨.hbm, 293, rfl⟩
abbrev main_v222 : Ref sig .tc := ⟨.hbm, 294, rfl⟩
abbrev main_c_41 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_v229 : Ref sig .tc := ⟨.hbm, 302, rfl⟩
abbrev main_cst_42 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_cst_43 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_cst_44 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_cst_45 : Ref sig .tc := ⟨.hbm, 328, rfl⟩
abbrev main_v252 : Ref sig .tc := ⟨.hbm, 329, rfl⟩
abbrev main_v253 : Ref sig .tc := ⟨.hbm, 330, rfl⟩
abbrev main_cst_46 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_c_47 : Ref sig .tc := ⟨.hbm, 338, rfl⟩
abbrev main_v260 : Ref sig .tc := ⟨.hbm, 339, rfl⟩
abbrev main_v261 : Ref sig .tc := ⟨.hbm, 340, rfl⟩
abbrev main_c_48 : Ref sig .tc := ⟨.hbm, 341, rfl⟩
abbrev main_v262 : Ref sig .tc := ⟨.hbm, 342, rfl⟩
abbrev main_v263 : Ref sig .tc := ⟨.hbm, 343, rfl⟩
abbrev main_v264 : Ref sig .tc := ⟨.hbm, 344, rfl⟩
abbrev main_v265 : Ref sig .tc := ⟨.hbm, 345, rfl⟩
abbrev main_v266 : Ref sig .tc := ⟨.hbm, 346, rfl⟩
abbrev main_v267 : Ref sig .tc := ⟨.hbm, 347, rfl⟩
abbrev main_v268 : Ref sig .tc := ⟨.hbm, 348, rfl⟩
abbrev main_cst_49 : Ref sig .tc := ⟨.hbm, 349, rfl⟩
abbrev main_v269 : Ref sig .tc := ⟨.hbm, 350, rfl⟩
abbrev main_v270 : Ref sig .tc := ⟨.hbm, 351, rfl⟩
abbrev main_v271 : Ref sig .tc := ⟨.hbm, 352, rfl⟩
abbrev main_v272 : Ref sig .tc := ⟨.hbm, 353, rfl⟩
abbrev main_cst_50 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277 : Ref sig .tc := ⟨.hbm, 359, rfl⟩
abbrev main_v278 : Ref sig .tc := ⟨.hbm, 360, rfl⟩
abbrev main_v279 : Ref sig .tc := ⟨.hbm, 361, rfl⟩
abbrev main_v280 : Ref sig .tc := ⟨.hbm, 362, rfl⟩
abbrev main_c_51 : Ref sig .tc := ⟨.hbm, 363, rfl⟩
abbrev main_v281 : Ref sig .tc := ⟨.hbm, 364, rfl⟩
abbrev main_v282 : Ref sig .tc := ⟨.hbm, 365, rfl⟩
abbrev main_c_52 : Ref sig .tc := ⟨.hbm, 366, rfl⟩
abbrev main_v283 : Ref sig .tc := ⟨.hbm, 367, rfl⟩
abbrev main_v284 : Ref sig .tc := ⟨.hbm, 368, rfl⟩
abbrev main_v285 : Ref sig .tc := ⟨.hbm, 369, rfl⟩
abbrev main_v286 : Ref sig .tc := ⟨.hbm, 370, rfl⟩
abbrev main_v287 : Ref sig .tc := ⟨.hbm, 371, rfl⟩
abbrev main_v288 : Ref sig .tc := ⟨.hbm, 372, rfl⟩
abbrev main_v289 : Ref sig .tc := ⟨.hbm, 373, rfl⟩
abbrev main_cst_53 : Ref sig .tc := ⟨.hbm, 374, rfl⟩
abbrev main_v290 : Ref sig .tc := ⟨.hbm, 375, rfl⟩
abbrev main_v291 : Ref sig .tc := ⟨.hbm, 376, rfl⟩
abbrev main_v292 : Ref sig .tc := ⟨.hbm, 377, rfl⟩
abbrev main_v293 : Ref sig .tc := ⟨.hbm, 378, rfl⟩
abbrev main_cst_54 : Ref sig .tc := ⟨.hbm, 379, rfl⟩
abbrev main_v294 : Ref sig .tc := ⟨.hbm, 380, rfl⟩
abbrev main_v295 : Ref sig .tc := ⟨.hbm, 381, rfl⟩
abbrev main_v296 : Ref sig .tc := ⟨.hbm, 382, rfl⟩
abbrev main_cst_55 : Ref sig .tc := ⟨.hbm, 383, rfl⟩
abbrev main_v297 : Ref sig .tc := ⟨.hbm, 384, rfl⟩
abbrev main_v298 : Ref sig .tc := ⟨.hbm, 385, rfl⟩
abbrev main_v299 : Ref sig .tc := ⟨.hbm, 386, rfl⟩
abbrev main_v300 : Ref sig .tc := ⟨.hbm, 387, rfl⟩
abbrev main_v301 : Ref sig .tc := ⟨.hbm, 388, rfl⟩
abbrev main_v302 : Ref sig .tc := ⟨.hbm, 389, rfl⟩
abbrev main_v303 : Ref sig .tc := ⟨.hbm, 390, rfl⟩
abbrev main_v304 : Ref sig .tc := ⟨.hbm, 391, rfl⟩
abbrev main_v305 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_c_56 : Ref sig .tc := ⟨.hbm, 398, rfl⟩
abbrev main_v311 : Ref sig .tc := ⟨.hbm, 399, rfl⟩
abbrev main_v312 : Ref sig .tc := ⟨.hbm, 400, rfl⟩
abbrev main_c_57 : Ref sig .tc := ⟨.hbm, 401, rfl⟩
abbrev main_v313 : Ref sig .tc := ⟨.hbm, 402, rfl⟩
abbrev main_v314 : Ref sig .tc := ⟨.hbm, 403, rfl⟩
abbrev main_v315 : Ref sig .tc := ⟨.hbm, 404, rfl⟩
abbrev main_v316 : Ref sig .tc := ⟨.hbm, 405, rfl⟩
abbrev main_v317 : Ref sig .tc := ⟨.hbm, 406, rfl⟩
abbrev main_v318 : Ref sig .tc := ⟨.hbm, 407, rfl⟩
abbrev main_v319 : Ref sig .tc := ⟨.hbm, 408, rfl⟩
abbrev main_cst_58 : Ref sig .tc := ⟨.hbm, 409, rfl⟩
abbrev main_v320 : Ref sig .tc := ⟨.hbm, 410, rfl⟩
abbrev main_v321 : Ref sig .tc := ⟨.hbm, 411, rfl⟩
abbrev main_v322 : Ref sig .tc := ⟨.hbm, 412, rfl⟩
abbrev main_v323 : Ref sig .tc := ⟨.hbm, 413, rfl⟩
abbrev main_cst_59 : Ref sig .tc := ⟨.hbm, 414, rfl⟩
abbrev main_v324 : Ref sig .tc := ⟨.hbm, 415, rfl⟩
abbrev main_v325 : Ref sig .tc := ⟨.hbm, 416, rfl⟩
abbrev main_v326 : Ref sig .tc := ⟨.hbm, 417, rfl⟩
abbrev main_v327 : Ref sig .tc := ⟨.hbm, 418, rfl⟩
abbrev main_v328 : Ref sig .tc := ⟨.hbm, 419, rfl⟩
abbrev main_v329 : Ref sig .tc := ⟨.hbm, 420, rfl⟩
abbrev main_v330 : Ref sig .tc := ⟨.hbm, 421, rfl⟩
abbrev main_v331 : Ref sig .tc := ⟨.hbm, 422, rfl⟩
abbrev main_c_60 : Ref sig .tc := ⟨.hbm, 423, rfl⟩
abbrev main_v332 : Ref sig .tc := ⟨.hbm, 424, rfl⟩
abbrev main_v333 : Ref sig .tc := ⟨.hbm, 425, rfl⟩
abbrev main_c_61 : Ref sig .tc := ⟨.hbm, 426, rfl⟩
abbrev main_v334 : Ref sig .tc := ⟨.hbm, 427, rfl⟩
abbrev main_v335 : Ref sig .tc := ⟨.hbm, 428, rfl⟩
abbrev main_v336 : Ref sig .tc := ⟨.hbm, 429, rfl⟩
abbrev main_v337 : Ref sig .tc := ⟨.hbm, 430, rfl⟩
abbrev main_v338 : Ref sig .tc := ⟨.hbm, 431, rfl⟩
abbrev main_v339 : Ref sig .tc := ⟨.hbm, 432, rfl⟩
abbrev main_v340 : Ref sig .tc := ⟨.hbm, 433, rfl⟩
abbrev main_cst_62 : Ref sig .tc := ⟨.hbm, 434, rfl⟩
abbrev main_v341 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_cst_63 : Ref sig .tc := ⟨.hbm, 439, rfl⟩
abbrev main_v345 : Ref sig .tc := ⟨.hbm, 440, rfl⟩
abbrev main_v346 : Ref sig .tc := ⟨.hbm, 441, rfl⟩
abbrev main_v347 : Ref sig .tc := ⟨.hbm, 442, rfl⟩
abbrev main_cst_64 : Ref sig .tc := ⟨.hbm, 443, rfl⟩
abbrev main_v348 : Ref sig .tc := ⟨.hbm, 444, rfl⟩
abbrev main_v349 : Ref sig .tc := ⟨.hbm, 445, rfl⟩
abbrev main_v350 : Ref sig .tc := ⟨.hbm, 446, rfl⟩
abbrev main_v351 : Ref sig .tc := ⟨.hbm, 447, rfl⟩
abbrev main_v352 : Ref sig .tc := ⟨.hbm, 448, rfl⟩
abbrev main_v353 : Ref sig .tc := ⟨.hbm, 449, rfl⟩
abbrev main_v354 : Ref sig .tc := ⟨.hbm, 450, rfl⟩
abbrev main_v355 : Ref sig .tc := ⟨.hbm, 451, rfl⟩
abbrev main_v356 : Ref sig .tc := ⟨.hbm, 452, rfl⟩
abbrev main_v357 : Ref sig .tc := ⟨.hbm, 453, rfl⟩
abbrev main_v358 : Ref sig .tc := ⟨.hbm, 454, rfl⟩
abbrev main_v359 : Ref sig .tc := ⟨.hbm, 455, rfl⟩
abbrev main_v360 : Ref sig .tc := ⟨.hbm, 456, rfl⟩
abbrev main_v361 : Ref sig .tc := ⟨.hbm, 457, rfl⟩
abbrev main_v362 : Ref sig .tc := ⟨.hbm, 458, rfl⟩
abbrev main_v363 : Ref sig .tc := ⟨.hbm, 459, rfl⟩
abbrev main_v364 : Ref sig .tc := ⟨.hbm, 460, rfl⟩
abbrev main_v365 : Ref sig .tc := ⟨.hbm, 461, rfl⟩
abbrev main_v366 : Ref sig .tc := ⟨.hbm, 462, rfl⟩
abbrev main_v367 : Ref sig .tc := ⟨.hbm, 463, rfl⟩
abbrev main_v368 : Ref sig .tc := ⟨.hbm, 464, rfl⟩
abbrev main_c_65 : Ref sig .tc := ⟨.hbm, 465, rfl⟩
abbrev main_v369 : Ref sig .tc := ⟨.hbm, 466, rfl⟩
abbrev main_v370 : Ref sig .tc := ⟨.hbm, 467, rfl⟩
abbrev main_c_66 : Ref sig .tc := ⟨.hbm, 468, rfl⟩
abbrev main_v371 : Ref sig .tc := ⟨.hbm, 469, rfl⟩
abbrev main_v372 : Ref sig .tc := ⟨.hbm, 470, rfl⟩
abbrev main_v373 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_cst_67 : Ref sig .tc := ⟨.hbm, 476, rfl⟩
abbrev main_v378 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_cst_68 : Ref sig .tc := ⟨.hbm, 481, rfl⟩
abbrev main_v382 : Ref sig .tc := ⟨.hbm, 482, rfl⟩
abbrev main_v383 : Ref sig .tc := ⟨.hbm, 483, rfl⟩
abbrev main_v384 : Ref sig .tc := ⟨.hbm, 484, rfl⟩
abbrev main_v385 : Ref sig .tc := ⟨.hbm, 485, rfl⟩
abbrev main_v386 : Ref sig .tc := ⟨.hbm, 486, rfl⟩
abbrev main_v387 : Ref sig .tc := ⟨.hbm, 487, rfl⟩
abbrev main_v388 : Ref sig .tc := ⟨.hbm, 488, rfl⟩
abbrev main_v389 : Ref sig .tc := ⟨.hbm, 489, rfl⟩
abbrev main_c_69 : Ref sig .tc := ⟨.hbm, 490, rfl⟩
abbrev main_v390 : Ref sig .tc := ⟨.hbm, 491, rfl⟩
abbrev main_v391 : Ref sig .tc := ⟨.hbm, 492, rfl⟩
abbrev main_c_70 : Ref sig .tc := ⟨.hbm, 493, rfl⟩
abbrev main_v392 : Ref sig .tc := ⟨.hbm, 494, rfl⟩
abbrev main_v393 : Ref sig .tc := ⟨.hbm, 495, rfl⟩
abbrev main_v394 : Ref sig .tc := ⟨.hbm, 496, rfl⟩
abbrev main_v395 : Ref sig .tc := ⟨.hbm, 497, rfl⟩
abbrev main_v396 : Ref sig .tc := ⟨.hbm, 498, rfl⟩
abbrev main_v397 : Ref sig .tc := ⟨.hbm, 499, rfl⟩
abbrev main_v398 : Ref sig .tc := ⟨.hbm, 500, rfl⟩
abbrev main_cst_71 : Ref sig .tc := ⟨.hbm, 501, rfl⟩
abbrev main_v399 : Ref sig .tc := ⟨.hbm, 502, rfl⟩
abbrev main_v400 : Ref sig .tc := ⟨.hbm, 503, rfl⟩
abbrev main_v401 : Ref sig .tc := ⟨.hbm, 504, rfl⟩
abbrev main_v402 : Ref sig .tc := ⟨.hbm, 505, rfl⟩
abbrev main_cst_72 : Ref sig .tc := ⟨.hbm, 506, rfl⟩
abbrev main_v403 : Ref sig .tc := ⟨.hbm, 507, rfl⟩
abbrev main_v404 : Ref sig .tc := ⟨.hbm, 508, rfl⟩
abbrev main_v405 : Ref sig .tc := ⟨.hbm, 509, rfl⟩
abbrev main_cst_73 : Ref sig .tc := ⟨.hbm, 510, rfl⟩
abbrev main_v406 : Ref sig .tc := ⟨.hbm, 511, rfl⟩
abbrev main_v407 : Ref sig .tc := ⟨.hbm, 512, rfl⟩
abbrev main_v408 : Ref sig .tc := ⟨.hbm, 513, rfl⟩
abbrev main_v409 : Ref sig .tc := ⟨.hbm, 514, rfl⟩
abbrev main_v410 : Ref sig .tc := ⟨.hbm, 515, rfl⟩
abbrev main_v411 : Ref sig .tc := ⟨.hbm, 516, rfl⟩
abbrev main_v412 : Ref sig .tc := ⟨.hbm, 517, rfl⟩
abbrev main_v413 : Ref sig .tc := ⟨.hbm, 518, rfl⟩
abbrev main_v414 : Ref sig .tc := ⟨.hbm, 519, rfl⟩
abbrev main_v415 : Ref sig .tc := ⟨.hbm, 520, rfl⟩
abbrev main_v416 : Ref sig .tc := ⟨.hbm, 521, rfl⟩
abbrev main_v417 : Ref sig .tc := ⟨.hbm, 522, rfl⟩
abbrev main_v418 : Ref sig .tc := ⟨.hbm, 523, rfl⟩
abbrev main_v419 : Ref sig .tc := ⟨.hbm, 524, rfl⟩
abbrev main_c_74 : Ref sig .tc := ⟨.hbm, 525, rfl⟩
abbrev main_v420 : Ref sig .tc := ⟨.hbm, 526, rfl⟩
abbrev main_v421 : Ref sig .tc := ⟨.hbm, 527, rfl⟩
abbrev main_c_75 : Ref sig .tc := ⟨.hbm, 528, rfl⟩
abbrev main_v422 : Ref sig .tc := ⟨.hbm, 529, rfl⟩
abbrev main_v423 : Ref sig .tc := ⟨.hbm, 530, rfl⟩
abbrev main_v424 : Ref sig .tc := ⟨.hbm, 531, rfl⟩
abbrev main_v425 : Ref sig .tc := ⟨.hbm, 532, rfl⟩
abbrev main_v426 : Ref sig .tc := ⟨.hbm, 533, rfl⟩
abbrev main_v427 : Ref sig .tc := ⟨.hbm, 534, rfl⟩
abbrev main_v428 : Ref sig .tc := ⟨.hbm, 535, rfl⟩
abbrev main_cst_76 : Ref sig .tc := ⟨.hbm, 536, rfl⟩
abbrev main_v429 : Ref sig .tc := ⟨.hbm, 537, rfl⟩
abbrev main_v430 : Ref sig .tc := ⟨.hbm, 538, rfl⟩
abbrev main_v431 : Ref sig .tc := ⟨.hbm, 539, rfl⟩
abbrev main_v432 : Ref sig .tc := ⟨.hbm, 540, rfl⟩
abbrev main_cst_77 : Ref sig .tc := ⟨.hbm, 541, rfl⟩
abbrev main_v433 : Ref sig .tc := ⟨.hbm, 542, rfl⟩
abbrev main_v434 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_v438 : Ref sig .tc := ⟨.hbm, 547, rfl⟩
abbrev main_v439 : Ref sig .tc := ⟨.hbm, 548, rfl⟩
abbrev main_v440 : Ref sig .tc := ⟨.hbm, 549, rfl⟩
abbrev main_c_78 : Ref sig .tc := ⟨.hbm, 550, rfl⟩
abbrev main_v441 : Ref sig .tc := ⟨.hbm, 551, rfl⟩
abbrev main_v442 : Ref sig .tc := ⟨.hbm, 552, rfl⟩
abbrev main_c_79 : Ref sig .tc := ⟨.hbm, 553, rfl⟩
abbrev main_v443 : Ref sig .tc := ⟨.hbm, 554, rfl⟩
abbrev main_v444 : Ref sig .tc := ⟨.hbm, 555, rfl⟩
abbrev main_v445 : Ref sig .tc := ⟨.hbm, 556, rfl⟩
abbrev main_v446 : Ref sig .tc := ⟨.hbm, 557, rfl⟩
abbrev main_v447 : Ref sig .tc := ⟨.hbm, 558, rfl⟩
abbrev main_v448 : Ref sig .tc := ⟨.hbm, 559, rfl⟩
abbrev main_v449 : Ref sig .tc := ⟨.hbm, 560, rfl⟩
abbrev main_cst_80 : Ref sig .tc := ⟨.hbm, 561, rfl⟩
abbrev main_v450 : Ref sig .tc := ⟨.hbm, 562, rfl⟩
abbrev main_v451 : Ref sig .tc := ⟨.hbm, 563, rfl⟩
abbrev main_v452 : Ref sig .tc := ⟨.hbm, 564, rfl⟩
abbrev main_v453 : Ref sig .tc := ⟨.hbm, 565, rfl⟩
abbrev main_cst_81 : Ref sig .tc := ⟨.hbm, 566, rfl⟩
abbrev main_v454 : Ref sig .tc := ⟨.hbm, 567, rfl⟩
abbrev main_v455 : Ref sig .tc := ⟨.hbm, 568, rfl⟩
abbrev main_v456 : Ref sig .tc := ⟨.hbm, 569, rfl⟩
abbrev main_cst_82 : Ref sig .tc := ⟨.hbm, 570, rfl⟩
abbrev main_v457 : Ref sig .tc := ⟨.hbm, 571, rfl⟩
abbrev main_v458 : Ref sig .tc := ⟨.hbm, 572, rfl⟩
abbrev main_v459 : Ref sig .tc := ⟨.hbm, 573, rfl⟩
abbrev main_v460 : Ref sig .tc := ⟨.hbm, 574, rfl⟩
abbrev main_v461 : Ref sig .tc := ⟨.hbm, 575, rfl⟩
abbrev main_v462 : Ref sig .tc := ⟨.hbm, 576, rfl⟩
abbrev main_v463 : Ref sig .tc := ⟨.hbm, 577, rfl⟩
abbrev main_v464 : Ref sig .tc := ⟨.hbm, 578, rfl⟩
abbrev main_v465 : Ref sig .tc := ⟨.hbm, 579, rfl⟩
abbrev main_v466 : Ref sig .tc := ⟨.hbm, 580, rfl⟩
abbrev main_v467 : Ref sig .tc := ⟨.hbm, 581, rfl⟩
abbrev main_v468 : Ref sig .tc := ⟨.hbm, 582, rfl⟩
abbrev main_v469 : Ref sig .tc := ⟨.hbm, 583, rfl⟩
abbrev main_v470 : Ref sig .tc := ⟨.hbm, 584, rfl⟩
abbrev main_v471 : Ref sig .tc := ⟨.hbm, 585, rfl⟩
abbrev main_cst_83 : Ref sig .tc := ⟨.hbm, 586, rfl⟩
abbrev main_v472 : Ref sig .tc := ⟨.hbm, 587, rfl⟩
abbrev main_v473 : Ref sig .tc := ⟨.hbm, 588, rfl⟩
abbrev main_cst_84 : Ref sig .tc := ⟨.hbm, 589, rfl⟩
abbrev main_v474 : Ref sig .tc := ⟨.hbm, 590, rfl⟩
abbrev main_v475 : Ref sig .tc := ⟨.hbm, 591, rfl⟩
abbrev main_v476 : Ref sig .tc := ⟨.hbm, 592, rfl⟩
abbrev main_v477 : Ref sig .tc := ⟨.hbm, 593, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.FrameK.lean ====
/-
  The frame of the gate kernel's program: the host code before the launch, the launch over the 25
  node tiles, and the two column slices after it.

  The launch stages, per tile t of 2000 nodes, rows [2000 t, 2000 t + 2000) of the three Chebyshev
  terms (128 columns each) and of the cell state (64 columns), and the stacked weights and bias whole
  (fetched at the first tile, kept afterwards). The body reads those six blocks and fills the output
  block: columns [0, 64) with the new hidden state, columns [64, 128) with the new cell state. So
  after the body the output's staging buffer holds `outBlock` of the six input blocks, the two
  stores covering it. Nothing the host code or the launch writes is an argument array, so each
  argument ends as it began; the cell state, which the launch stages as an input, is returned
  unchanged by the launch itself.
-/
import proofs.«161508_j42691974922289_2_alg».proof.Proof.Gen.Kernel.Launch
import proofs.«161508_j42691974922289_2_alg».proof.Proof.Gen.Kernel.Skeleton
import proofs.«161508_j42691974922289_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code around the launch -/

/-- The stretches of host operations before the launch, in order. -/
abbrev before : List (List (HloOp τ sig (Elt F))) := [hostOps0, hostOps0_1, hostOps0_2, hostOps0_3, hostOps0_4]

/-- The buffers' contents when the launch begins: the launch memory after the host operations before it. -/
abbrev V0 (c : Dev nD) : Valuation τ sig (Elt F) := StableHlo.after (List.flatten before) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host stretches, the launch, the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The two slices touch only buffers the launch leaves alone or its arrays, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the launch's arrays (each writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are never written -/

/-- No host operation before the launch writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 9. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 10. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 11. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 12. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 13. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 14. -/
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 15. -/
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 16. -/
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 17. -/
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 18. -/
theorem V_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 19. -/
theorem V_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 20. -/
theorem V_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 21. -/
theorem V_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 22. -/
theorem V_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 23. -/
theorem V_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 24. -/
theorem V_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the launch or either slice: argument 0 ends as it began. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c
/-- Nor does the launch or either slice: argument 1 ends as it began. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c
/-- Nor does the launch or either slice: argument 2 ends as it began. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c
/-- Nor does the launch or either slice: argument 3 ends as it began. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c
/-- Nor does the launch or either slice: argument 5 ends as it began. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c
/-- Nor does the launch or either slice: argument 6 ends as it began. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c
/-- Nor does the launch or either slice: argument 7 ends as it began. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_arg7 m c
/-- Nor does the launch or either slice: argument 8 ends as it began. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c
/-- Nor does the launch or either slice: argument 9 ends as it began. -/
theorem W_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_arg9 m c
/-- Nor does the launch or either slice: argument 10 ends as it began. -/
theorem W_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_arg10 m c
/-- Nor does the launch or either slice: argument 11 ends as it began. -/
theorem W_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_arg11 m c
/-- Nor does the launch or either slice: argument 12 ends as it began. -/
theorem W_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_arg12 m c
/-- Nor does the launch or either slice: argument 13 ends as it began. -/
theorem W_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_arg13 m c
/-- Nor does the launch or either slice: argument 14 ends as it began. -/
theorem W_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_arg14 m c
/-- Nor does the launch or either slice: argument 15 ends as it began. -/
theorem W_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_arg15 m c
/-- Nor does the launch or either slice: argument 16 ends as it began. -/
theorem W_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_arg16 m c
/-- Nor does the launch or either slice: argument 17 ends as it began. -/
theorem W_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_arg17 m c
/-- Nor does the launch or either slice: argument 18 ends as it began. -/
theorem W_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_arg18 m c
/-- Nor does the launch or either slice: argument 19 ends as it began. -/
theorem W_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_arg19 m c
/-- Nor does the launch or either slice: argument 20 ends as it began. -/
theorem W_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_arg20 m c
/-- Nor does the launch or either slice: argument 21 ends as it began. -/
theorem W_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_arg21 m c
/-- Nor does the launch or either slice: argument 22 ends as it began. -/
theorem W_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_arg22 m c
/-- Nor does the launch or either slice: argument 23 ends as it began. -/
theorem W_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_arg23 m c
/-- Nor does the launch or either slice: argument 24 ends as it began. -/
theorem W_arg24 (dats : (p : Fin _) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) := by
  unfold Pipeline.afterTail₀
  rw [StableHlo.after_of_forall_not_mem (b := Proc.devRef .tc main_arg24) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg24 (by exact (by decide : ∀ w, Pipeline.arrRef spec0 w ≠ main_arg24))]
  exact V_arg24 m c

/-! ## The blocks the body reads -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or kept from the tile before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or kept from the tile before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or kept from the tile before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or kept from the tile before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or kept from the tile before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or kept from the tile before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rTerm : Rect S2000x128 := Rect.unit (s := S2000x128) ![0, 0] S2000x128.size inb_S2000x128_S2000x128_0_0
abbrev rCell : Rect S2000x64 := Rect.unit (s := S2000x64) ![0, 0] S2000x64.size inb_S2000x64_S2000x64_0_0
abbrev rW0 : Rect S3x128x256 := Rect.unit (s := S3x128x256) ![0, 0, 0] S1x128x256.size inb_S3x128x256_S1x128x256_0_0_0
abbrev rW1 : Rect S3x128x256 := Rect.unit (s := S3x128x256) ![1, 0, 0] S1x128x256.size inb_S3x128x256_S1x128x256_1_0_0
abbrev rW2 : Rect S3x128x256 := Rect.unit (s := S3x128x256) ![2, 0, 0] S1x128x256.size inb_S3x128x256_S1x128x256_2_0_0
abbrev rBias : Rect S1x256 := Rect.unit (s := S1x256) ![0, 0] S1x256.size inb_S1x256_S1x256_0_0
abbrev rLo : Rect S2000x128 := Rect.unit (s := S2000x128) ![0, 0] S2000x64.size inb_S2000x128_S2000x64_0_0
abbrev rHi : Rect S2000x128 := Rect.unit (s := S2000x128) ![0, 64] S2000x64.size inb_S2000x128_S2000x64_0_64

/-- The input gate, the candidate, the output gate and forget-gate-times-cell of a tile, from its blocks. -/
def gI (x0 x1 x2 : Vec F S2000x128 .f32) (x4 : Vec F S3x128x256 .f32) (x5 : Vec F S1x256 .f32) : FVec F S2000x64 .f32 :=
  k0_pay4 (View.ld x0 rTerm) (View.ld x1 rTerm) (View.ld x2 rTerm) (View.ld x4 rW0) (View.ld x4 rW1) (View.ld x4 rW2) (View.ld x5 rBias)
def gT (x0 x1 x2 : Vec F S2000x128 .f32) (x4 : Vec F S3x128x256 .f32) (x5 : Vec F S1x256 .f32) : FVec F S2000x64 .f32 :=
  k0_pay5 (View.ld x0 rTerm) (View.ld x1 rTerm) (View.ld x2 rTerm) (View.ld x4 rW0) (View.ld x4 rW1) (View.ld x4 rW2) (View.ld x5 rBias)
def gO (x0 x1 x2 : Vec F S2000x128 .f32) (x4 : Vec F S3x128x256 .f32) (x5 : Vec F S1x256 .f32) : FVec F S2000x64 .f32 :=
  k0_pay6 (View.ld x0 rTerm) (View.ld x1 rTerm) (View.ld x2 rTerm) (View.ld x4 rW0) (View.ld x4 rW1) (View.ld x4 rW2) (View.ld x5 rBias)
def gFC (x0 x1 x2 : Vec F S2000x128 .f32) (x3 : Vec F S2000x64 .f32) (x4 : Vec F S3x128x256 .f32) (x5 : Vec F S1x256 .f32) : FVec F S2000x64 .f32 :=
  k0_pay7 (View.ld x0 rTerm) (View.ld x1 rTerm) (View.ld x2 rTerm) (View.ld x4 rW0) (View.ld x4 rW1) (View.ld x4 rW2) (View.ld x5 rBias) (View.ld x3 rCell)

/-- The output block after the body: the new cell state in its right half (stored last), the new hidden
    state in its left half. -/
def outBlock (x0 x1 x2 : Vec F S2000x128 .f32) (x3 : Vec F S2000x64 .f32) (x4 : Vec F S3x128x256 .f32) (x5 : Vec F S1x256 .f32) : Vec F S2000x128 .f32 :=
  View.canon [⟨rHi, k0_pay1 (gI x0 x1 x2 x4 x5) (gT x0 x1 x2 x4 x5) (gFC x0 x1 x2 x3 x4 x5)⟩,
    ⟨rLo, k0_pay2 (gI x0 x1 x2 x4 x5) (gT x0 x1 x2 x4 x5) (gO x0 x1 x2 x4 x5) (gFC x0 x1 x2 x3 x4 x5)⟩]

/-- The two halves tile the block. -/
theorem halves_cover (p0 p1 : Vec F S2000x64 .f32) (y : S2000x128.Idx) :
    ∃ pc ∈ ([⟨rHi, p0⟩, ⟨rLo, p1⟩] : List (View.Piece (Elt F) S2000x128 .f32)), y ∈ pc.1.set :=
  View.cover_of_tiled [⟨rHi, p0⟩, ⟨rLo, p1⟩] S2000x64.size (by rfl) y

/-! ## The body -/

set_option maxHeartbeats 4000000 in
/-- On whole staging buffers, the six inputs' at contents `x0 … x5` and the output's at anything, the body runs
    to the end leaving the inputs' as they were and the output's at `outBlock` of them. -/
theorem body_run (c : Dev nD) (E : Set ℕ) (i : grid0.Coords)
    (a1 : Memref sig .tc .vmem S2000x128 .f32) (h1 : a1.IsWhole) (a2 : Memref sig .tc .vmem S2000x128 .f32) (h2 : a2.IsWhole)
    (a3 : Memref sig .tc .vmem S2000x128 .f32) (h3 : a3.IsWhole) (a4 : Memref sig .tc .vmem S2000x64 .f32) (h4 : a4.IsWhole)
    (a5 : Memref sig .tc .vmem S3x128x256 .f32) (h5 : a5.IsWhole) (a6 : Memref sig .tc .vmem S1x256 .f32) (h6 : a6.IsWhole)
    (a7 : Memref sig .tc .vmem S2000x128 .f32) (h7 : a7.IsWhole)
    (x0 x1 x2 : Vec F S2000x128 .f32) (x3 : Vec F S2000x64 .f32) (x4 : Vec F S3x128x256 .f32) (x5 : Vec F S1x256 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outBlock x0 x1 x2 x3 x4 x5)) -∗ K ⟨⟩))
      ⊢ wp frame (wpE (defs₀ (F := F)) Variants.none c none) E (cc0__gate_kernel i a1 h1 a2 h2 a3 h3 a4 h4 a5 h5 a6 h6 a7 h7) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (halves_cover _ _)

/-! ## What holds between tiles -/

/-- Per core: the arrays as the launch finds them; after the body at tile `t` each input's buffer still at its
    block and the output's at `outBlock` of the six blocks; nothing else is kept between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, without a fault, with the launch's arrays at what the
    tiles wrote back and every other buffer as the two slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)
      ∧       r.2.mem ((c.tc : Thread nD τ).loc main_arg23) = m ((c.tc : Thread nD τ).loc main_arg23)
      ∧       r.2.mem ((c.tc : Thread nD τ).loc main_arg24) = m ((c.tc : Thread nD τ).loc main_arg24)) :=
  (θ_run defs _ _).mono (fun _ h c => ⟨(((h c).2 main_arg0 (Pipeline.mem_restRefs_of main_arg0 (by decide) (by decide))).trans (W_arg0 m (dats m) c)),
    (((h c).2 main_arg1 (Pipeline.mem_restRefs_of main_arg1 (by decide) (by decide))).trans (W_arg1 m (dats m) c)),
    (((h c).2 main_arg2 (Pipeline.mem_restRefs_of main_arg2 (by decide) (by decide))).trans (W_arg2 m (dats m) c)),
    (((h c).2 main_arg3 (Pipeline.mem_restRefs_of main_arg3 (by decide) (by decide))).trans (W_arg3 m (dats m) c)),
    (((h c).1 3).trans (((dats m 0 c).arrAt_in 3 rfl _).trans ((A_eq m c 3).trans (V_arg4 m c)))),
    (((h c).2 main_arg5 (Pipeline.mem_restRefs_of main_arg5 (by decide) (by decide))).trans (W_arg5 m (dats m) c)),
    (((h c).2 main_arg6 (Pipeline.mem_restRefs_of main_arg6 (by decide) (by decide))).trans (W_arg6 m (dats m) c)),
    (((h c).2 main_arg7 (Pipeline.mem_restRefs_of main_arg7 (by decide) (by decide))).trans (W_arg7 m (dats m) c)),
    (((h c).2 main_arg8 (Pipeline.mem_restRefs_of main_arg8 (by decide) (by decide))).trans (W_arg8 m (dats m) c)),
    (((h c).2 main_arg9 (Pipeline.mem_restRefs_of main_arg9 (by decide) (by decide))).trans (W_arg9 m (dats m) c)),
    (((h c).2 main_arg10 (Pipeline.mem_restRefs_of main_arg10 (by decide) (by decide))).trans (W_arg10 m (dats m) c)),
    (((h c).2 main_arg11 (Pipeline.mem_restRefs_of main_arg11 (by decide) (by decide))).trans (W_arg11 m (dats m) c)),
    (((h c).2 main_arg12 (Pipeline.mem_restRefs_of main_arg12 (by decide) (by decide))).trans (W_arg12 m (dats m) c)),
    (((h c).2 main_arg13 (Pipeline.mem_restRefs_of main_arg13 (by decide) (by decide))).trans (W_arg13 m (dats m) c)),
    (((h c).2 main_arg14 (Pipeline.mem_restRefs_of main_arg14 (by decide) (by decide))).trans (W_arg14 m (dats m) c)),
    (((h c).2 main_arg15 (Pipeline.mem_restRefs_of main_arg15 (by decide) (by decide))).trans (W_arg15 m (dats m) c)),
    (((h c).2 main_arg16 (Pipeline.mem_restRefs_of main_arg16 (by decide) (by decide))).trans (W_arg16 m (dats m) c)),
    (((h c).2 main_arg17 (Pipeline.mem_restRefs_of main_arg17 (by decide) (by decide))).trans (W_arg17 m (dats m) c)),
    (((h c).2 main_arg18 (Pipeline.mem_restRefs_of main_arg18 (by decide) (by decide))).trans (W_arg18 m (dats m) c)),
    (((h c).2 main_arg19 (Pipeline.mem_restRefs_of main_arg19 (by decide) (by decide))).trans (W_arg19 m (dats m) c)),
    (((h c).2 main_arg20 (Pipeline.mem_restRefs_of main_arg20 (by decide) (by decide))).trans (W_arg20 m (dats m) c)),
    (((h c).2 main_arg21 (Pipeline.mem_restRefs_of main_arg21 (by decide) (by decide))).trans (W_arg21 m (dats m) c)),
    (((h c).2 main_arg22 (Pipeline.mem_restRefs_of main_arg22 (by decide) (by decide))).trans (W_arg22 m (dats m) c)),
    (((h c).2 main_arg23 (Pipeline.mem_restRefs_of main_arg23 (by decide) (by decide))).trans (W_arg23 m (dats m) c)),
    (((h c).2 main_arg24 (Pipeline.mem_restRefs_of main_arg24 (by decide) (by decide))).trans (W_arg24 m (dats m) c))⟩) (run_main m ρ)

end Cert.Kernel.Hand

end
-- ==== Proof.FrameKI.lean ====
/-
  The frame of the gate kernel's program: the host code before the launch, the launch over the 25
  node tiles, and the two column slices after it.

  The launch stages, per tile t of 2000 nodes, rows [2000 t, 2000 t + 2000) of the three Chebyshev
  terms (128 columns each) and of the cell state (64 columns), and the stacked weights and bias whole
  (fetched at the first tile, kept afterwards). The body reads those six blocks and fills the output
  block: columns [0, 64) with the new hidden state, columns [64, 128) with the new cell state. So
  after the body the output's staging buffer holds `outBlock` of the six input blocks, the two
  stores covering it. Nothing the host code or the launch writes is an argument array, so each
  argument ends as it began; the cell state, which the launch stages as an input, is returned
  unchanged by the launch itself.
-/
import proofs.«161508_j42691974922289_2_alg».proof.Proof.Gen.KernelIdeal.Launch
import proofs.«161508_j42691974922289_2_alg».proof.Proof.Gen.KernelIdeal.Skeleton
import proofs.«161508_j42691974922289_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host code around the launch -/

/-- The stretches of host operations before the launch, in order. -/
abbrev before : List (List (HloOp τ sig (Elt F))) := [hostOps0, hostOps0_1, hostOps0_2, hostOps0_3, hostOps0_4]

/-- The buffers' contents when the launch begins: the launch memory after the host operations before it. -/
abbrev V0 (c : Dev nD) : Valuation τ sig (Elt F) := StableHlo.after (List.flatten before) (fun b => m (c, b))
/-- The same, read at a TensorCore buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host stretches, the launch, the two slices. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main before [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The two slices touch only buffers the launch leaves alone or its arrays, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocate nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and write none of the launch's arrays (each writes its own result). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays are never written -/

/-- No host operation before the launch writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 6. -/
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 7. -/
theorem V_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 8. -/
theorem V_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 9. -/
theorem V_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 10. -/
theorem V_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 11. -/
theorem V_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 12. -/
theorem V_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 13. -/
theorem V_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 14. -/
theorem V_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 15. -/
theorem V_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 16. -/
theorem V_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 17. -/
theorem V_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 18. -/
theorem V_arg18 (c : Dev nD) : V m c main_arg18 = m ((c : Thread nD τ).loc main_arg18) :=
  StableHlo.after_of_forall_not_mem (b := Proc.devRef .tc main_arg18) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 19. -/
theorem V_arg19 (c : Dev nD) : V m c main_arg19 = m ((c : Thread nD τ).loc main_arg19) :=
  StableHlo.after_of_forall_not_mem (b := Proc.devRef .tc main_arg19) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 20. -/
theorem V_arg20 (c : Dev nD) : V m c main_arg20 = m ((c : Thread nD τ).loc main_arg20) :=
  StableHlo.after_of_forall_not_mem (b := Proc.devRef .tc main_arg20) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 21. -/
theorem V_arg21 (c : Dev nD) : V m c main_arg21 = m ((c : Thread nD τ).loc main_arg21) :=
  StableHlo.after_of_forall_not_mem (b := Proc.devRef .tc main_arg21) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 22. -/
theorem V_arg22 (c : Dev nD) : V m c main_arg22 = m ((c : Thread nD τ).loc main_arg22) :=
  StableHlo.after_of_forall_not_mem (b := Proc.devRef .tc main_arg22) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 23. -/
theorem V_arg23 (c : Dev nD) : V m c main_arg23 = m ((c : Thread nD τ).loc main_arg23) :=
  StableHlo.after_of_forall_not_mem (b := Proc.devRef .tc main_arg23) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the launch writes argument 24. -/
theorem V_arg24 (c : Dev nD) : V m c main_arg24 = m ((c : Thread nD τ).loc main_arg24) :=
  StableHlo.after_of_forall_not_mem (b := Proc.devRef .tc main_arg24) _ _ (List.forall_iff_forall_mem.mp (by
    simp only [hostOps0, hostOps0_1, hostOps0_2, hostOps0_3, hostOps0_4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-- Nor does the launch or either slice: argument 0 ends as it began. -/
theorem W_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c
/-- Nor does the launch or either slice: argument 1 ends as it began. -/
theorem W_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c
/-- Nor does the launch or either slice: argument 2 ends as it began. -/
theorem W_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_arg2 m c
/-- Nor does the launch or either slice: argument 3 ends as it began. -/
theorem W_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_arg3 m c
/-- Nor does the launch or either slice: argument 5 ends as it began. -/
theorem W_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_arg5 m c
/-- Nor does the launch or either slice: argument 6 ends as it began. -/
theorem W_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_arg6 m c
/-- Nor does the launch or either slice: argument 7 ends as it began. -/
theorem W_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_arg7 m c
/-- Nor does the launch or either slice: argument 8 ends as it began. -/
theorem W_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_arg8 m c
/-- Nor does the launch or either slice: argument 9 ends as it began. -/
theorem W_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_arg9 m c
/-- Nor does the launch or either slice: argument 10 ends as it began. -/
theorem W_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_arg10 m c
/-- Nor does the launch or either slice: argument 11 ends as it began. -/
theorem W_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_arg11 m c
/-- Nor does the launch or either slice: argument 12 ends as it began. -/
theorem W_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_arg12 m c
/-- Nor does the launch or either slice: argument 13 ends as it began. -/
theorem W_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_arg13 m c
/-- Nor does the launch or either slice: argument 14 ends as it began. -/
theorem W_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_arg14 m c
/-- Nor does the launch or either slice: argument 15 ends as it began. -/
theorem W_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_arg15 m c
/-- Nor does the launch or either slice: argument 16 ends as it began. -/
theorem W_arg16 (dats : (p : Fin _) → (c : Dev nD) → Dat τ (Elt F) Unit ℕ (UR sig nD τ) ℕ (cfgs p) c) (c : Dev nD) :
    Pipeline.afterTail₀ cfgs dats 0 (V0 m) [hostOps1] c main_arg16 = m ((c : Thread nD τ).loc main_arg16) := by
  unfold Pipeline.afterTail₀
  rw [StableHlo.after_of_forall_not_mem (b := Proc.devRef .tc main_arg16) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg16 (by exact (by decide : ∀ w, Pipeline.arrRef spec0 w ≠ main_arg16))]
  exact V_arg16 m c
/-- Nor does the launch or either slice: argument 17 ends as it began. -/
theorem W_arg17 (dats : (p : Fin _) → (c : Dev nD) → Dat τ (Elt F) Unit ℕ (UR sig nD τ) ℕ (cfgs p) c) (c : Dev nD) :
    Pipeline.afterTail₀ cfgs dats 0 (V0 m) [hostOps1] c main_arg17 = m ((c : Thread nD τ).loc main_arg17) := by
  unfold Pipeline.afterTail₀
  rw [StableHlo.after_of_forall_not_mem (b := Proc.devRef .tc main_arg17) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg17 (by exact (by decide : ∀ w, Pipeline.arrRef spec0 w ≠ main_arg17))]
  exact V_arg17 m c
/-- Nor does the launch or either slice: argument 18 ends as it began. -/
theorem W_arg18 (dats : (p : Fin _) → (c : Dev nD) → Dat τ (Elt F) Unit ℕ (UR sig nD τ) ℕ (cfgs p) c) (c : Dev nD) :
    Pipeline.afterTail₀ cfgs dats 0 (V0 m) [hostOps1] c main_arg18 = m ((c : Thread nD τ).loc main_arg18) := by
  unfold Pipeline.afterTail₀
  rw [StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg18 (by exact (by decide : ∀ w, Pipeline.arrRef spec0 w ≠ main_arg18))]
  exact V_arg18 m c
/-- Nor does the launch or either slice: argument 19 ends as it began. -/
theorem W_arg19 (dats : (p : Fin _) → (c : Dev nD) → Dat τ (Elt F) Unit ℕ (UR sig nD τ) ℕ (cfgs p) c) (c : Dev nD) :
    Pipeline.afterTail₀ cfgs dats 0 (V0 m) [hostOps1] c main_arg19 = m ((c : Thread nD τ).loc main_arg19) := by
  unfold Pipeline.afterTail₀
  rw [StableHlo.after_of_forall_not_mem (b := Proc.devRef .tc main_arg19) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg19 (by exact (by decide : ∀ w, Pipeline.arrRef spec0 w ≠ main_arg19))]
  exact V_arg19 m c
/-- Nor does the launch or either slice: argument 20 ends as it began. -/
theorem W_arg20 (dats : (p : Fin _) → (c : Dev nD) → Dat τ (Elt F) Unit ℕ (UR sig nD τ) ℕ (cfgs p) c) (c : Dev nD) :
    Pipeline.afterTail₀ cfgs dats 0 (V0 m) [hostOps1] c main_arg20 = m ((c : Thread nD τ).loc main_arg20) := by
  unfold Pipeline.afterTail₀
  rw [StableHlo.after_of_forall_not_mem (b := Proc.devRef .tc main_arg20) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg20 (by exact (by decide : ∀ w, Pipeline.arrRef spec0 w ≠ main_arg20))]
  exact V_arg20 m c
/-- Nor does the launch or either slice: argument 21 ends as it began. -/
theorem W_arg21 (dats : (p : Fin _) → (c : Dev nD) → Dat τ (Elt F) Unit ℕ (UR sig nD τ) ℕ (cfgs p) c) (c : Dev nD) :
    Pipeline.afterTail₀ cfgs dats 0 (V0 m) [hostOps1] c main_arg21 = m ((c : Thread nD τ).loc main_arg21) := by
  unfold Pipeline.afterTail₀
  rw [StableHlo.after_of_forall_not_mem (b := Proc.devRef .tc main_arg21) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg21 (by exact (by decide : ∀ w, Pipeline.arrRef spec0 w ≠ main_arg21))]
  exact V_arg21 m c
/-- Nor does the launch or either slice: argument 22 ends as it began. -/
theorem W_arg22 (dats : (p : Fin _) → (c : Dev nD) → Dat τ (Elt F) Unit ℕ (UR sig nD τ) ℕ (cfgs p) c) (c : Dev nD) :
    Pipeline.afterTail₀ cfgs dats 0 (V0 m) [hostOps1] c main_arg22 = m ((c : Thread nD τ).loc main_arg22) := by
  unfold Pipeline.afterTail₀
  rw [StableHlo.after_of_forall_not_mem (b := Proc.devRef .tc main_arg22) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg22 (by exact (by decide : ∀ w, Pipeline.arrRef spec0 w ≠ main_arg22))]
  exact V_arg22 m c
/-- Nor does the launch or either slice: argument 23 ends as it began. -/
theorem W_arg23 (dats : (p : Fin _) → (c : Dev nD) → Dat τ (Elt F) Unit ℕ (UR sig nD τ) ℕ (cfgs p) c) (c : Dev nD) :
    Pipeline.afterTail₀ cfgs dats 0 (V0 m) [hostOps1] c main_arg23 = m ((c : Thread nD τ).loc main_arg23) := by
  unfold Pipeline.afterTail₀
  rw [StableHlo.after_of_forall_not_mem (b := Proc.devRef .tc main_arg23) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg23 (by exact (by decide : ∀ w, Pipeline.arrRef spec0 w ≠ main_arg23))]
  exact V_arg23 m c
/-- Nor does the launch or either slice: argument 24 ends as it began. -/
theorem W_arg24 (dats : (p : Fin _) → (c : Dev nD) → Dat τ (Elt F) Unit ℕ (UR sig nD τ) ℕ (cfgs p) c) (c : Dev nD) :
    Pipeline.afterTail₀ cfgs dats 0 (V0 m) [hostOps1] c main_arg24 = m ((c : Thread nD τ).loc main_arg24) := by
  unfold Pipeline.afterTail₀
  rw [StableHlo.after_of_forall_not_mem (b := Proc.devRef .tc main_arg24) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
      repeat' apply And.intro
      all_goals exact StableHlo.devRef_ne_of_ne (by decide))),
    Pipeline.withArrays_of_ne _ c (V0 m c) _ main_arg24 (by exact (by decide : ∀ w, Pipeline.arrRef spec0 w ≠ main_arg24))]
  exact V_arg24 m c

/-! ## The blocks the body reads -/

/-- Window `w`'s block at tile `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every tile, fetched there or kept from the tile before. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every tile, fetched there or kept from the tile before. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every tile, fetched there or kept from the tile before. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every tile, fetched there or kept from the tile before. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every tile, fetched there or kept from the tile before. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every tile, fetched there or kept from the tile before. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

abbrev rTerm : Rect S2000x128 := Rect.unit (s := S2000x128) ![0, 0] S2000x128.size inb_S2000x128_S2000x128_0_0
abbrev rCell : Rect S2000x64 := Rect.unit (s := S2000x64) ![0, 0] S2000x64.size inb_S2000x64_S2000x64_0_0
abbrev rW0 : Rect S3x128x256 := Rect.unit (s := S3x128x256) ![0, 0, 0] S1x128x256.size inb_S3x128x256_S1x128x256_0_0_0
abbrev rW1 : Rect S3x128x256 := Rect.unit (s := S3x128x256) ![1, 0, 0] S1x128x256.size inb_S3x128x256_S1x128x256_1_0_0
abbrev rW2 : Rect S3x128x256 := Rect.unit (s := S3x128x256) ![2, 0, 0] S1x128x256.size inb_S3x128x256_S1x128x256_2_0_0
abbrev rBias : Rect S1x256 := Rect.unit (s := S1x256) ![0, 0] S1x256.size inb_S1x256_S1x256_0_0
abbrev rLo : Rect S2000x128 := Rect.unit (s := S2000x128) ![0, 0] S2000x64.size inb_S2000x128_S2000x64_0_0
abbrev rHi : Rect S2000x128 := Rect.unit (s := S2000x128) ![0, 64] S2000x64.size inb_S2000x128_S2000x64_0_64

/-- The input gate, the candidate, the output gate and forget-gate-times-cell of a tile, from its blocks. -/
def gI (x0 x1 x2 : Vec F S2000x128 .f32) (x4 : Vec F S3x128x256 .f32) (x5 : Vec F S1x256 .f32) : FVec F S2000x64 .f32 :=
  k0_pay4 (View.ld x0 rTerm) (View.ld x1 rTerm) (View.ld x2 rTerm) (View.ld x4 rW0) (View.ld x4 rW1) (View.ld x4 rW2) (View.ld x5 rBias)
def gT (x0 x1 x2 : Vec F S2000x128 .f32) (x4 : Vec F S3x128x256 .f32) (x5 : Vec F S1x256 .f32) : FVec F S2000x64 .f32 :=
  k0_pay5 (View.ld x0 rTerm) (View.ld x1 rTerm) (View.ld x2 rTerm) (View.ld x4 rW0) (View.ld x4 rW1) (View.ld x4 rW2) (View.ld x5 rBias)
def gO (x0 x1 x2 : Vec F S2000x128 .f32) (x4 : Vec F S3x128x256 .f32) (x5 : Vec F S1x256 .f32) : FVec F S2000x64 .f32 :=
  k0_pay6 (View.ld x0 rTerm) (View.ld x1 rTerm) (View.ld x2 rTerm) (View.ld x4 rW0) (View.ld x4 rW1) (View.ld x4 rW2) (View.ld x5 rBias)
def gFC (x0 x1 x2 : Vec F S2000x128 .f32) (x3 : Vec F S2000x64 .f32) (x4 : Vec F S3x128x256 .f32) (x5 : Vec F S1x256 .f32) : FVec F S2000x64 .f32 :=
  k0_pay7 (View.ld x0 rTerm) (View.ld x1 rTerm) (View.ld x2 rTerm) (View.ld x4 rW0) (View.ld x4 rW1) (View.ld x4 rW2) (View.ld x5 rBias) (View.ld x3 rCell)

/-- The output block after the body: the new cell state in its right half (stored last), the new hidden
    state in its left half. -/
def outBlock (x0 x1 x2 : Vec F S2000x128 .f32) (x3 : Vec F S2000x64 .f32) (x4 : Vec F S3x128x256 .f32) (x5 : Vec F S1x256 .f32) : Vec F S2000x128 .f32 :=
  View.canon [⟨rHi, k0_pay1 (gI x0 x1 x2 x4 x5) (gT x0 x1 x2 x4 x5) (gFC x0 x1 x2 x3 x4 x5)⟩,
    ⟨rLo, k0_pay2 (gI x0 x1 x2 x4 x5) (gT x0 x1 x2 x4 x5) (gO x0 x1 x2 x4 x5) (gFC x0 x1 x2 x3 x4 x5)⟩]

/-- The two halves tile the block. -/
theorem halves_cover (p0 p1 : Vec F S2000x64 .f32) (y : S2000x128.Idx) :
    ∃ pc ∈ ([⟨rHi, p0⟩, ⟨rLo, p1⟩] : List (View.Piece (Elt F) S2000x128 .f32)), y ∈ pc.1.set :=
  View.cover_of_tiled [⟨rHi, p0⟩, ⟨rLo, p1⟩] S2000x64.size (by rfl) y

/-! ## The body -/

set_option maxHeartbeats 4000000 in
/-- On whole staging buffers, the six inputs' at contents `x0 … x5` and the output's at anything, the body runs
    to the end leaving the inputs' as they were and the output's at `outBlock` of them. -/
theorem body_run (c : Dev nD) (E : Set ℕ) (i : grid0.Coords)
    (a1 : Memref sig .tc .vmem S2000x128 .f32) (h1 : a1.IsWhole) (a2 : Memref sig .tc .vmem S2000x128 .f32) (h2 : a2.IsWhole)
    (a3 : Memref sig .tc .vmem S2000x128 .f32) (h3 : a3.IsWhole) (a4 : Memref sig .tc .vmem S2000x64 .f32) (h4 : a4.IsWhole)
    (a5 : Memref sig .tc .vmem S3x128x256 .f32) (h5 : a5.IsWhole) (a6 : Memref sig .tc .vmem S1x256 .f32) (h6 : a6.IsWhole)
    (a7 : Memref sig .tc .vmem S2000x128 .f32) (h7 : a7.IsWhole)
    (x0 x1 x2 : Vec F S2000x128 .f32) (x3 : Vec F S2000x64 .f32) (x4 : Vec F S3x128x256 .f32) (x5 : Vec F S1x256 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4 ∗ owns (c : Thread nD τ) a6 fullShare x5
        ∗ (∃ d, owns (c : Thread nD τ) a7 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4 ∗ owns (c : Thread nD τ) a6 fullShare x5
            ∗ owns (c : Thread nD τ) a7 fullShare (outBlock x0 x1 x2 x3 x4 x5)) -∗ K ⟨⟩))
      ⊢ wp frame (wpE (defs₀ (F := F)) Variants.none c none) E (cc0__gate_kernel i a1 h1 a2 h2 a3 h3 a4 h4 a5 h5 a6 h6 a7 h7) K := by
  simp only [cc0__gate_kernel_eq_skeleton]; unfold cc0__gate_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (halves_cover _ _)

/-! ## What holds between tiles -/

/-- Per core: the arrays as the launch finds them; after the body at tile `t` each input's buffer still at its
    block and the output's at `outBlock` of the six blocks; nothing else is kept between tiles. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlock (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlock (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of the program terminates, without a fault, with the launch's arrays at what the
    tiles wrote back and every other buffer as the two slices leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)
      ∧       r.2.mem ((c.tc : Thread nD τ).loc main_arg23) = m ((c.tc : Thread nD τ).loc main_arg23)
      ∧       r.2.mem ((c.tc : Thread nD τ).loc main_arg24) = m ((c.tc : Thread nD τ).loc main_arg24)) :=
  (θ_run defs _ _).mono (fun _ h c => ⟨(((h c).2 main_arg0 (Pipeline.mem_restRefs_of main_arg0 (by decide) (by decide))).trans (W_arg0 m (dats m) c)),
    (((h c).2 main_arg1 (Pipeline.mem_restRefs_of main_arg1 (by decide) (by decide))).trans (W_arg1 m (dats m) c)),
    (((h c).2 main_arg2 (Pipeline.mem_restRefs_of main_arg2 (by decide) (by decide))).trans (W_arg2 m (dats m) c)),
    (((h c).2 main_arg3 (Pipeline.mem_restRefs_of main_arg3 (by decide) (by decide))).trans (W_arg3 m (dats m) c)),
    (((h c).1 3).trans (((dats m 0 c).arrAt_in 3 rfl _).trans ((A_eq m c 3).trans (V_arg4 m c)))),
    (((h c).2 main_arg5 (Pipeline.mem_restRefs_of main_arg5 (by decide) (by decide))).trans (W_arg5 m (dats m) c)),
    (((h c).2 main_arg6 (Pipeline.mem_restRefs_of main_arg6 (by decide) (by decide))).trans (W_arg6 m (dats m) c)),
    (((h c).2 main_arg7 (Pipeline.mem_restRefs_of main_arg7 (by decide) (by decide))).trans (W_arg7 m (dats m) c)),
    (((h c).2 main_arg8 (Pipeline.mem_restRefs_of main_arg8 (by decide) (by decide))).trans (W_arg8 m (dats m) c)),
    (((h c).2 main_arg9 (Pipeline.mem_restRefs_of main_arg9 (by decide) (by decide))).trans (W_arg9 m (dats m) c)),
    (((h c).2 main_arg10 (Pipeline.mem_restRefs_of main_arg10 (by decide) (by decide))).trans (W_arg10 m (dats m) c)),
    (((h c).2 main_arg11 (Pipeline.mem_restRefs_of main_arg11 (by decide) (by decide))).trans (W_arg11 m (dats m) c)),
    (((h c).2 main_arg12 (Pipeline.mem_restRefs_of main_arg12 (by decide) (by decide))).trans (W_arg12 m (dats m) c)),
    (((h c).2 main_arg13 (Pipeline.mem_restRefs_of main_arg13 (by decide) (by decide))).trans (W_arg13 m (dats m) c)),
    (((h c).2 main_arg14 (Pipeline.mem_restRefs_of main_arg14 (by decide) (by decide))).trans (W_arg14 m (dats m) c)),
    (((h c).2 main_arg15 (Pipeline.mem_restRefs_of main_arg15 (by decide) (by decide))).trans (W_arg15 m (dats m) c)),
    (((h c).2 main_arg16 (Pipeline.mem_restRefs_of main_arg16 (by decide) (by decide))).trans (W_arg16 m (dats m) c)),
    (((h c).2 main_arg17 (Pipeline.mem_restRefs_of main_arg17 (by decide) (by decide))).trans (W_arg17 m (dats m) c)),
    (((h c).2 main_arg18 (Pipeline.mem_restRefs_of main_arg18 (by decide) (by decide))).trans (W_arg18 m (dats m) c)),
    (((h c).2 main_arg19 (Pipeline.mem_restRefs_of main_arg19 (by decide) (by decide))).trans (W_arg19 m (dats m) c)),
    (((h c).2 main_arg20 (Pipeline.mem_restRefs_of main_arg20 (by decide) (by decide))).trans (W_arg20 m (dats m) c)),
    (((h c).2 main_arg21 (Pipeline.mem_restRefs_of main_arg21 (by decide) (by decide))).trans (W_arg21 m (dats m) c)),
    (((h c).2 main_arg22 (Pipeline.mem_restRefs_of main_arg22 (by decide) (by decide))).trans (W_arg22 m (dats m) c)),
    (((h c).2 main_arg23 (Pipeline.mem_restRefs_of main_arg23 (by decide) (by decide))).trans (W_arg23 m (dats m) c)),
    (((h c).2 main_arg24 (Pipeline.mem_restRefs_of main_arg24 (by decide) (by decide))).trans (W_arg24 m (dats m) c))⟩) (run_main m ρ)

end Cert.KernelIdeal.Hand

end
-- ==== Proof.Spec.lean ====
/-
  The graph operator both programs apply, stated once per width.

  Given per-edge weights `nw`, per-edge target rows `rowI` and per-edge source rows `colI`, the
  rescaled-Laplacian step of a node-feature array `v` is

      lhat v  =  1 · (v − A v) − v,     (A v)(n, c) = 0 + Σ_{e : row e = n} nw e · v(col e, c),

  computed as: gather the source rows, scale each by its edge's weight, scatter-add into the target
  rows of a zero array, subtract, scale by one, subtract. The kernel's host code applies it to the
  128-column array [X | H]; the reference applies it to X and to H, 64 columns each. `lhat128` and
  `lhat64` are those two computations, operation for operation; `restrict leftCol` and `restrict rightCol`
  restrict a 128-column array to its first and last 64 columns. That the step commutes with either restriction
  (it acts on each column by itself) is what joins the two programs.
-/
import proofs.«161508_j42691974922289_2_alg».proof.KernelIdeal
import proofs.«161508_j42691974922289_2_alg».proof.ReferenceIdeal
import Idealize.ShloMosaic.PureOps.Ideal
import Idealize.ShloMosaic.Lib.ValueIdx

noncomputable section

namespace Cert.GConv

open Idealize.ShloMosaic Idealize.ShloMosaic.ValueIdx

/-- Per-edge float data, per-edge indices as a column, node features at either width. -/
abbrev EdgeF := FVec Ideal Cert.KernelIdeal.S800000 .f32
abbrev EdgeI := IVec Cert.KernelIdeal.S800000x1 32
abbrev Wide := FVec Ideal Cert.KernelIdeal.S50000x128 .f32
abbrev Half := FVec Ideal Cert.ReferenceIdeal.S50000x64 .f32

section K
open Cert.KernelIdeal Cert.KernelIdeal.Facts₀
variable [Cert.KernelIdeal.Facts]

/-- The step on 128 columns, as the kernel's host code computes it. -/
def lhat128 (nw : EdgeF) (rowI colI : EdgeI) (v : Wide) : Wide :=
  subf (mulf (broadcastInDim S50000x128 ![] bcast_S_S50000x128 (constant S_ .f32 0x3F800000#32))
    (subf v (Host.scatterAdd scatter_S50000x128_S800000x1_S800000x128_1_0_0_1
      (broadcastInDim S50000x128 ![] bcast_S_S50000x128 (constant S_ .f32 0x00000000#32)) rowI
      (mulf (broadcastInDim S800000x128 ![0, 1] bcast_S800000x1_S800000x128_0_1
          (broadcastInDim S800000x1 ![0] bcast_S800000_S800000x1_0 nw))
        (Host.gather gather_S50000x128_S800000x1_S800000x128_1_0_n_n_0_1_1128 v colI))))) v

/-- The second Chebyshev term from the first: 2 · lhat t1 − t0. -/
def cheb2_128 (nw : EdgeF) (rowI colI : EdgeI) (t0 t1 : Wide) : Wide :=
  subf (mulf (broadcastInDim S50000x128 ![] bcast_S_S50000x128 (constant S_ .f32 0x40000000#32))
    (lhat128 nw rowI colI t1)) t0

end K

section R
open Cert.ReferenceIdeal Cert.ReferenceIdeal.Facts₀
variable [Cert.ReferenceIdeal.Facts]

/-- The step on 64 columns, as the reference computes it. -/
def lhat64 (nw : EdgeF) (rowI colI : EdgeI) (v : Half) : Half :=
  subf (mulf (broadcastInDim S50000x64 ![] bcast_S_S50000x64 (constant S_ .f32 0x3F800000#32))
    (subf v (Host.scatterAdd scatter_S50000x64_S800000x1_S800000x64_1_0_0_1
      (broadcastInDim S50000x64 ![] bcast_S_S50000x64 (constant S_ .f32 0x00000000#32)) rowI
      (mulf (broadcastInDim S800000x64 ![0, 1] bcast_S800000x1_S800000x64_0_1
          (broadcastInDim S800000x1 ![0] bcast_S800000_S800000x1_0 nw))
        (Host.gather gather_S50000x64_S800000x1_S800000x64_1_0_n_n_0_1_164 v colI))))) v

/-- The second Chebyshev term from the first, 64 columns. -/
def cheb2_64 (nw : EdgeF) (rowI colI : EdgeI) (t0 t1 : Half) : Half :=
  subf (mulf (broadcastInDim S50000x64 ![] bcast_S_S50000x64 (constant S_ .f32 0x40000000#32))
    (lhat64 nw rowI colI t1)) t0

end R

/-- Column `c` of the left half is column `c`; of the right half, column `c + 64`. -/
def leftCol (c : Fin 64) : Fin 128 := ⟨c.val, by omega⟩
def rightCol (c : Fin 64) : Fin 128 := ⟨c.val + 64, by omega⟩

/-- A 128-column array restricted to the 64 columns `φ` picks. -/
def restrict (φ : Fin 64 → Fin 128) (v : Wide) : Half :=
  fun i => v (ix2 (⟨(i 0).val, (i 0).isLt⟩ : Fin 50000) (φ ⟨(i 1).val, (i 1).isLt⟩))

end Cert.GConv

end
-- ==== Proof.GateSpec.lean ====
/-
  What each output entry is, in the reference's own grouping.

  With t0 = x, t1 = lhat x, t2 = 2 · lhat t1 − t0 the Chebyshev terms of a 64-column array x, one
  graph convolution at node n and channel j is

      conv x W b (n, j) = ((Σ_k t0(n,k)·W(0,k,j) + Σ_k t1(n,k)·W(1,k,j)) + Σ_k t2(n,k)·W(2,k,j)) + b(j),

  a gate's pre-activation is  (conv X Wx bx + conv H Wh bh) + bg,  and the cell update is

      c' = σ(pre_f) · c + σ(pre_i) · tanh(pre_c),      h' = σ(pre_o) · tanh(c').
-/
import proofs.«161508_j42691974922289_2_alg».proof.Proof.Spec

noncomputable section

namespace Cert.GConv

open Idealize.ShloMosaic Idealize.ShloMosaic.ValueIdx

variable [Cert.KernelIdeal.Facts] [Cert.ReferenceIdeal.Facts]

abbrev Wt := FVec Ideal Cert.ReferenceIdeal.S3x64x64 .f32
abbrev Bias := FVec Ideal Cert.ReferenceIdeal.S64 .f32
abbrev GateBias := FVec Ideal Cert.ReferenceIdeal.S1x64 .f32

/-- One graph convolution at (n, j), from the three Chebyshev terms of its operand. -/
def convAt (t0 t1 t2 : Half) (W : Wt) (b : Bias) (n : Fin 50000) (j : Fin 64) : EReal :=
  (((∑ k : Fin 64, t0 (ix2 n k) * W (ix3 (0 : Fin 3) k j)) + ∑ k : Fin 64, t1 (ix2 n k) * W (ix3 (1 : Fin 3) k j))
    + ∑ k : Fin 64, t2 (ix2 n k) * W (ix3 (2 : Fin 3) k j)) + b (ix1 j)

/-- A gate's pre-activation at (n, j): the X-convolution, the H-convolution and the gate's own bias. -/
def preAt (x0 x1 x2 h0 h1 h2 : Half) (Wx : Wt) (bx : Bias) (Wh : Wt) (bh : Bias) (bg : GateBias)
    (n : Fin 50000) (j : Fin 64) : EReal :=
  (convAt x0 x1 x2 Wx bx n j + convAt h0 h1 h2 Wh bh n j) + bg (ix2 (0 : Fin 1) j)

/-- The new cell state from the three pre-activations it reads and the old cell state. -/
def cellOf (pf pi pc c : EReal) : EReal := Ideal.logistic pf * c + Ideal.logistic pi * Ideal.tanh pc

/-- The new hidden state from the output gate's pre-activation and the new cell state. -/
def hiddenOf (po c' : EReal) : EReal := Ideal.logistic po * Ideal.tanh c'

end Cert.GConv

end
-- ==== Proof.TileSpec.lean ====
/-
  One node's output row, as the kernel computes it.

  For a node with Chebyshev rows a0, a1, a2 (128 entries each: the node's X-channels then its H-channels) and cell
  row cr (64 entries), the stacked weights Ws (3 × 128 × 256) and stacked bias bs (1 × 256), gate g ∈ {0,1,2,3}
  (input, forget, candidate, output) reads columns [64 g, 64 g + 64) of the 256-wide pre-activation

      pre g j = ((Σ_k a0 k · Ws(0,k,64g+j) + Σ_k a1 k · Ws(1,k,64g+j)) + Σ_k a2 k · Ws(2,k,64g+j)) + bs(0,64g+j),

  the new cell entry is σ(pre 1 j)·cr j + σ(pre 0 j)·tanh(pre 2 j), the new hidden entry σ(pre 3 j)·tanh(cell j), and
  the 128-wide output row holds the hidden entries in columns [0,64) and the cell entries in columns [64,128).
-/
import proofs.«161508_j42691974922289_2_alg».proof.Proof.GateSpec

noncomputable section

namespace Cert.GConv

open Idealize.ShloMosaic Idealize.ShloMosaic.ValueIdx

variable [Cert.KernelIdeal.Facts] [Cert.ReferenceIdeal.Facts]

abbrev WStack := FVec Ideal Cert.KernelIdeal.S3x128x256 .f32
abbrev BStack := FVec Ideal Cert.KernelIdeal.S1x256 .f32

/-- Gate `g`'s column `j` among the 256 stacked columns. -/
def gateCol (g : Fin 4) (j : Fin 64) : Fin 256 := ⟨64 * g.val + j.val, by omega⟩

/-- Gate `g`'s pre-activation at channel `j`, from a node's three rows. -/
def preRow (a0 a1 a2 : Fin 128 → EReal) (Ws : WStack) (bs : BStack) (g : Fin 4) (j : Fin 64) : EReal :=
  (((∑ k : Fin 128, a0 k * Ws (ix3 (0 : Fin 3) k (gateCol g j))) + ∑ k : Fin 128, a1 k * Ws (ix3 (1 : Fin 3) k (gateCol g j)))
    + ∑ k : Fin 128, a2 k * Ws (ix3 (2 : Fin 3) k (gateCol g j))) + bs (ix2 (0 : Fin 1) (gateCol g j))

/-- The node's new cell entry at channel `j`. -/
def cellRow (a0 a1 a2 : Fin 128 → EReal) (cr : Fin 64 → EReal) (Ws : WStack) (bs : BStack) (j : Fin 64) : EReal :=
  cellOf (preRow a0 a1 a2 Ws bs 1 j) (preRow a0 a1 a2 Ws bs 0 j) (preRow a0 a1 a2 Ws bs 2 j) (cr j)

/-- The node's new hidden entry at channel `j`. -/
def hiddenRow (a0 a1 a2 : Fin 128 → EReal) (cr : Fin 64 → EReal) (Ws : WStack) (bs : BStack) (j : Fin 64) : EReal :=
  hiddenOf (preRow a0 a1 a2 Ws bs 3 j) (cellRow a0 a1 a2 cr Ws bs j)

/-- The node's 128-wide output row: hidden entries, then cell entries. -/
def outRow (a0 a1 a2 : Fin 128 → EReal) (cr : Fin 64 → EReal) (Ws : WStack) (bs : BStack) (q : Fin 128) : EReal :=
  if h : q.val < 64 then hiddenRow a0 a1 a2 cr Ws bs ⟨q.val, h⟩
  else cellRow a0 a1 a2 cr Ws bs ⟨q.val - 64, by omega⟩

theorem outRow_left (a0 a1 a2 : Fin 128 → EReal) (cr : Fin 64 → EReal) (Ws : WStack) (bs : BStack) (j : Fin 64) :
    outRow a0 a1 a2 cr Ws bs (leftCol j) = hiddenRow a0 a1 a2 cr Ws bs j := by
  unfold outRow leftCol
  rw [dif_pos (show j.val < 64 from j.isLt)]

theorem outRow_right (a0 a1 a2 : Fin 128 → EReal) (cr : Fin 64 → EReal) (Ws : WStack) (bs : BStack) (j : Fin 64) :
    outRow a0 a1 a2 cr Ws bs (rightCol j) = cellRow a0 a1 a2 cr Ws bs j := by
  unfold outRow rightCol
  rw [dif_neg (show ¬ (j.val + 64 < 64) by omega)]
  congr 1

end Cert.GConv

end
-- ==== Proof.KFinal.lean ====
/-
  From tiles to the whole output array, and the two slices after the launch.

  Tile t covers nodes [2000 t, 2000 t + 2000): every staged row block sits at block row t of its array, the stacked
  weights and bias are staged whole. So what tile t writes back is rows [2000 t, 2000 t + 2000) of ONE array G whose
  row n is node n's output row, computed from row n of the three Chebyshev arrays and of the cell state as the
  launch finds them. The 25 tiles cover all 50000 rows, so the output array ends equal to G; the host then slices
  its left 64 columns (the new hidden state) and its right 64 columns (the new cell state).
-/
import proofs.«161508_j42691974922289_2_alg».proof.Proof.FrameKI
import proofs.«161508_j42691974922289_2_alg».proof.Proof.TileSpec
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.GConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The staged blocks' positions, decided over the 25 tiles: row blocks at block row t, the weights and bias at 0. -/
theorem tile_index : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0 :=
  (by decide +kernel : ∀ t : Fin grid0.N, _)

theorem tile_lt (t : Fin cfg0.N) : t.val < 25 := by
  have h : cfg0.N = 25 := N_0
  have := t.isLt
  omega

/-- Node `2000 t + r`: row r of tile t. -/
def node (t : Fin cfg0.N) (r : Fin 2000) : Fin 50000 := ⟨2000 * t.val + r.val, by have := tile_lt t; omega⟩

/-- The whole output array: row n is node n's output row. -/
def G (c : Dev nD) : S50000x128.Idx → EReal := fun i =>
  outRow (fun k => V m c main_v30 (ix2 (⟨(i 0).val, (i 0).isLt⟩ : Fin 50000) k))
    (fun k => V m c main_v47 (ix2 (⟨(i 0).val, (i 0).isLt⟩ : Fin 50000) k))
    (fun k => V m c main_v67 (ix2 (⟨(i 0).val, (i 0).isLt⟩ : Fin 50000) k))
    (fun j => V m c main_arg4 (ix2 (⟨(i 0).val, (i 0).isLt⟩ : Fin 50000) j))
    (V m c main_v70) (V m c main_v84) ⟨(i 1).val, (i 1).isLt⟩

/-- Row r of a 128-column row block at tile t is row `node t r` of its array. -/
theorem term_row (c : Dev nD) (t : Fin cfg0.N) (r : Fin 2000) (k : Fin 128) :
    iblk m c 0 t (ix2 r k) = V m c main_v30 (ix2 (node t r) k)
    ∧ iblk m c 1 t (ix2 r k) = V m c main_v47 (ix2 (node t r) k)
    ∧ iblk m c 2 t (ix2 r k) = V m c main_v67 (ix2 (node t r) k) := by
  obtain ⟨e60, e61, e00, e01, e10, e11, e20, e21, e30, e31, e40, e41, e42, e50, e51⟩ := tile_index t
  refine ⟨?_, ?_, ?_⟩
  · show V m c main_v30 (((cfg0.win 0).blk t).view.emb (ix2 r k)) = _
    congr 1; funext a; apply Fin.ext
    match a with
    | ⟨0, _⟩ => show win0_0.index t (0 : Fin 2) * 2000 + 1 * r.val = 2000 * t.val + r.val; omega
    | ⟨1, _⟩ => show win0_0.index t (1 : Fin 2) * 128 + 1 * k.val = k.val; omega
  · show V m c main_v47 (((cfg0.win 1).blk t).view.emb (ix2 r k)) = _
    congr 1; funext a; apply Fin.ext
    match a with
    | ⟨0, _⟩ => show win0_1.index t (0 : Fin 2) * 2000 + 1 * r.val = 2000 * t.val + r.val; omega
    | ⟨1, _⟩ => show win0_1.index t (1 : Fin 2) * 128 + 1 * k.val = k.val; omega
  · show V m c main_v67 (((cfg0.win 2).blk t).view.emb (ix2 r k)) = _
    congr 1; funext a; apply Fin.ext
    match a with
    | ⟨0, _⟩ => show win0_2.index t (0 : Fin 2) * 2000 + 1 * r.val = 2000 * t.val + r.val; omega
    | ⟨1, _⟩ => show win0_2.index t (1 : Fin 2) * 128 + 1 * k.val = k.val; omega

/-- The same for the cell block. -/
theorem cell_row (c : Dev nD) (t : Fin cfg0.N) (r : Fin 2000) (j : Fin 64) :
    iblk m c 3 t (ix2 r j) = V m c main_arg4 (ix2 (node t r) j) := by
  obtain ⟨e60, e61, e00, e01, e10, e11, e20, e21, e30, e31, e40, e41, e42, e50, e51⟩ := tile_index t
  show V m c main_arg4 (((cfg0.win 3).blk t).view.emb (ix2 r j)) = _
  congr 1; funext a; apply Fin.ext
  match a with
  | ⟨0, _⟩ => show win0_3.index t (0 : Fin 2) * 2000 + 1 * r.val = 2000 * t.val + r.val; omega
  | ⟨1, _⟩ => show win0_3.index t (1 : Fin 2) * 64 + 1 * j.val = j.val; omega

/-- The stacked weights and bias are staged whole. -/
theorem weights_whole (c : Dev nD) (t : Fin cfg0.N) : iblk m c 4 t = V m c main_v70 := by
  obtain ⟨e60, e61, e00, e01, e10, e11, e20, e21, e30, e31, e40, e41, e42, e50, e51⟩ := tile_index t
  funext z
  show V m c main_v70 (((cfg0.win 4).blk t).view.emb z) = V m c main_v70 z
  congr 1; funext a; apply Fin.ext
  match a with
  | ⟨0, _⟩ => show win0_4.index t (0 : Fin 3) * 3 + 1 * (z 0).val = (z 0).val; omega
  | ⟨1, _⟩ => show win0_4.index t (1 : Fin 3) * 128 + 1 * (z 1).val = (z 1).val; omega
  | ⟨2, _⟩ => show win0_4.index t (2 : Fin 3) * 256 + 1 * (z 2).val = (z 2).val; omega

theorem bias_whole (c : Dev nD) (t : Fin cfg0.N) : iblk m c 5 t = V m c main_v84 := by
  obtain ⟨e60, e61, e00, e01, e10, e11, e20, e21, e30, e31, e40, e41, e42, e50, e51⟩ := tile_index t
  funext z
  show V m c main_v84 (((cfg0.win 5).blk t).view.emb z) = V m c main_v84 z
  congr 1; funext a; apply Fin.ext
  match a with
  | ⟨0, _⟩ => show win0_5.index t (0 : Fin 2) * 1 + 1 * (z 0).val = (z 0).val; omega
  | ⟨1, _⟩ => show win0_5.index t (1 : Fin 2) * 256 + 1 * (z 1).val = (z 1).val; omega

/-- Entry (r, q) of a tile's output block is entry q of node r's output row (a fact about the body's arithmetic, taken here as a hypothesis). -/
def BlockRows : Prop := ∀ (x0 x1 x2 : Vec Ideal S2000x128 .f32) (x3 : Vec Ideal S2000x64 .f32) (x4 : Vec Ideal S3x128x256 .f32)
    (x5 : Vec Ideal S1x256 .f32) (r : Fin 2000) (q : Fin 128),
    outBlock (F := Ideal) x0 x1 x2 x3 x4 x5 (ix2 r q)
      = outRow (fun k => x0 (ix2 r k)) (fun k => x1 (ix2 r k)) (fun k => x2 (ix2 r k)) (fun j => x3 (ix2 r j)) x4 x5 q

/-- What tile t writes back is rows [2000 t, 2000 t + 2000) of G. -/
theorem flushed_eq (hblk : BlockRows) (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  obtain ⟨e60, e61, e00, e01, e10, e11, e20, e21, e30, e31, e40, e41, e42, e50, e51⟩ := tile_index t
  funext y
  obtain ⟨r, q, rfl⟩ : ∃ (r : Fin 2000) (q : Fin 128), y = ix2 r q := ⟨y 0, y 1, eq_ix2 y⟩
  show outBlock (iblk m c 0 t) (iblk m c 1 t) (iblk m c 2 t) (iblk m c 3 t) (iblk m c 4 t) (iblk m c 5 t) (ix2 r q)
      = G m c (((cfg0.win 6).blk t).view.emb (ix2 r q))
  rw [hblk, weights_whole, bias_whole]
  have hemb : ((cfg0.win 6).blk t).view.emb (ix2 r q) = ix2 (node t r) q := by
    funext a; apply Fin.ext
    match a with
    | ⟨0, _⟩ => show win0_6.index t (0 : Fin 2) * 2000 + 1 * r.val = 2000 * t.val + r.val; omega
    | ⟨1, _⟩ => show win0_6.index t (1 : Fin 2) * 128 + 1 * q.val = q.val; omega
  rw [hemb]
  unfold G
  have h0 : (fun k => iblk m c 0 t (ix2 r k)) = fun k => V m c main_v30 (ix2 (node t r) k) := funext fun k => (term_row m c t r k).1
  have h1 : (fun k => iblk m c 1 t (ix2 r k)) = fun k => V m c main_v47 (ix2 (node t r) k) := funext fun k => (term_row m c t r k).2.1
  have h2 : (fun k => iblk m c 2 t (ix2 r k)) = fun k => V m c main_v67 (ix2 (node t r) k) := funext fun k => (term_row m c t r k).2.2
  have h3 : (fun j => iblk m c 3 t (ix2 r j)) = fun j => V m c main_arg4 (ix2 (node t r) j) := funext fun j => cell_row m c t r j
  rw [h0, h1, h2, h3]

/-- An index of the output array is in tile t's block iff its row is among the tile's rows. -/
theorem mem_tile (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v85).slice (win0_6.rect t)).set ↔ _
  rw [View.set_slice_whole, Rect.mem_set_unit]
  exact Iff.rfl

/-- Every row is in some tile: row n in tile n / 2000. -/
theorem tiles_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  refine ⟨t, flush0_6 t, ?_⟩
  obtain ⟨e60, e61, -⟩ := tile_index t
  have ht : t.val = (i 0).val / 2000 := rfl
  rw [mem_tile]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after all tiles is G. -/
theorem final6 (hblk : BlockRows) (c : Dev nD) : (dats m 0 c).arrAt 6 cfg0.N = G m c :=
  (dats m 0 c).arrAt_eq_of_cover 6 (G m c) (fun t _ => flushed_eq m hblk c t) tiles_cover

end Cert.KernelIdeal.Hand

end
-- ==== Proof.KRun.lean ====
/-
  The kernel program's run with its two results named.

  After the launch the host takes columns [0, 64) of the output array as the new hidden state and columns
  [64, 128) as the new cell state. The output array is G (row n is node n's output row), so the two results are
  those two column slices of G; the arguments end unchanged, as in the frame.
-/
import proofs.«161508_j42691974922289_2_alg».proof.Proof.KFinal

set_option maxRecDepth 16384

noncomputable section

namespace Cert.KernelIdeal.Hand

open Cert.KernelIdeal Cert.KernelIdeal.Gen Cert.GConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The new hidden state: the left 64 columns of the output array. -/
def hiddenOut (c : Dev nD) : S50000x64.Idx → EReal :=
  extractStridedSlice S50000x64 ![0, 0] (G m c) slices_S50000x128_S50000x64_0_0

/-- The new cell state: the right 64 columns. -/
def cellOut (c : Dev nD) : S50000x64.Idx → EReal :=
  extractStridedSlice S50000x64 ![0, 64] (G m c) slices_S50000x128_S50000x64_0_64

/-- The first slice reads the output array the launch left. -/
theorem tail_hidden (hblk : BlockRows) (c : Dev nD) :
    Pipeline.afterTail₀ cfgs (dats m) 0 (V0 m) [hostOps1] c main_v86 = hiddenOut m c := by
  unfold Pipeline.afterTail₀
  show StableHlo.after hostOps1 _ (Proc.devRef .tc main_v86) = _
  after_results
  rw [(Pipeline.withArrays_arr spec0 launch0.win.arr_inj c _ _ 6).trans (final6 m hblk c)]
  rfl

/-- So does the second. -/
theorem tail_cell (hblk : BlockRows) (c : Dev nD) :
    Pipeline.afterTail₀ cfgs (dats m) 0 (V0 m) [hostOps1] c main_v87 = cellOut m c := by
  unfold Pipeline.afterTail₀
  show StableHlo.after hostOps1 _ (Proc.devRef .tc main_v87) = _
  after_results
  rw [(Pipeline.withArrays_arr spec0 launch0.win.arr_inj c _ _ 6).trans (final6 m hblk c)]
  rfl

/-- The run: the two results are the two column slices of G, and every argument ends as it began. -/
theorem kernel_run (hblk : BlockRows) : θ_run defs (onTc (τ := τ) (main (F := Ideal))) ⟨m, fun _ => 0, ρ⟩ (fun r => ∀ c : Dev nD,
      r.2.mem ((c.tc : Thread nD τ).loc main_v86) = hiddenOut m c
      ∧ r.2.mem ((c.tc : Thread nD τ).loc main_v87) = cellOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨
    (((h c).2 main_v86 (Pipeline.mem_restRefs_of main_v86 (by decide) (by decide))).trans (tail_hidden m hblk c)),
    (((h c).2 main_v87 (Pipeline.mem_restRefs_of main_v87 (by decide) (by decide))).trans (tail_cell m hblk c)),
    (((h c).2 main_arg0 (Pipeline.mem_restRefs_of main_arg0 (by decide) (by decide))).trans (W_arg0 m (dats m) c)),
    (((h c).2 main_arg1 (Pipeline.mem_restRefs_of main_arg1 (by decide) (by decide))).trans (W_arg1 m (dats m) c)),
    (((h c).2 main_arg2 (Pipeline.mem_restRefs_of main_arg2 (by decide) (by decide))).trans (W_arg2 m (dats m) c)),
    (((h c).2 main_arg3 (Pipeline.mem_restRefs_of main_arg3 (by decide) (by decide))).trans (W_arg3 m (dats m) c)),
    (((h c).1 3).trans (((dats m 0 c).arrAt_in 3 rfl _).trans ((A_eq m c 3).trans (V_arg4 m c)))),
    (((h c).2 main_arg5 (Pipeline.mem_restRefs_of main_arg5 (by decide) (by decide))).trans (W_arg5 m (dats m) c)),
    (((h c).2 main_arg6 (Pipeline.mem_restRefs_of main_arg6 (by decide) (by decide))).trans (W_arg6 m (dats m) c)),
    (((h c).2 main_arg7 (Pipeline.mem_restRefs_of main_arg7 (by decide) (by decide))).trans (W_arg7 m (dats m) c)),
    (((h c).2 main_arg8 (Pipeline.mem_restRefs_of main_arg8 (by decide) (by decide))).trans (W_arg8 m (dats m) c)),
    (((h c).2 main_arg9 (Pipeline.mem_restRefs_of main_arg9 (by decide) (by decide))).trans (W_arg9 m (dats m) c)),
    (((h c).2 main_arg10 (Pipeline.mem_restRefs_of main_arg10 (by decide) (by decide))).trans (W_arg10 m (dats m) c)),
    (((h c).2 main_arg11 (Pipeline.mem_restRefs_of main_arg11 (by decide) (by decide))).trans (W_arg11 m (dats m) c)),
    (((h c).2 main_arg12 (Pipeline.mem_restRefs_of main_arg12 (by decide) (by decide))).trans (W_arg12 m (dats m) c)),
    (((h c).2 main_arg13 (Pipeline.mem_restRefs_of main_arg13 (by decide) (by decide))).trans (W_arg13 m (dats m) c)),
    (((h c).2 main_arg14 (Pipeline.mem_restRefs_of main_arg14 (by decide) (by decide))).trans (W_arg14 m (dats m) c)),
    (((h c).2 main_arg15 (Pipeline.mem_restRefs_of main_arg15 (by decide) (by decide))).trans (W_arg15 m (dats m) c)),
    (((h c).2 main_arg16 (Pipeline.mem_restRefs_of main_arg16 (by decide) (by decide))).trans (W_arg16 m (dats m) c)),
    (((h c).2 main_arg17 (Pipeline.mem_restRefs_of main_arg17 (by decide) (by decide))).trans (W_arg17 m (dats m) c)),
    (((h c).2 main_arg18 (Pipeline.mem_restRefs_of main_arg18 (by decide) (by decide))).trans (W_arg18 m (dats m) c)),
    (((h c).2 main_arg19 (Pipeline.mem_restRefs_of main_arg19 (by decide) (by decide))).trans (W_arg19 m (dats m) c)),
    (((h c).2 main_arg20 (Pipeline.mem_restRefs_of main_arg20 (by decide) (by decide))).trans (W_arg20 m (dats m) c)),
    (((h c).2 main_arg21 (Pipeline.mem_restRefs_of main_arg21 (by decide) (by decide))).trans (W_arg21 m (dats m) c)),
    (((h c).2 main_arg22 (Pipeline.mem_restRefs_of main_arg22 (by decide) (by decide))).trans (W_arg22 m (dats m) c)),
    (((h c).2 main_arg23 (Pipeline.mem_restRefs_of main_arg23 (by decide) (by decide))).trans (W_arg23 m (dats m) c)),
    (((h c).2 main_arg24 (Pipeline.mem_restRefs_of main_arg24 (by decide) (by decide))).trans (W_arg24 m (dats m) c))⟩) (run_main m ρ)

end Cert.KernelIdeal.Hand

end
-- ==== Proof.LibPlainDot.lean ====
/-
  A plain matrix product read at an element, over the extended reals.

  For the dimension numbers "contract the left operand's axis 1 with the right operand's axis 0, no batch axis"
  (`DotDims.plain M K N`: an M×K array times a K×N array), the contraction position is one coordinate k < K, the left
  operand is read at (r, k) and the right at (k, c).  So the element (r, c) of the product — whether computed by the
  matrix unit into an accumulator of zeros or by the host's dot_general — is the finite sum  Σ_{k < K} lhs(r,k) · rhs(k,c).
  Nothing here depends on the extents, so the statement is for all M, K, N.
-/
import Idealize.ShloMosaic.Lib.ValueIdx
import Idealize.ShloMosaic.PureOps.Ideal.Laws

noncomputable section

open scoped BigOperators

namespace Cert.PlainDot

open Idealize.ShloMosaic Idealize.ShloMosaic.ValueIdx

variable {M K N : Nat}

/-- The left operand's row coordinate is the output's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- The right operand's column coordinate is the output's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The contraction sum of a plain product, re-indexed by the inner coordinate. -/
theorem sum_plain {φ₁ φ₂ : FTy} (lhs : FVec Ideal ⟨2, ![M, K]⟩ φ₁) (rhs : FVec Ideal ⟨2, ![K, N]⟩ φ₂) (r : Fin M) (c : Fin N) :
    ∑ q : (DotDims.plain M K N).contr.Idx,
        lhs ((DotDims.plain M K N).lhsIdx (ix2 r c) q) * rhs ((DotDims.plain M K N).rhsIdx (ix2 r c) q)
      = ∑ k : Fin K, lhs (ix2 r k) * rhs (ix2 k c) := by
  have hr : (DotDims.plain M K N).contr.rank = 1 := rfl
  have hs : (DotDims.plain M K N).contr.size ⟨0, by omega⟩ = K := rfl
  rw [← Equiv.sum_comp (contrEquiv1 (DotDims.plain M K N) K hr hs).symm]
  refine Finset.sum_congr rfl fun k _ => ?_
  have hk := contrEquiv1_symm_val (DotDims.plain M K N) K hr hs k
  have el : (DotDims.plain M K N).lhsIdx (ix2 r c) ((contrEquiv1 (DotDims.plain M K N) K hr hs).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K hr hs).symm k) = ix2 k c :=
    funext fun a => Fin.ext (by
      match a with
      | ⟨0, _⟩ => exact ((DotDims.plain M K N).rhsIdx_val_of_single rfl _ _).trans hk
      | ⟨1, _⟩ => exact rhs_col _ _)
  rw [el, er]

/-- A plain product accumulated by the matrix unit into zeros, at the element (r, c). -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (sum_plain lhs rhs r c)

/-- A plain product computed by the host's dot_general, at the element (r, c). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (sum_plain lhs rhs r c)

end Cert.PlainDot

end
-- ==== Proof.KBlock.lean ====
/-
  The output block of one tile, entry by entry.

  Row r of the output block depends only on row r of the three Chebyshev blocks and of the cell block (and on the
  whole stacked weights and bias): it is that node's output row — the three 128-term contractions against the
  stacked weights, the bias, the gates' nonlinearities, the hidden entries in the left half and the cell entries
  in the right half.
-/
import proofs.«161508_j42691974922289_2_alg».proof.Proof.FrameKI
import proofs.«161508_j42691974922289_2_alg».proof.Proof.TileSpec
import proofs.«161508_j42691974922289_2_alg».proof.Proof.LibPlainDot
import Idealize.ShloMosaic.Lib.Pipeline.Value

set_option maxRecDepth 16384

noncomputable section

namespace Cert.KernelIdeal.Hand

open Cert.KernelIdeal Cert.KernelIdeal.Gen Cert.GConv
open Idealize.ShloMosaic Idealize.ShloMosaic.ValueIdx

/-! ### A block read through its unit-stride rectangle: the offset is added to each coordinate -/

theorem rTerm_idx (r : Fin 2000) (k : Fin 128) : rTerm.idx (ix2 r k) = ix2 r k :=
  funext fun a => Fin.ext (match a with
    | ⟨0, _⟩ => (by show 0 + 1 * r.val = r.val; omega)
    | ⟨1, _⟩ => (by show 0 + 1 * k.val = k.val; omega))

theorem rCell_idx (r : Fin 2000) (j : Fin 64) : rCell.idx (ix2 r j) = ix2 r j :=
  funext fun a => Fin.ext (match a with
    | ⟨0, _⟩ => (by show 0 + 1 * r.val = r.val; omega)
    | ⟨1, _⟩ => (by show 0 + 1 * j.val = j.val; omega))

theorem rW0_idx (k : Fin 128) (c : Fin 256) : rW0.idx (ix3 (0 : Fin 1) k c) = ix3 (0 : Fin 3) k c :=
  funext fun a => Fin.ext (match a with
    | ⟨0, _⟩ => rfl
    | ⟨1, _⟩ => (by show 0 + 1 * k.val = k.val; omega)
    | ⟨2, _⟩ => (by show 0 + 1 * c.val = c.val; omega))

theorem rW1_idx (k : Fin 128) (c : Fin 256) : rW1.idx (ix3 (0 : Fin 1) k c) = ix3 (1 : Fin 3) k c :=
  funext fun a => Fin.ext (match a with
    | ⟨0, _⟩ => rfl
    | ⟨1, _⟩ => (by show 0 + 1 * k.val = k.val; omega)
    | ⟨2, _⟩ => (by show 0 + 1 * c.val = c.val; omega))

theorem rW2_idx (k : Fin 128) (c : Fin 256) : rW2.idx (ix3 (0 : Fin 1) k c) = ix3 (2 : Fin 3) k c :=
  funext fun a => Fin.ext (match a with
    | ⟨0, _⟩ => rfl
    | ⟨1, _⟩ => (by show 0 + 1 * k.val = k.val; omega)
    | ⟨2, _⟩ => (by show 0 + 1 * c.val = c.val; omega))

theorem rBias_idx (c : Fin 256) : rBias.idx (ix2 (0 : Fin 1) c) = ix2 (0 : Fin 1) c :=
  funext fun a => Fin.ext (match a with
    | ⟨0, _⟩ => rfl
    | ⟨1, _⟩ => (by show 0 + 1 * c.val = c.val; omega))

/-! ### The 256-wide pre-activation at (r, c) -/

/-- One of the three products: a block's row r against column c of a weight slab. The narrowing to
    bf16 is the identity on extended reals, the block's reshape is to its own shape, and the slab's
    reshape drops its leading unit axis. -/
theorem term_apply (a : Vec Ideal S2000x128 .f32) (w : Vec Ideal S1x128x256 .f32) (r : Fin 2000) (c : Fin 256) :
    matmul (F := Ideal) dot_S2000x128_S128x256_S2000x256_1_0_0_1_n_n none
        (truncf (F := Ideal) .bf16 (shapeCast S2000x128 a shapeCasts_S2000x128_S2000x128) bitsLt_bf16_f32)
        (truncf (F := Ideal) .bf16 (shapeCast S128x256 w shapeCasts_S1x128x256_S128x256) bitsLt_bf16_f32)
        (constant (F := Ideal) S2000x256 .f32 0x00000000#32) (ix2 r c)
      = ∑ k : Fin 128, a (ix2 r k) * w (ix3 (0 : Fin 1) k c) := by
  refine (Cert.PlainDot.matmul_zero_apply (M := 2000) (K := 128) (N := 256) none _ _ r c).trans ?_
  refine Finset.sum_congr rfl fun k _ => ?_
  show shapeCast S2000x128 a shapeCasts_S2000x128_S2000x128 (ix2 r k)
      * shapeCast S128x256 w shapeCasts_S1x128x256_S128x256 (ix2 k c) = _
  rw [shapeCast_self]
  refine congrArg (a (ix2 r k) * ·) ?_
  refine shapeCast_apply w shapeCasts_S1x128x256_S128x256 (ix2 k c) (ix3 (0 : Fin 1) k c) ?_
  rewrite [Shape.rowMajor_val_three, Shape.rowMajor_val_two]
  show (0 * 128 + k.val) * 256 + c.val = k.val * 256 + c.val
  omega

/-- The bias row, broadcast down the block. -/
theorem bias_apply (b : Vec Ideal S1x256 .f32) (r : Fin 2000) (c : Fin 256) :
    broadcastTo S2000x256 (shapeCast S1x256 b shapeCasts_S1x256_S1x256) broadcasts_S1x256_S2000x256 (ix2 r c)
      = b (ix2 (0 : Fin 1) c) := by
  rw [shapeCast_self]
  exact broadcastTo_apply b broadcasts_S1x256_S2000x256 (ix2 r c) (ix2 (0 : Fin 1) c) (fun a => match a with
    | ⟨0, _⟩ => rfl
    | ⟨1, _⟩ => rfl)

/-- The pre-activation block over any seven operand blocks. -/
theorem pay3_apply (v0 v3 v6 : Vec Ideal S2000x128 .f32) (v9 v12 v15 : Vec Ideal S1x128x256 .f32)
    (v23 : Vec Ideal S1x256 .f32) (r : Fin 2000) (c : Fin 256) :
    k0_pay3 (F := Ideal) v0 v3 v6 v9 v12 v15 v23 (ix2 r c)
      = (((∑ k : Fin 128, v0 (ix2 r k) * v9 (ix3 (0 : Fin 1) k c)) + ∑ k : Fin 128, v3 (ix2 r k) * v12 (ix3 (0 : Fin 1) k c))
          + ∑ k : Fin 128, v6 (ix2 r k) * v15 (ix3 (0 : Fin 1) k c)) + v23 (ix2 (0 : Fin 1) c) :=
  congrArg₂ (· + ·) (congrArg₂ (· + ·) (congrArg₂ (· + ·) (term_apply v0 v9 r c) (term_apply v3 v12 r c))
    (term_apply v6 v15 r c)) (bias_apply v23 r c)

/-- The pre-activation of a tile at row r, gate g, channel j. -/
theorem pre_apply (x0 x1 x2 : Vec Ideal S2000x128 .f32) (x4 : Vec Ideal S3x128x256 .f32) (x5 : Vec Ideal S1x256 .f32)
    (r : Fin 2000) (g : Fin 4) (j : Fin 64) :
    k0_pay3 (F := Ideal) (View.ld x0 rTerm) (View.ld x1 rTerm) (View.ld x2 rTerm) (View.ld x4 rW0) (View.ld x4 rW1)
        (View.ld x4 rW2) (View.ld x5 rBias) (ix2 r (gateCol g j))
      = preRow (fun k => x0 (ix2 r k)) (fun k => x1 (ix2 r k)) (fun k => x2 (ix2 r k)) x4 x5 g j := by
  rw [pay3_apply]
  unfold preRow
  simp only [View.ld, rTerm_idx, rW0_idx, rW1_idx, rW2_idx, rBias_idx]

/-! ### The four gate blocks at (r, j) -/

section Gates
variable (x0 x1 x2 : Vec Ideal S2000x128 .f32) (x3 : Vec Ideal S2000x64 .f32) (x4 : Vec Ideal S3x128x256 .f32)
  (x5 : Vec Ideal S1x256 .f32) (r : Fin 2000) (j : Fin 64)

theorem gI_apply : gI (F := Ideal) x0 x1 x2 x4 x5 (ix2 r j)
    = Ideal.logistic (preRow (fun k => x0 (ix2 r k)) (fun k => x1 (ix2 r k)) (fun k => x2 (ix2 r k)) x4 x5 0 j) := by
  refine Eq.trans ?_ (congrArg Ideal.logistic (pre_apply x0 x1 x2 x4 x5 r 0 j))
  exact congrArg Ideal.logistic (extractStridedSlice_apply ![0, 0] _ slices_S2000x256_o0_0_S2000x64 (ix2 r j)
    (ix2 r (gateCol 0 j)) (fun a => match a with
      | ⟨0, _⟩ => (by show r.val = 0 + r.val; omega)
      | ⟨1, _⟩ => (by show 64 * 0 + j.val = 0 + j.val; omega)))

theorem gFC_apply : gFC (F := Ideal) x0 x1 x2 x3 x4 x5 (ix2 r j)
    = Ideal.logistic (preRow (fun k => x0 (ix2 r k)) (fun k => x1 (ix2 r k)) (fun k => x2 (ix2 r k)) x4 x5 1 j)
        * x3 (ix2 r j) := by
  refine Eq.trans ?_ (congrArg₂ (fun p c => Ideal.logistic p * c) (pre_apply x0 x1 x2 x4 x5 r 1 j)
    (congrArg x3 (rCell_idx r j)))
  exact congrArg (fun p => Ideal.logistic p * x3 (rCell.idx (ix2 r j)))
    (extractStridedSlice_apply ![0, 64] _ slices_S2000x256_o0_64_S2000x64 (ix2 r j)
    (ix2 r (gateCol 1 j)) (fun a => match a with
      | ⟨0, _⟩ => (by show r.val = 0 + r.val; omega)
      | ⟨1, _⟩ => (by show 64 * 1 + j.val = 64 + j.val; omega)))

theorem gT_apply : gT (F := Ideal) x0 x1 x2 x4 x5 (ix2 r j)
    = Ideal.tanh (preRow (fun k => x0 (ix2 r k)) (fun k => x1 (ix2 r k)) (fun k => x2 (ix2 r k)) x4 x5 2 j) := by
  refine Eq.trans ?_ (congrArg Ideal.tanh (pre_apply x0 x1 x2 x4 x5 r 2 j))
  exact congrArg Ideal.tanh (extractStridedSlice_apply ![0, 128] _ slices_S2000x256_o0_128_S2000x64 (ix2 r j)
    (ix2 r (gateCol 2 j)) (fun a => match a with
      | ⟨0, _⟩ => (by show r.val = 0 + r.val; omega)
      | ⟨1, _⟩ => (by show 64 * 2 + j.val = 128 + j.val; omega)))

theorem gO_apply : gO (F := Ideal) x0 x1 x2 x4 x5 (ix2 r j)
    = Ideal.logistic (preRow (fun k => x0 (ix2 r k)) (fun k => x1 (ix2 r k)) (fun k => x2 (ix2 r k)) x4 x5 3 j) := by
  refine Eq.trans ?_ (congrArg Ideal.logistic (pre_apply x0 x1 x2 x4 x5 r 3 j))
  exact congrArg Ideal.logistic (extractStridedSlice_apply ![0, 192] _ slices_S2000x256_o0_192_S2000x64 (ix2 r j)
    (ix2 r (gateCol 3 j)) (fun a => match a with
      | ⟨0, _⟩ => (by show r.val = 0 + r.val; omega)
      | ⟨1, _⟩ => (by show 64 * 3 + j.val = 192 + j.val; omega)))

/-- The new cell entry: forget gate times cell, plus input gate times candidate. -/
theorem cell_apply : k0_pay1 (F := Ideal) (gI x0 x1 x2 x4 x5) (gT x0 x1 x2 x4 x5) (gFC x0 x1 x2 x3 x4 x5) (ix2 r j)
    = cellRow (fun k => x0 (ix2 r k)) (fun k => x1 (ix2 r k)) (fun k => x2 (ix2 r k)) (fun j => x3 (ix2 r j)) x4 x5 j :=
  congrArg₂ (· + ·) (gFC_apply x0 x1 x2 x3 x4 x5 r j)
    (congrArg₂ (· * ·) (gI_apply x0 x1 x2 x4 x5 r j) (gT_apply x0 x1 x2 x4 x5 r j))

/-- The new hidden entry: output gate times tanh of the new cell entry. -/
theorem hidden_apply : k0_pay2 (F := Ideal) (gI x0 x1 x2 x4 x5) (gT x0 x1 x2 x4 x5) (gO x0 x1 x2 x4 x5)
      (gFC x0 x1 x2 x3 x4 x5) (ix2 r j)
    = hiddenRow (fun k => x0 (ix2 r k)) (fun k => x1 (ix2 r k)) (fun k => x2 (ix2 r k)) (fun j => x3 (ix2 r j)) x4 x5 j :=
  congrArg₂ (fun o c => o * Ideal.tanh c) (gO_apply x0 x1 x2 x4 x5 r j) (cell_apply x0 x1 x2 x3 x4 x5 r j)

end Gates

/-! ### The two halves of the output block -/

/-- Entry (r, 64 + j) lies in the right half, at its (r, j). -/
theorem rHi_emb (r : Fin 2000) (j : Fin 64) : rHi.emb (ix2 r j) = ix2 r (rightCol j) :=
  funext fun a => Fin.ext (match a with
    | ⟨0, _⟩ => (by show 0 + 1 * r.val = r.val; omega)
    | ⟨1, _⟩ => (by show 64 + 1 * j.val = j.val + 64; omega))

/-- Entry (r, j) lies in the left half, at its (r, j). -/
theorem rLo_emb (r : Fin 2000) (j : Fin 64) : rLo.emb (ix2 r j) = ix2 r (leftCol j) :=
  funext fun a => Fin.ext (match a with
    | ⟨0, _⟩ => (by show 0 + 1 * r.val = r.val; omega)
    | ⟨1, _⟩ => (by show 0 + 1 * j.val = j.val; omega))

/-- An entry of the left half is not in the right half. -/
theorem left_not_mem_rHi (r : Fin 2000) (j : Fin 64) : ix2 r (leftCol j) ∉ rHi.set := by
  intro h
  have h1 := (Rect.mem_set_unit.mp h ⟨1, by decide⟩).1
  have : (64 : Nat) ≤ j.val := h1
  have := j.isLt
  omega

/-- Every column is a left column or a right column. -/
theorem col_cases (q : Fin 128) : (∃ j : Fin 64, q = leftCol j) ∨ ∃ j : Fin 64, q = rightCol j := by
  by_cases h : q.val < 64
  · exact Or.inl ⟨⟨q.val, h⟩, Fin.ext rfl⟩
  · exact Or.inr ⟨⟨q.val - 64, by have := q.isLt; omega⟩, Fin.ext (by show q.val = q.val - 64 + 64; omega)⟩

/-- A left column of the output row holds the hidden entry. -/
theorem outRow_leftCol (a0 a1 a2 : Fin 128 → EReal) (cr : Fin 64 → EReal) (Ws : WStack) (bs : BStack) (j : Fin 64) :
    outRow a0 a1 a2 cr Ws bs (leftCol j) = hiddenRow a0 a1 a2 cr Ws bs j := by
  unfold outRow leftCol
  rw [dif_pos (show j.val < 64 from j.isLt)]

/-- A right column of the output row holds the cell entry. -/
theorem outRow_rightCol (a0 a1 a2 : Fin 128 → EReal) (cr : Fin 64 → EReal) (Ws : WStack) (bs : BStack) (j : Fin 64) :
    outRow a0 a1 a2 cr Ws bs (rightCol j) = cellRow a0 a1 a2 cr Ws bs j := by
  unfold outRow rightCol
  rw [dif_neg (show ¬ (j.val + 64 < 64) by omega)]
  exact congrArg (cellRow a0 a1 a2 cr Ws bs) (Fin.ext (by show j.val + 64 - 64 = j.val; omega))

/-- Over any two payloads, a left column of the two-piece block reads the second piece … -/
theorem canon_left (p1 p2 : Vec Ideal S2000x64 .f32) (r : Fin 2000) (j : Fin 64) :
    View.canon ([⟨rHi, p1⟩, ⟨rLo, p2⟩] : List (View.Piece (Elt Ideal) S2000x128 .f32)) (ix2 r (leftCol j)) = p2 (ix2 r j) := by
  rw [View.canon_cons_of_not_mem ⟨rHi, p1⟩ [⟨rLo, p2⟩] (left_not_mem_rHi r j), ← rLo_emb r j]
  exact View.canon_cons_emb rLo p2 [] (ix2 r j)

/-- … and a right column the first. -/
theorem canon_right (p1 p2 : Vec Ideal S2000x64 .f32) (r : Fin 2000) (j : Fin 64) :
    View.canon ([⟨rHi, p1⟩, ⟨rLo, p2⟩] : List (View.Piece (Elt Ideal) S2000x128 .f32)) (ix2 r (rightCol j)) = p1 (ix2 r j) := by
  rw [← rHi_emb r j]
  exact View.canon_cons_emb rHi p1 [⟨rLo, p2⟩] (ix2 r j)

/-- Entry (r, q) of a tile's output block is entry q of node r's output row. -/
theorem outBlock_apply (x0 x1 x2 : Vec Ideal S2000x128 .f32) (x3 : Vec Ideal S2000x64 .f32) (x4 : Vec Ideal S3x128x256 .f32)
    (x5 : Vec Ideal S1x256 .f32) (r : Fin 2000) (q : Fin 128) :
    outBlock (F := Ideal) x0 x1 x2 x3 x4 x5 (ix2 r q)
      = outRow (fun k => x0 (ix2 r k)) (fun k => x1 (ix2 r k)) (fun k => x2 (ix2 r k)) (fun j => x3 (ix2 r j)) x4 x5 q := by
  unfold outBlock
  rcases col_cases q with ⟨j, rfl⟩ | ⟨j, rfl⟩
  · exact (canon_left _ _ r j).trans ((hidden_apply x0 x1 x2 x3 x4 x5 r j).trans (outRow_leftCol _ _ _ _ _ _ j).symm)
  · exact (canon_right _ _ r j).trans ((cell_apply x0 x1 x2 x3 x4 x5 r j).trans (outRow_rightCol _ _ _ _ _ _ j).symm)

end Cert.KernelIdeal.Hand

end
-- ==== Proof.KPrefix.lean ====
/-
  What the launch finds in the arrays it stages, in terms of the buffers the host code computed them from.

  Before the launch the host code forms [X | H], applies the rescaled-Laplacian step to it once and then a second
  time (the first and second Chebyshev terms), each time with the same per-edge weights, target rows and wrapped
  source rows. So the three staged 128-column arrays are t0 = [X | H], t1 = lhat t0 and t2 = 2 · lhat t1 − t0.
-/
import proofs.«161508_j42691974922289_2_alg».proof.Proof.FrameKI
import proofs.«161508_j42691974922289_2_alg».proof.Proof.Spec
import Idealize.ShloMosaic.Lib.StableHlo.Run

set_option maxRecDepth 16384

noncomputable section

namespace Cert.KernelIdeal.Hand

open Cert.KernelIdeal Cert.KernelIdeal.Gen Cert.GConv
open Idealize.ShloMosaic Idealize.ShloMosaic.TcCoe Idealize.SL.Sem Idealize.ShloMosaic.StableHlo

variable (m : (ℓ : Loc nD τ sig) → Buf (Elt Ideal) ℓ)

set_option maxHeartbeats 4000000 in
/-- The zeroth term is X and H side by side. -/
theorem pre_t0 (c : Dev nD) : V m c main_v30
    = concatenate S50000x128 1 [⟨S50000x64, m ((c : Thread nD τ).loc main_arg0)⟩, ⟨S50000x64, m ((c : Thread nD τ).loc main_arg3)⟩]
        concatenates_S50000x64_S50000x64_S50000x128_d1 := by
  dsimp only [V, V0, before]
  simp only [hostOps0, hostOps0_1, hostOps0_2, hostOps0_3, hostOps0_4, List.flatten_cons, List.flatten_nil, List.append_nil, List.cons_append, List.nil_append]
  after_results_simp
  rfl

set_option maxHeartbeats 16000000 in
/-- The first term is the step applied to the zeroth. -/
theorem pre_t1 (c : Dev nD) : V m c main_v47
    = lhat128 (V m c main_v29) (V m c main_v42) (V m c main_v37) (V m c main_v30) := by
  dsimp only [V, V0, before]
  simp only [hostOps0, hostOps0_1, hostOps0_2, hostOps0_3, hostOps0_4, List.flatten_cons, List.flatten_nil, List.append_nil, List.cons_append, List.nil_append]
  after_results_simp
  rfl

set_option maxHeartbeats 32000000 in
/-- The second term is twice the step applied to the first, less the zeroth. -/
theorem pre_t2 (c : Dev nD) : V m c main_v67
    = cheb2_128 (V m c main_v29) (V m c main_v59) (V m c main_v54) (V m c main_v30) (V m c main_v47) := by
  dsimp only [V, V0, before]
  simp only [hostOps0, hostOps0_1, hostOps0_2, hostOps0_3, hostOps0_4, List.flatten_cons, List.flatten_nil, List.append_nil, List.cons_append, List.nil_append]
  after_results_simp
  rfl

set_option maxHeartbeats 8000000 in
/-- Both applications use the same target rows, -/
theorem pre_rows_target (c : Dev nD) : V m c main_v59 = V m c main_v42 := by
  dsimp only [V, V0, before]
  simp only [hostOps0, hostOps0_1, hostOps0_2, hostOps0_3, hostOps0_4, List.flatten_cons, List.flatten_nil, List.append_nil, List.cons_append, List.nil_append]
  after_results_simp

set_option maxHeartbeats 8000000 in
/-- and the same wrapped source rows. -/
theorem pre_rows_source (c : Dev nD) : V m c main_v54 = V m c main_v37 := by
  dsimp only [V, V0, before]
  simp only [hostOps0, hostOps0_1, hostOps0_2, hostOps0_3, hostOps0_4, List.flatten_cons, List.flatten_nil, List.append_nil, List.cons_append, List.nil_append]
  after_results_simp

end Cert.KernelIdeal.Hand

end
-- ==== Proof.GateLaw.lean ====
/-
  A gate's pre-activation, computed from 128 stacked columns, is the reference's.

  The kernel multiplies the 128-column Chebyshev terms of [X | H] by one stacked weight array: row k of
  the stack is X's weight row k for k below 64 and H's weight row k − 64 above, and column 64·g + j is gate
  g's column j. So each of its three 128-term sums is a sum over the left 64 columns, which is a term of
  the X-convolution, plus a sum over the right 64 columns, which is a term of the H-convolution; and its
  one stacked bias is the sum of the gate's three biases. What remains is to regroup

      ((L0 + R0) + (L1 + R1)) + (L2 + R2) + ((bx + bh) + bg)
        = ((((L0 + L1) + L2) + bx) + (((R0 + R1) + R2) + bh)) + bg,

  which uses only that addition of extended reals is associative and commutative: nothing is
  distributed, and nothing is assumed finite.
-/
import proofs.«161508_j42691974922289_2_alg».proof.Proof.GateSpec

noncomputable section

namespace Cert.GConv

open Idealize.ShloMosaic Idealize.ShloMosaic.ValueIdx

variable [Cert.KernelIdeal.Facts] [Cert.ReferenceIdeal.Facts]

/-- Gate `g`'s column `j` among the 256 stacked columns. -/
def gcol (g : Fin 4) (j : Fin 64) : Fin 256 := ⟨64 * g.val + j.val, by omega⟩

/-- A gate's pre-activation at (n, j) as the kernel computes it: three 128-term sums against the stacked
    weights, and the stacked bias. -/
def preKAt (t0 t1 t2 : Wide) (Ws : FVec Ideal Cert.KernelIdeal.S3x128x256 .f32)
    (bs : FVec Ideal Cert.KernelIdeal.S1x256 .f32) (g : Fin 4) (n : Fin 50000) (j : Fin 64) : EReal :=
  (((∑ k : Fin 128, t0 (ix2 n k) * Ws (ix3 (0 : Fin 3) k (gcol g j)))
      + ∑ k : Fin 128, t1 (ix2 n k) * Ws (ix3 (1 : Fin 3) k (gcol g j)))
    + ∑ k : Fin 128, t2 (ix2 n k) * Ws (ix3 (2 : Fin 3) k (gcol g j))) + bs (ix2 (0 : Fin 1) (gcol g j))

/-- A sum over 128 columns is the sum over the left 64 plus the sum over the right 64. -/
theorem sum_halves (f : Fin 128 → EReal) :
    ∑ k : Fin 128, f k = (∑ k : Fin 64, f (leftCol k)) + ∑ k : Fin 64, f (rightCol k) := by
  have h := Fin.sum_univ_add (a := 64) (b := 64) f
  rw [h]
  refine congrArg₂ (· + ·) (Finset.sum_congr rfl fun k _ => congrArg f (Fin.ext ?_))
    (Finset.sum_congr rfl fun k _ => congrArg f (Fin.ext ?_))
  · rfl
  · exact Nat.add_comm 64 k.val

/-- One 128-term sum against the stacked weights: its left half is the X-term, its right half the H-term. -/
theorem term_halves (t : Wide) (Ws : FVec Ideal Cert.KernelIdeal.S3x128x256 .f32) (Wx Wh : Wt) (κ : Fin 3)
    (g : Fin 4) (n : Fin 50000) (j : Fin 64)
    (hx : ∀ k : Fin 64, Ws (ix3 κ (leftCol k) (gcol g j)) = Wx (ix3 κ k j))
    (hh : ∀ k : Fin 64, Ws (ix3 κ (rightCol k) (gcol g j)) = Wh (ix3 κ k j)) :
    ∑ k : Fin 128, t (ix2 n k) * Ws (ix3 κ k (gcol g j))
      = (∑ k : Fin 64, restrict leftCol t (ix2 n k) * Wx (ix3 κ k j))
        + ∑ k : Fin 64, restrict rightCol t (ix2 n k) * Wh (ix3 κ k j) := by
  rw [sum_halves]
  refine congrArg₂ (· + ·) (Finset.sum_congr rfl fun k _ => ?_) (Finset.sum_congr rfl fun k _ => ?_)
  · rw [hx k]; rfl
  · rw [hh k]; rfl

/-- THE GATE LAW: with the stacked weights reading as the gate's X- and H-weights and the stacked bias as the
    sum of its three biases, the kernel's pre-activation is the reference's. -/
theorem preKAt_eq_preAt (t0 t1 t2 : Wide) (Ws : FVec Ideal Cert.KernelIdeal.S3x128x256 .f32)
    (bs : FVec Ideal Cert.KernelIdeal.S1x256 .f32) (Wx Wh : Wt) (bx bh : Bias) (bg : GateBias)
    (g : Fin 4) (n : Fin 50000) (j : Fin 64)
    (hx : ∀ (κ : Fin 3) (k : Fin 64), Ws (ix3 κ (leftCol k) (gcol g j)) = Wx (ix3 κ k j))
    (hh : ∀ (κ : Fin 3) (k : Fin 64), Ws (ix3 κ (rightCol k) (gcol g j)) = Wh (ix3 κ k j))
    (hb : bs (ix2 (0 : Fin 1) (gcol g j)) = (bx (ix1 j) + bh (ix1 j)) + bg (ix2 (0 : Fin 1) j)) :
    preKAt t0 t1 t2 Ws bs g n j
      = preAt (restrict leftCol t0) (restrict leftCol t1) (restrict leftCol t2)
          (restrict rightCol t0) (restrict rightCol t1) (restrict rightCol t2) Wx bx Wh bh bg n j := by
  unfold preKAt preAt convAt
  rw [term_halves t0 Ws Wx Wh 0 g n j (hx 0) (hh 0), term_halves t1 Ws Wx Wh 1 g n j (hx 1) (hh 1),
    term_halves t2 Ws Wx Wh 2 g n j (hx 2) (hh 2), hb]
  ac_rfl

end Cert.GConv

end
-- ==== Proof.StackRead.lean ====
/-
  The stacked weights and the stacked bias, read at one entry.

  Before the launch the kernel's host code lays the eight weight arrays out as one [3, 128, 256] array:
  the four gates' X-weights side by side along the last axis (gate g in columns 64·g … 64·g + 63), the
  four H-weights the same way, and the X-block on top of the H-block along the middle axis (rows 0 … 63
  and 64 … 127). It adds each gate's two convolution biases and its own bias, lays the four sums end to
  end, and views the 256 numbers as one row.

  So row k of the left half and column j of gate g is that gate's X-weight at (k, j), row k of the right
  half its H-weight, and entry 64·g + j of the bias row is (bx j + bh j) + bg j: a concatenation read at an
  index reads the piece whose span holds the coordinate, at the coordinate less the spans before it.
-/
import proofs.«161508_j42691974922289_2_alg».proof.Proof.GateLaw
import Idealize.ShloMosaic.Lib.ValueLayout

noncomputable section

namespace Cert.GConv

open Idealize.ShloMosaic Idealize.ShloMosaic.ValueIdx

section K
open Cert.KernelIdeal Cert.KernelIdeal.Facts₀
variable [Cert.KernelIdeal.Facts]

/-- The stacked weights: gates side by side, then X over H. -/
def wstack (Wxi Wxf Wxc Wxo Whi Whf Whc Who : FVec Ideal S3x64x64 .f32) : FVec Ideal S3x128x256 .f32 :=
  concatenate S3x128x256 1
    [⟨S3x64x256, concatenate S3x64x256 2 [⟨S3x64x64, Wxi⟩, ⟨S3x64x64, Wxf⟩, ⟨S3x64x64, Wxc⟩, ⟨S3x64x64, Wxo⟩]
        concatenates_S3x64x64_S3x64x64_S3x64x64_S3x64x64_S3x64x256_d2⟩,
     ⟨S3x64x256, concatenate S3x64x256 2 [⟨S3x64x64, Whi⟩, ⟨S3x64x64, Whf⟩, ⟨S3x64x64, Whc⟩, ⟨S3x64x64, Who⟩]
        concatenates_S3x64x64_S3x64x64_S3x64x64_S3x64x64_S3x64x256_d2⟩]
    concatenates_S3x64x256_S3x64x256_S3x128x256_d1

/-- The stacked bias: each gate's three biases added, the four sums end to end, as one row. -/
def bstack (bxi bhi bxf bhf bxc bhc bxo bho : FVec Ideal S64 .f32) (bi bf bc bo : FVec Ideal S1x64 .f32) :
    FVec Ideal S1x256 .f32 :=
  shapeCast S1x256
    (concatenate S256 0
      [⟨S64, addf (addf bxi bhi) (shapeCast S64 bi shapeCasts_S1x64_S64)⟩,
       ⟨S64, addf (addf bxf bhf) (shapeCast S64 bf shapeCasts_S1x64_S64)⟩,
       ⟨S64, addf (addf bxc bhc) (shapeCast S64 bc shapeCasts_S1x64_S64)⟩,
       ⟨S64, addf (addf bxo bho) (shapeCast S64 bo shapeCasts_S1x64_S64)⟩]
      concatenates_S64_S64_S64_S64_S256_d0)
    shapeCasts_S256_S1x256

/-! ## The two concatenations of weights, read at an index -/

/-- Two blocks stacked along the middle axis, read in the upper block's rows. -/
theorem rows_left (A B : FVec Ideal S3x64x256 .f32) (κ : Fin 3) (k : Fin 64) (c : Fin 256) :
    concatenate S3x128x256 1 [⟨S3x64x256, A⟩, ⟨S3x64x256, B⟩] concatenates_S3x64x256_S3x64x256_S3x128x256_d1
      (ix3 κ (leftCol k) c) = A (ix3 κ k c) := by
  refine concatenate_apply_piece (t := S3x128x256) (1 : Fin 3) [⟨S3x64x256, A⟩, ⟨S3x64x256, B⟩]
    concatenates_S3x64x256_S3x64x256_S3x128x256_d1 (ix3 κ (leftCol k) c) 0 (by simp) S3x64x256 A rfl rfl 0 rfl
    (ix3 κ k c) ?_ ?_
  · intro b hb
    match b with
    | ⟨0, _⟩ => rfl
    | ⟨1, _⟩ => exact absurd rfl hb
    | ⟨2, _⟩ => rfl
  · show 0 + k.val = k.val
    exact Nat.zero_add _

/-- Two blocks stacked along the middle axis, read in the lower block's rows. -/
theorem rows_right (A B : FVec Ideal S3x64x256 .f32) (κ : Fin 3) (k : Fin 64) (c : Fin 256) :
    concatenate S3x128x256 1 [⟨S3x64x256, A⟩, ⟨S3x64x256, B⟩] concatenates_S3x64x256_S3x64x256_S3x128x256_d1
      (ix3 κ (rightCol k) c) = B (ix3 κ k c) := by
  refine concatenate_apply_piece (t := S3x128x256) (1 : Fin 3) [⟨S3x64x256, A⟩, ⟨S3x64x256, B⟩]
    concatenates_S3x64x256_S3x64x256_S3x128x256_d1 (ix3 κ (rightCol k) c) 1 (by simp) S3x64x256 B rfl rfl 64 rfl
    (ix3 κ k c) ?_ ?_
  · intro b hb
    match b with
    | ⟨0, _⟩ => rfl
    | ⟨1, _⟩ => exact absurd rfl hb
    | ⟨2, _⟩ => rfl
  · show 64 + k.val = k.val + 64
    exact Nat.add_comm _ _

/-- Off the last axis the coordinates of (κ, k, 64·g + j) and (κ, k, j) agree. -/
theorem gate_offaxis (κ : Fin 3) (k : Fin 64) (g : Fin 4) (j : Fin 64) (b : Fin 3) (hb : b.val ≠ 2) :
    ((ix3 κ k j : S3x64x64.Idx) b).val = ((ix3 κ k (gcol g j) : S3x64x256.Idx) b).val := by
  match b with
  | ⟨0, _⟩ => rfl
  | ⟨1, _⟩ => rfl
  | ⟨2, _⟩ => exact absurd rfl hb

/-- Four gates side by side along the last axis, read in gate `g`'s columns. -/
theorem gates_apply (W0 W1 W2 W3 : FVec Ideal S3x64x64 .f32) (κ : Fin 3) (k : Fin 64) (g : Fin 4) (j : Fin 64) :
    concatenate S3x64x256 2 [⟨S3x64x64, W0⟩, ⟨S3x64x64, W1⟩, ⟨S3x64x64, W2⟩, ⟨S3x64x64, W3⟩]
      concatenates_S3x64x64_S3x64x64_S3x64x64_S3x64x64_S3x64x256_d2 (ix3 κ k (gcol g j))
      = (![W0, W1, W2, W3] g) (ix3 κ k j) := by
  match g with
  | ⟨0, hg⟩ =>
    exact concatenate_apply_piece (t := S3x64x256) (2 : Fin 3)
      [⟨S3x64x64, W0⟩, ⟨S3x64x64, W1⟩, ⟨S3x64x64, W2⟩, ⟨S3x64x64, W3⟩]
      concatenates_S3x64x64_S3x64x64_S3x64x64_S3x64x64_S3x64x256_d2 (ix3 κ k (gcol ⟨0, hg⟩ j)) 0 (by simp)
      S3x64x64 W0 rfl rfl 0 rfl (ix3 κ k j)
      (fun b hb => gate_offaxis κ k ⟨0, hg⟩ j b (fun h => hb (Fin.ext h)))
      (by show 0 + j.val = 64 * 0 + j.val; omega)
  | ⟨1, hg⟩ =>
    exact concatenate_apply_piece (t := S3x64x256) (2 : Fin 3)
      [⟨S3x64x64, W0⟩, ⟨S3x64x64, W1⟩, ⟨S3x64x64, W2⟩, ⟨S3x64x64, W3⟩]
      concatenates_S3x64x64_S3x64x64_S3x64x64_S3x64x64_S3x64x256_d2 (ix3 κ k (gcol ⟨1, hg⟩ j)) 1 (by simp)
      S3x64x64 W1 rfl rfl 64 rfl (ix3 κ k j)
      (fun b hb => gate_offaxis κ k ⟨1, hg⟩ j b (fun h => hb (Fin.ext h)))
      (by show 64 + j.val = 64 * 1 + j.val; omega)
  | ⟨2, hg⟩ =>
    exact concatenate_apply_piece (t := S3x64x256) (2 : Fin 3)
      [⟨S3x64x64, W0⟩, ⟨S3x64x64, W1⟩, ⟨S3x64x64, W2⟩, ⟨S3x64x64, W3⟩]
      concatenates_S3x64x64_S3x64x64_S3x64x64_S3x64x64_S3x64x256_d2 (ix3 κ k (gcol ⟨2, hg⟩ j)) 2 (by simp)
      S3x64x64 W2 rfl rfl 128 rfl (ix3 κ k j)
      (fun b hb => gate_offaxis κ k ⟨2, hg⟩ j b (fun h => hb (Fin.ext h)))
      (by show 128 + j.val = 64 * 2 + j.val; omega)
  | ⟨3, hg⟩ =>
    exact concatenate_apply_piece (t := S3x64x256) (2 : Fin 3)
      [⟨S3x64x64, W0⟩, ⟨S3x64x64, W1⟩, ⟨S3x64x64, W2⟩, ⟨S3x64x64, W3⟩]
      concatenates_S3x64x64_S3x64x64_S3x64x64_S3x64x64_S3x64x256_d2 (ix3 κ k (gcol ⟨3, hg⟩ j)) 3 (by simp)
      S3x64x64 W3 rfl rfl 192 rfl (ix3 κ k j)
      (fun b hb => gate_offaxis κ k ⟨3, hg⟩ j b (fun h => hb (Fin.ext h)))
      (by show 192 + j.val = 64 * 3 + j.val; omega)

/-! ## The stacked weights at an entry -/

/-- THE STACKED WEIGHTS in the left rows, gate `g`'s columns: that gate's X-weight. -/
theorem wstack_left (Wxi Wxf Wxc Wxo Whi Whf Whc Who : FVec Ideal S3x64x64 .f32) (κ : Fin 3) (k : Fin 64) (g : Fin 4)
    (j : Fin 64) :
    wstack Wxi Wxf Wxc Wxo Whi Whf Whc Who (ix3 κ (leftCol k) (gcol g j)) = (![Wxi, Wxf, Wxc, Wxo] g) (ix3 κ k j) := by
  unfold wstack
  rw [rows_left, gates_apply]

/-- THE STACKED WEIGHTS in the right rows, gate `g`'s columns: that gate's H-weight. -/
theorem wstack_right (Wxi Wxf Wxc Wxo Whi Whf Whc Who : FVec Ideal S3x64x64 .f32) (κ : Fin 3) (k : Fin 64) (g : Fin 4)
    (j : Fin 64) :
    wstack Wxi Wxf Wxc Wxo Whi Whf Whc Who (ix3 κ (rightCol k) (gcol g j)) = (![Whi, Whf, Whc, Who] g) (ix3 κ k j) := by
  unfold wstack
  rw [rows_right, gates_apply]

/-! ## The stacked bias at an entry -/

/-- Four gates' biases end to end, read in gate `g`'s span. -/
theorem bias_gates_apply (b0 b1 b2 b3 : FVec Ideal S64 .f32) (g : Fin 4) (j : Fin 64) :
    concatenate S256 0 [⟨S64, b0⟩, ⟨S64, b1⟩, ⟨S64, b2⟩, ⟨S64, b3⟩] concatenates_S64_S64_S64_S64_S256_d0
      (ix1 (gcol g j)) = (![b0, b1, b2, b3] g) (ix1 j) := by
  match g with
  | ⟨0, hg⟩ =>
    exact concatenate_apply_piece (t := S256) (0 : Fin 1) [⟨S64, b0⟩, ⟨S64, b1⟩, ⟨S64, b2⟩, ⟨S64, b3⟩]
      concatenates_S64_S64_S64_S64_S256_d0 (ix1 (gcol ⟨0, hg⟩ j)) 0 (by simp) S64 b0 rfl rfl 0 rfl (ix1 j)
      (fun b hb => absurd (Fin.ext (Nat.lt_one_iff.mp b.isLt)) hb)
      (by show 0 + j.val = 64 * 0 + j.val; omega)
  | ⟨1, hg⟩ =>
    exact concatenate_apply_piece (t := S256) (0 : Fin 1) [⟨S64, b0⟩, ⟨S64, b1⟩, ⟨S64, b2⟩, ⟨S64, b3⟩]
      concatenates_S64_S64_S64_S64_S256_d0 (ix1 (gcol ⟨1, hg⟩ j)) 1 (by simp) S64 b1 rfl rfl 64 rfl (ix1 j)
      (fun b hb => absurd (Fin.ext (Nat.lt_one_iff.mp b.isLt)) hb)
      (by show 64 + j.val = 64 * 1 + j.val; omega)
  | ⟨2, hg⟩ =>
    exact concatenate_apply_piece (t := S256) (0 : Fin 1) [⟨S64, b0⟩, ⟨S64, b1⟩, ⟨S64, b2⟩, ⟨S64, b3⟩]
      concatenates_S64_S64_S64_S64_S256_d0 (ix1 (gcol ⟨2, hg⟩ j)) 2 (by simp) S64 b2 rfl rfl 128 rfl (ix1 j)
      (fun b hb => absurd (Fin.ext (Nat.lt_one_iff.mp b.isLt)) hb)
      (by show 128 + j.val = 64 * 2 + j.val; omega)
  | ⟨3, hg⟩ =>
    exact concatenate_apply_piece (t := S256) (0 : Fin 1) [⟨S64, b0⟩, ⟨S64, b1⟩, ⟨S64, b2⟩, ⟨S64, b3⟩]
      concatenates_S64_S64_S64_S64_S256_d0 (ix1 (gcol ⟨3, hg⟩ j)) 3 (by simp) S64 b3 rfl rfl 192 rfl (ix1 j)
      (fun b hb => absurd (Fin.ext (Nat.lt_one_iff.mp b.isLt)) hb)
      (by show 192 + j.val = 64 * 3 + j.val; omega)

/-- THE STACKED BIAS at gate `g`'s entry `j`: the gate's two convolution biases added, then its own bias. -/
theorem bstack_apply (bxi bhi bxf bhf bxc bhc bxo bho : FVec Ideal S64 .f32) (bi bf bc bo : FVec Ideal S1x64 .f32) (g : Fin 4) (j : Fin 64) :
    bstack bxi bhi bxf bhf bxc bhc bxo bho bi bf bc bo (ix2 (0 : Fin 1) (gcol g j))
      = ((![bxi, bxf, bxc, bxo] g) (ix1 j) + (![bhi, bhf, bhc, bho] g) (ix1 j))
        + (![bi, bf, bc, bo] g) (ix2 (0 : Fin 1) j) := by
  unfold bstack
  rw [shapeCast_a_1a_apply, bias_gates_apply]
  match g with
  | ⟨0, _⟩ =>
    show addf (addf bxi bhi) (shapeCast S64 bi shapeCasts_S1x64_S64) (ix1 j) = _
    rw [addf_apply, addf_apply, shapeCast_1a_a_apply]
    rfl
  | ⟨1, _⟩ =>
    show addf (addf bxf bhf) (shapeCast S64 bf shapeCasts_S1x64_S64) (ix1 j) = _
    rw [addf_apply, addf_apply, shapeCast_1a_a_apply]
    rfl
  | ⟨2, _⟩ =>
    show addf (addf bxc bhc) (shapeCast S64 bc shapeCasts_S1x64_S64) (ix1 j) = _
    rw [addf_apply, addf_apply, shapeCast_1a_a_apply]
    rfl
  | ⟨3, _⟩ =>
    show addf (addf bxo bho) (shapeCast S64 bo shapeCasts_S1x64_S64) (ix1 j) = _
    rw [addf_apply, addf_apply, shapeCast_1a_a_apply]
    rfl

/-! ## Gate by gate (0, 1, 2, 3 are the input, forget, cell and output gates) -/

theorem wstack_left_0 (Wxi Wxf Wxc Wxo Whi Whf Whc Who : FVec Ideal S3x64x64 .f32) (κ : Fin 3) (k : Fin 64) (j : Fin 64) :
    wstack Wxi Wxf Wxc Wxo Whi Whf Whc Who (ix3 κ (leftCol k) (gcol (0 : Fin 4) j)) = Wxi (ix3 κ k j) :=
  wstack_left Wxi Wxf Wxc Wxo Whi Whf Whc Who κ k 0 j
theorem wstack_right_0 (Wxi Wxf Wxc Wxo Whi Whf Whc Who : FVec Ideal S3x64x64 .f32) (κ : Fin 3) (k : Fin 64) (j : Fin 64) :
    wstack Wxi Wxf Wxc Wxo Whi Whf Whc Who (ix3 κ (rightCol k) (gcol (0 : Fin 4) j)) = Whi (ix3 κ k j) :=
  wstack_right Wxi Wxf Wxc Wxo Whi Whf Whc Who κ k 0 j
theorem bstack_0 (bxi bhi bxf bhf bxc bhc bxo bho : FVec Ideal S64 .f32) (bi bf bc bo : FVec Ideal S1x64 .f32) (j : Fin 64) :
    bstack bxi bhi bxf bhf bxc bhc bxo bho bi bf bc bo (ix2 (0 : Fin 1) (gcol (0 : Fin 4) j))
      = (bxi (ix1 j) + bhi (ix1 j)) + bi (ix2 (0 : Fin 1) j) :=
  bstack_apply bxi bhi bxf bhf bxc bhc bxo bho bi bf bc bo 0 j
theorem wstack_left_1 (Wxi Wxf Wxc Wxo Whi Whf Whc Who : FVec Ideal S3x64x64 .f32) (κ : Fin 3) (k : Fin 64) (j : Fin 64) :
    wstack Wxi Wxf Wxc Wxo Whi Whf Whc Who (ix3 κ (leftCol k) (gcol (1 : Fin 4) j)) = Wxf (ix3 κ k j) :=
  wstack_left Wxi Wxf Wxc Wxo Whi Whf Whc Who κ k 1 j
theorem wstack_right_1 (Wxi Wxf Wxc Wxo Whi Whf Whc Who : FVec Ideal S3x64x64 .f32) (κ : Fin 3) (k : Fin 64) (j : Fin 64) :
    wstack Wxi Wxf Wxc Wxo Whi Whf Whc Who (ix3 κ (rightCol k) (gcol (1 : Fin 4) j)) = Whf (ix3 κ k j) :=
  wstack_right Wxi Wxf Wxc Wxo Whi Whf Whc Who κ k 1 j
theorem bstack_1 (bxi bhi bxf bhf bxc bhc bxo bho : FVec Ideal S64 .f32) (bi bf bc bo : FVec Ideal S1x64 .f32) (j : Fin 64) :
    bstack bxi bhi bxf bhf bxc bhc bxo bho bi bf bc bo (ix2 (0 : Fin 1) (gcol (1 : Fin 4) j))
      = (bxf (ix1 j) + bhf (ix1 j)) + bf (ix2 (0 : Fin 1) j) :=
  bstack_apply bxi bhi bxf bhf bxc bhc bxo bho bi bf bc bo 1 j
theorem wstack_left_2 (Wxi Wxf Wxc Wxo Whi Whf Whc Who : FVec Ideal S3x64x64 .f32) (κ : Fin 3) (k : Fin 64) (j : Fin 64) :
    wstack Wxi Wxf Wxc Wxo Whi Whf Whc Who (ix3 κ (leftCol k) (gcol (2 : Fin 4) j)) = Wxc (ix3 κ k j) :=
  wstack_left Wxi Wxf Wxc Wxo Whi Whf Whc Who κ k 2 j
theorem wstack_right_2 (Wxi Wxf Wxc Wxo Whi Whf Whc Who : FVec Ideal S3x64x64 .f32) (κ : Fin 3) (k : Fin 64) (j : Fin 64) :
    wstack Wxi Wxf Wxc Wxo Whi Whf Whc Who (ix3 κ (rightCol k) (gcol (2 : Fin 4) j)) = Whc (ix3 κ k j) :=
  wstack_right Wxi Wxf Wxc Wxo Whi Whf Whc Who κ k 2 j
theorem bstack_2 (bxi bhi bxf bhf bxc bhc bxo bho : FVec Ideal S64 .f32) (bi bf bc bo : FVec Ideal S1x64 .f32) (j : Fin 64) :
    bstack bxi bhi bxf bhf bxc bhc bxo bho bi bf bc bo (ix2 (0 : Fin 1) (gcol (2 : Fin 4) j))
      = (bxc (ix1 j) + bhc (ix1 j)) + bc (ix2 (0 : Fin 1) j) :=
  bstack_apply bxi bhi bxf bhf bxc bhc bxo bho bi bf bc bo 2 j
theorem wstack_left_3 (Wxi Wxf Wxc Wxo Whi Whf Whc Who : FVec Ideal S3x64x64 .f32) (κ : Fin 3) (k : Fin 64) (j : Fin 64) :
    wstack Wxi Wxf Wxc Wxo Whi Whf Whc Who (ix3 κ (leftCol k) (gcol (3 : Fin 4) j)) = Wxo (ix3 κ k j) :=
  wstack_left Wxi Wxf Wxc Wxo Whi Whf Whc Who κ k 3 j
theorem wstack_right_3 (Wxi Wxf Wxc Wxo Whi Whf Whc Who : FVec Ideal S3x64x64 .f32) (κ : Fin 3) (k : Fin 64) (j : Fin 64) :
    wstack Wxi Wxf Wxc Wxo Whi Whf Whc Who (ix3 κ (rightCol k) (gcol (3 : Fin 4) j)) = Who (ix3 κ k j) :=
  wstack_right Wxi Wxf Wxc Wxo Whi Whf Whc Who κ k 3 j
theorem bstack_3 (bxi bhi bxf bhf bxc bhc bxo bho : FVec Ideal S64 .f32) (bi bf bc bo : FVec Ideal S1x64 .f32) (j : Fin 64) :
    bstack bxi bhi bxf bhf bxc bhc bxo bho bi bf bc bo (ix2 (0 : Fin 1) (gcol (3 : Fin 4) j))
      = (bxo (ix1 j) + bho (ix1 j)) + bo (ix2 (0 : Fin 1) j) :=
  bstack_apply bxi bhi bxf bhf bxc bhc bxo bho bi bf bc bo 3 j

end K

end Cert.GConv

end
-- ==== Proof.KStacks.lean ====
/-
  The stacked weights and the stacked bias, as the launch finds them.

  Before the launch the host code lays the eight weight arrays side by side (the four X-weights along the output
  axis, likewise the four H-weights, then the two along the input axis) and adds, per gate, the two convolution
  biases and the gate's own bias, laying the four sums end to end.
-/
import proofs.«161508_j42691974922289_2_alg».proof.Proof.FrameKI
import proofs.«161508_j42691974922289_2_alg».proof.Proof.StackRead
import Idealize.ShloMosaic.Lib.StableHlo.Run

set_option maxRecDepth 16384

noncomputable section

namespace Cert.KernelIdeal.Hand

open Cert.KernelIdeal Cert.KernelIdeal.Gen Cert.GConv
open Idealize.ShloMosaic Idealize.ShloMosaic.TcCoe Idealize.SL.Sem Idealize.ShloMosaic.StableHlo

variable (m : (ℓ : Loc nD τ sig) → Buf (Elt Ideal) ℓ)

set_option maxHeartbeats 16000000 in
/-- The staged weights are the stack of the eight weight arrays. -/
theorem pre_wstack (c : Dev nD) : V m c main_v70
    = wstack (m ((c : Thread nD τ).loc main_arg5)) (m ((c : Thread nD τ).loc main_arg9)) (m ((c : Thread nD τ).loc main_arg13)) (m ((c : Thread nD τ).loc main_arg17)) (m ((c : Thread nD τ).loc main_arg7)) (m ((c : Thread nD τ).loc main_arg11)) (m ((c : Thread nD τ).loc main_arg15)) (m ((c : Thread nD τ).loc main_arg19)) := by
  dsimp only [V, V0, before]
  simp only [hostOps0, hostOps0_1, hostOps0_2, hostOps0_3, hostOps0_4, List.flatten_cons, List.flatten_nil, List.append_nil, List.cons_append, List.nil_append]
  after_results_simp
  rfl

set_option maxHeartbeats 16000000 in
/-- The staged bias is the stack of the four summed biases. -/
theorem pre_bstack (c : Dev nD) : V m c main_v84
    = bstack (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) (m ((c : Thread nD τ).loc main_arg20)) (m ((c : Thread nD τ).loc main_arg21)) (m ((c : Thread nD τ).loc main_arg22)) (m ((c : Thread nD τ).loc main_arg23)) (m ((c : Thread nD τ).loc main_arg24)) := by
  dsimp only [V, V0, before]
  simp only [hostOps0, hostOps0_1, hostOps0_2, hostOps0_3, hostOps0_4, List.flatten_cons, List.flatten_nil, List.append_nil, List.cons_append, List.nil_append]
  after_results_simp
  rfl

end Cert.KernelIdeal.Hand

end
-- ==== Proof.ColumnIdx.lean ====
/-
  The gather and the scatter-add of the graph operator, read at one entry.

  Both programs move node features along edges with the same two array operations. A gather with the
  edge's source index on axis 0 and the whole row as its slice reads, at edge e and column c, the node
  array at (clamp (col e), c): the index word is read signed and clamped into the node range, the column
  passes through. A scatter-add with the edge's target index on axis 0 and the row as its window adds,
  into entry (n, c), the update's entries (e, c) over the edges e whose index word read signed is n: here
  the word is not clamped, an edge whose word names no node contributes nothing, and again the column
  passes through. A weight that is one number per edge, broadcast along the row, reads that number.

  In each of the three the column c on the left is the column c on the right: this is what makes the
  operator act on every column by itself. The statements are given once at 128 columns and once at 64.
-/
import proofs.«161508_j42691974922289_2_alg».proof.Proof.Spec

noncomputable section

namespace Cert.GConv

open Idealize.ShloMosaic Idealize.ShloMosaic.ValueIdx

/-! ## Two facts about any scatter -/

/-- An update lands at operand index `i` exactly when, on every axis, its start plus its window coordinate
    is `i`'s coordinate: the landing index's in-range test is then `i`'s own range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro hf a
      have hfa := congrArg (fun f : s.Idx => ((f a).val : Int)) (Option.some.inj hf)
      simp only at hfa
      rw [← hfa]
      exact (Int.toNat_of_nonneg (h a).1).symm
    · intro H
      refine congrArg some (funext fun a => Fin.ext ?_)
      show (d.start j idx a + (d.window j a : Int)).toNat = (i a).val
      rw [H a]; exact Int.toNat_natCast _
  · rename_i h
    constructor
    · intro hf; cases hf
    · intro H
      exact absurd (fun a => by rw [H a]; exact ⟨Int.natCast_nonneg _, by exact_mod_cast (i a).isLt⟩) h

/-- The operand's axes that receive a window coordinate are the ones not inserted. -/
theorem mem_scatter_sKept {s si u : Shape} (d : ScatterDims s si u) (a : Fin s.rank) :
    a ∈ d.sKept ↔ a ∉ d.insertedWindowDims := by
  simp [ScatterDims.sKept, Shape.kept, List.mem_filter, List.mem_finRange]

/-- The node an edge's index word names when a gather reads it: signed, then clamped into the node range. -/
def clampNode (w : BitVec 32) : Fin 50000 := ⟨min w.toInt.toNat 49999, by omega⟩

/-- The edges whose index word, read signed and not clamped, is node `n`: the ones a scatter-add sends to `n`. -/
def edgesInto (idx : EdgeI) (n : Fin 50000) : Finset (Fin 800000) :=
  Finset.univ.filter (fun e : Fin 800000 => (idx (ix2 e (0 : Fin 1))).toInt = (n.val : Int))

theorem mem_edgesInto (idx : EdgeI) (n : Fin 50000) (e : Fin 800000) :
    e ∈ edgesInto idx n ↔ (idx (ix2 e (0 : Fin 1))).toInt = (n.val : Int) := by
  unfold edgesInto; rw [Finset.mem_filter]; exact ⟨fun h => h.2, fun h => ⟨Finset.mem_univ _, h⟩⟩

/-! ## At 128 columns -/

section K
open Cert.KernelIdeal Cert.KernelIdeal.Facts₀
variable [Cert.KernelIdeal.Facts]

local notation "G128" => gather_S50000x128_S800000x1_S800000x128_1_0_n_n_0_1_1128
local notation "S128" => scatter_S50000x128_S800000x1_S800000x128_1_0_0_1

/-- THE GATHER READ AT (e, c): the node array at the clamped source node of edge `e`, same column. -/
theorem gather128_apply (v : Wide) (idx : EdgeI) (e : Fin 800000) (c : Fin 128) :
    Host.gather G128 v idx (ix2 e c) = v (ix2 (clampNode (idx (ix2 e (0 : Fin 1)))) c) := by
  unfold Host.gather
  congr 1
  funext a
  refine Fin.ext ?_
  match a with
  | ⟨0, h0⟩ =>
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (⟨0, h0⟩ : Fin S50000x128.rank) ∈ (G128).startIndexMap := List.mem_singleton.mpr rfl
    rw [dif_pos hm]
    have hsi : (G128).siIdx (ix2 e c) ⟨List.idxOf (⟨0, h0⟩ : Fin S50000x128.rank) (G128).startIndexMap,
        List.idxOf_lt_length_iff.2 hm⟩ = ix2 e (0 : Fin 1) := by
      funext b; refine Fin.ext ?_
      match b with
      | ⟨0, _⟩ => rfl
      | ⟨1, _⟩ => rfl
    rw [hsi]
    rfl
  | ⟨1, h1⟩ =>
    show GatherDims.start _ _ idx _ + GatherDims.batchCoord _ _ _ + GatherDims.offCoord _ _ _ = _
    have hn : (⟨1, h1⟩ : Fin S50000x128.rank) ∉ (G128).startIndexMap := by
      intro h; have := List.mem_singleton.mp h; exact Nat.one_ne_zero (congrArg Fin.val this)
    have hk : (⟨1, h1⟩ : Fin S50000x128.rank) ∈ (G128).sKept :=
      (GatherDims.mem_sKept _ _).mpr ⟨hn, List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- On the node axis an update's start is its edge's index word, read signed … -/
theorem scatter128_start0 (idx : EdgeI) (e : Fin 800000) (c : Fin 128) :
    (S128).start (ix2 e c) idx (0 : Fin 2) = (idx (ix2 e (0 : Fin 1))).toInt := by
  unfold ScatterDims.start
  have hm : (0 : Fin 2) ∈ (S128).scatterDimsToOperandDims := List.mem_singleton.mpr rfl
  rw [dif_pos hm]
  have hsi : (S128).siIdx (ix2 e c) ⟨List.idxOf (0 : Fin 2) (S128).scatterDimsToOperandDims,
      List.idxOf_lt_length_iff.2 hm⟩ = ix2 e (0 : Fin 1) := by
    funext b; refine Fin.ext ?_
    match b with
    | ⟨0, _⟩ => rfl
    | ⟨1, _⟩ => rfl
  rw [hsi]

/-- … on the column axis it is zero … -/
theorem scatter128_start1 (idx : EdgeI) (e : Fin 800000) (c : Fin 128) :
    (S128).start (ix2 e c) idx (1 : Fin 2) = 0 := by
  unfold ScatterDims.start
  have hn : (1 : Fin 2) ∉ (S128).scatterDimsToOperandDims := by
    intro h; exact Nat.one_ne_zero (congrArg Fin.val (List.mem_singleton.mp h))
  rw [dif_neg hn]

/-- … the window coordinate is zero on the node axis … -/
theorem scatter128_window0 (e : Fin 800000) (c : Fin 128) :
    (S128).window (ix2 e c) (0 : Fin 2) = 0 := by
  unfold ScatterDims.window
  have hn : (0 : Fin 2) ∉ (S128).sKept := fun h => (mem_scatter_sKept _ _).mp h (List.mem_singleton.mpr rfl)
  rw [dif_neg hn]

/-- … and the update's own column on the column axis. -/
theorem scatter128_window1 (e : Fin 800000) (c : Fin 128) :
    (S128).window (ix2 e c) (1 : Fin 2) = c.val := by
  unfold ScatterDims.window
  have hk : (1 : Fin 2) ∈ (S128).sKept := (mem_scatter_sKept _ _).mpr (by
    intro h; exact Nat.one_ne_zero (congrArg Fin.val (List.mem_singleton.mp h)))
  rw [dif_pos hk]
  rfl

/-- An update at edge `e`, column `c'` lands at node `n`, column `c` exactly when the edge's index word, read
    signed, is `n` and the columns agree. -/
theorem scatter128_lands_iff (idx : EdgeI) (e : Fin 800000) (c' : Fin 128) (n : Fin 50000) (c : Fin 128) :
    (S128).resultIdx? (ix2 e c') idx = some (ix2 n c)
      ↔ (idx (ix2 e (0 : Fin 1))).toInt = (n.val : Int) ∧ c' = c := by
  rw [resultIdx?_eq_some_iff]
  constructor
  · intro H
    have H0 : (S128).start (ix2 e c') idx (0 : Fin 2) + (((S128).window (ix2 e c') (0 : Fin 2) : Nat) : Int)
        = (n.val : Int) := H (0 : Fin 2)
    have H1 : (S128).start (ix2 e c') idx (1 : Fin 2) + (((S128).window (ix2 e c') (1 : Fin 2) : Nat) : Int)
        = (c.val : Int) := H (1 : Fin 2)
    rw [scatter128_start0, scatter128_window0] at H0
    rw [scatter128_start1, scatter128_window1] at H1
    refine ⟨by simpa using H0, Fin.ext ?_⟩
    have : ((c'.val : Nat) : Int) = (c.val : Int) := by simpa using H1
    exact_mod_cast this
  · rintro ⟨h0, rfl⟩ a
    match a with
    | ⟨0, _⟩ =>
      show (S128).start (ix2 e c') idx (0 : Fin 2) + (((S128).window (ix2 e c') (0 : Fin 2) : Nat) : Int) = (n.val : Int)
      rw [scatter128_start0, scatter128_window0, h0]; simp
    | ⟨1, _⟩ =>
      show (S128).start (ix2 e c') idx (1 : Fin 2) + (((S128).window (ix2 e c') (1 : Fin 2) : Nat) : Int) = (c'.val : Int)
      rw [scatter128_start1, scatter128_window1]; simp

/-- THE SCATTER-ADD READ AT (n, c): the operand's entry plus the sum, over the edges sent to `n`, of the update's
    entry at that edge and the same column `c`. -/
theorem scatter128_apply (x : Wide) (idx : EdgeI) (upd : FVec Ideal S800000x128 .f32) (n : Fin 50000) (c : Fin 128) :
    Host.scatterAdd S128 x idx upd (ix2 n c) = x (ix2 n c) + ∑ e ∈ edgesInto idx n, upd (ix2 e c) := by
  unfold Host.scatterAdd
  rw [Ideal.hostScatterAdd_def]
  unfold Ideal.hostScatterAdd
  refine congrArg (x (ix2 n c) + ·) ?_
  refine Finset.sum_nbij' (fun j => (⟨(j 0).val, idx2_lt0 j⟩ : Fin 800000)) (fun e => ix2 e c) ?_ ?_ ?_ ?_ ?_
  · intro j hj
    rw [Finset.mem_filter] at hj
    have hj2 := hj.2
    rw [eq_ix2 j] at hj2
    exact (mem_edgesInto idx n _).mpr ((scatter128_lands_iff idx _ _ n c).mp hj2).1
  · intro e he
    rw [Finset.mem_filter]
    exact ⟨Finset.mem_univ _, (scatter128_lands_iff idx e c n c).mpr ⟨(mem_edgesInto idx n e).mp he, rfl⟩⟩
  · intro j hj
    rw [Finset.mem_filter] at hj
    have hj2 := hj.2
    rw [eq_ix2 j] at hj2
    have hc := ((scatter128_lands_iff idx _ _ n c).mp hj2).2
    show ix2 (⟨(j 0).val, idx2_lt0 j⟩ : Fin 800000) c = j
    rw [← hc]
    exact (eq_ix2 j).symm
  · intro e _
    rfl
  · intro j hj
    rw [Finset.mem_filter] at hj
    have hj2 := hj.2
    rw [eq_ix2 j] at hj2
    have hc := ((scatter128_lands_iff idx _ _ n c).mp hj2).2
    show upd j = upd (ix2 (⟨(j 0).val, idx2_lt0 j⟩ : Fin 800000) c)
    rw [← hc]
    exact congrArg upd (eq_ix2 j)

/-- THE EDGE WEIGHT READ AT (e, c): one number per edge, the same along the row. -/
theorem edgeWeight128_apply (nw : EdgeF) (e : Fin 800000) (c : Fin 128) :
    broadcastInDim S800000x128 ![0, 1] bcast_S800000x1_S800000x128_0_1
      (broadcastInDim S800000x1 ![0] bcast_S800000_S800000x1_0 nw) (ix2 e c) = nw (ix1 e) := by
  unfold broadcastInDim
  refine congrArg nw (funext fun a => ?_)
  match a with
  | ⟨0, _⟩ => rfl

end K

/-! ## At 64 columns -/

section R
open Cert.ReferenceIdeal Cert.ReferenceIdeal.Facts₀
variable [Cert.ReferenceIdeal.Facts]

local notation "G64" => gather_S50000x64_S800000x1_S800000x64_1_0_n_n_0_1_164
local notation "S64" => scatter_S50000x64_S800000x1_S800000x64_1_0_0_1

/-- THE GATHER READ AT (e, c): the node array at the clamped source node of edge `e`, same column. -/
theorem gather64_apply (v : Half) (idx : EdgeI) (e : Fin 800000) (c : Fin 64) :
    Host.gather G64 v idx (ix2 e c) = v (ix2 (clampNode (idx (ix2 e (0 : Fin 1)))) c) := by
  unfold Host.gather
  congr 1
  funext a
  refine Fin.ext ?_
  match a with
  | ⟨0, h0⟩ =>
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (⟨0, h0⟩ : Fin S50000x64.rank) ∈ (G64).startIndexMap := List.mem_singleton.mpr rfl
    rw [dif_pos hm]
    have hsi : (G64).siIdx (ix2 e c) ⟨List.idxOf (⟨0, h0⟩ : Fin S50000x64.rank) (G64).startIndexMap,
        List.idxOf_lt_length_iff.2 hm⟩ = ix2 e (0 : Fin 1) := by
      funext b; refine Fin.ext ?_
      match b with
      | ⟨0, _⟩ => rfl
      | ⟨1, _⟩ => rfl
    rw [hsi]
    rfl
  | ⟨1, h1⟩ =>
    show GatherDims.start _ _ idx _ + GatherDims.batchCoord _ _ _ + GatherDims.offCoord _ _ _ = _
    have hn : (⟨1, h1⟩ : Fin S50000x64.rank) ∉ (G64).startIndexMap := by
      intro h; have := List.mem_singleton.mp h; exact Nat.one_ne_zero (congrArg Fin.val this)
    have hk : (⟨1, h1⟩ : Fin S50000x64.rank) ∈ (G64).sKept :=
      (GatherDims.mem_sKept _ _).mpr ⟨hn, List.not_mem_nil⟩
    rw [GatherDims.batchCoord_eq_zero _ _ _ List.not_mem_nil]
    unfold GatherDims.start GatherDims.offCoord
    rw [dif_neg hn, dif_pos hk]
    simp only [Nat.add_zero, Nat.zero_add]
    rfl

/-- On the node axis an update's start is its edge's index word, read signed … -/
theorem scatter64_start0 (idx : EdgeI) (e : Fin 800000) (c : Fin 64) :
    (S64).start (ix2 e c) idx (0 : Fin 2) = (idx (ix2 e (0 : Fin 1))).toInt := by
  unfold ScatterDims.start
  have hm : (0 : Fin 2) ∈ (S64).scatterDimsToOperandDims := List.mem_singleton.mpr rfl
  rw [dif_pos hm]
  have hsi : (S64).siIdx (ix2 e c) ⟨List.idxOf (0 : Fin 2) (S64).scatterDimsToOperandDims,
      List.idxOf_lt_length_iff.2 hm⟩ = ix2 e (0 : Fin 1) := by
    funext b; refine Fin.ext ?_
    match b with
    | ⟨0, _⟩ => rfl
    | ⟨1, _⟩ => rfl
  rw [hsi]

/-- … on the column axis it is zero … -/
theorem scatter64_start1 (idx : EdgeI) (e : Fin 800000) (c : Fin 64) :
    (S64).start (ix2 e c) idx (1 : Fin 2) = 0 := by
  unfold ScatterDims.start
  have hn : (1 : Fin 2) ∉ (S64).scatterDimsToOperandDims := by
    intro h; exact Nat.one_ne_zero (congrArg Fin.val (List.mem_singleton.mp h))
  rw [dif_neg hn]

/-- … the window coordinate is zero on the node axis … -/
theorem scatter64_window0 (e : Fin 800000) (c : Fin 64) :
    (S64).window (ix2 e c) (0 : Fin 2) = 0 := by
  unfold ScatterDims.window
  have hn : (0 : Fin 2) ∉ (S64).sKept := fun h => (mem_scatter_sKept _ _).mp h (List.mem_singleton.mpr rfl)
  rw [dif_neg hn]

/-- … and the update's own column on the column axis. -/
theorem scatter64_window1 (e : Fin 800000) (c : Fin 64) :
    (S64).window (ix2 e c) (1 : Fin 2) = c.val := by
  unfold ScatterDims.window
  have hk : (1 : Fin 2) ∈ (S64).sKept := (mem_scatter_sKept _ _).mpr (by
    intro h; exact Nat.one_ne_zero (congrArg Fin.val (List.mem_singleton.mp h)))
  rw [dif_pos hk]
  rfl

/-- An update at edge `e`, column `c'` lands at node `n`, column `c` exactly when the edge's index word, read
    signed, is `n` and the columns agree. -/
theorem scatter64_lands_iff (idx : EdgeI) (e : Fin 800000) (c' : Fin 64) (n : Fin 50000) (c : Fin 64) :
    (S64).resultIdx? (ix2 e c') idx = some (ix2 n c)
      ↔ (idx (ix2 e (0 : Fin 1))).toInt = (n.val : Int) ∧ c' = c := by
  rw [resultIdx?_eq_some_iff]
  constructor
  · intro H
    have H0 : (S64).start (ix2 e c') idx (0 : Fin 2) + (((S64).window (ix2 e c') (0 : Fin 2) : Nat) : Int)
        = (n.val : Int) := H (0 : Fin 2)
    have H1 : (S64).start (ix2 e c') idx (1 : Fin 2) + (((S64).window (ix2 e c') (1 : Fin 2) : Nat) : Int)
        = (c.val : Int) := H (1 : Fin 2)
    rw [scatter64_start0, scatter64_window0] at H0
    rw [scatter64_start1, scatter64_window1] at H1
    refine ⟨by simpa using H0, Fin.ext ?_⟩
    have : ((c'.val : Nat) : Int) = (c.val : Int) := by simpa using H1
    exact_mod_cast this
  · rintro ⟨h0, rfl⟩ a
    match a with
    | ⟨0, _⟩ =>
      show (S64).start (ix2 e c') idx (0 : Fin 2) + (((S64).window (ix2 e c') (0 : Fin 2) : Nat) : Int) = (n.val : Int)
      rw [scatter64_start0, scatter64_window0, h0]; simp
    | ⟨1, _⟩ =>
      show (S64).start (ix2 e c') idx (1 : Fin 2) + (((S64).window (ix2 e c') (1 : Fin 2) : Nat) : Int) = (c'.val : Int)
      rw [scatter64_start1, scatter64_window1]; simp

/-- THE SCATTER-ADD READ AT (n, c): the operand's entry plus the sum, over the edges sent to `n`, of the update's
    entry at that edge and the same column `c`. -/
theorem scatter64_apply (x : Half) (idx : EdgeI) (upd : FVec Ideal S800000x64 .f32) (n : Fin 50000) (c : Fin 64) :
    Host.scatterAdd S64 x idx upd (ix2 n c) = x (ix2 n c) + ∑ e ∈ edgesInto idx n, upd (ix2 e c) := by
  unfold Host.scatterAdd
  rw [Ideal.hostScatterAdd_def]
  unfold Ideal.hostScatterAdd
  refine congrArg (x (ix2 n c) + ·) ?_
  refine Finset.sum_nbij' (fun j => (⟨(j 0).val, idx2_lt0 j⟩ : Fin 800000)) (fun e => ix2 e c) ?_ ?_ ?_ ?_ ?_
  · intro j hj
    rw [Finset.mem_filter] at hj
    have hj2 := hj.2
    rw [eq_ix2 j] at hj2
    exact (mem_edgesInto idx n _).mpr ((scatter64_lands_iff idx _ _ n c).mp hj2).1
  · intro e he
    rw [Finset.mem_filter]
    exact ⟨Finset.mem_univ _, (scatter64_lands_iff idx e c n c).mpr ⟨(mem_edgesInto idx n e).mp he, rfl⟩⟩
  · intro j hj
    rw [Finset.mem_filter] at hj
    have hj2 := hj.2
    rw [eq_ix2 j] at hj2
    have hc := ((scatter64_lands_iff idx _ _ n c).mp hj2).2
    show ix2 (⟨(j 0).val, idx2_lt0 j⟩ : Fin 800000) c = j
    rw [← hc]
    exact (eq_ix2 j).symm
  · intro e _
    rfl
  · intro j hj
    rw [Finset.mem_filter] at hj
    have hj2 := hj.2
    rw [eq_ix2 j] at hj2
    have hc := ((scatter64_lands_iff idx _ _ n c).mp hj2).2
    show upd j = upd (ix2 (⟨(j 0).val, idx2_lt0 j⟩ : Fin 800000) c)
    rw [← hc]
    exact congrArg upd (eq_ix2 j)

/-- THE EDGE WEIGHT READ AT (e, c): one number per edge, the same along the row. -/
theorem edgeWeight64_apply (nw : EdgeF) (e : Fin 800000) (c : Fin 64) :
    broadcastInDim S800000x64 ![0, 1] bcast_S800000x1_S800000x64_0_1
      (broadcastInDim S800000x1 ![0] bcast_S800000_S800000x1_0 nw) (ix2 e c) = nw (ix1 e) := by
  unfold broadcastInDim
  refine congrArg nw (funext fun a => ?_)
  match a with
  | ⟨0, _⟩ => rfl

end R

end Cert.GConv

end
-- ==== Proof.ColumnLaw.lean ====
/-
  The column law: the graph operator acts on each column by itself.

  Read at node n and column c, the step is

      lhat v (n, c) = 1 · ( v(n, c) − ( 0 + Σ_{e sent to n} nw e · v(clamp (col e), c) ) ) − v(n, c):

  every entry of v it touches lies in column c. So picking 64 of the 128 columns and then stepping is the
  same as stepping and then picking the same columns, whichever columns are picked; the same holds for
  the second Chebyshev term 2 · lhat t1 − t0, which is built from the step columnwise.
-/
import proofs.«161508_j42691974922289_2_alg».proof.Proof.ColumnIdx
import Idealize.ShloMosaic.Lib.IdealHost

noncomputable section

namespace Cert.GConv

open Idealize.ShloMosaic Idealize.ShloMosaic.ValueIdx

/-- The step's value at one entry, from the one column of `v` it reads, given as a function of the node. -/
def lhatAt (nw : EdgeF) (rowI colI : EdgeI) (col : Fin 50000 → EReal) (n : Fin 50000) : EReal :=
  Ideal.ofBits .f32 0x3F800000#32
      * (col n - (Ideal.ofBits .f32 0x00000000#32
          + ∑ e ∈ edgesInto rowI n, nw (ix1 e) * col (clampNode (colI (ix2 e (0 : Fin 1)))))) - col n

section K
open Cert.KernelIdeal Cert.KernelIdeal.Facts₀
variable [Cert.KernelIdeal.Facts]

/-- The step on 128 columns, read at (n, c): `lhatAt` of column `c`. -/
theorem lhat128_apply (nw : EdgeF) (rowI colI : EdgeI) (v : Wide) (n : Fin 50000) (c : Fin 128) :
    lhat128 nw rowI colI v (ix2 n c) = lhatAt nw rowI colI (fun m => v (ix2 m c)) n := by
  unfold lhat128 lhatAt
  rw [subf_apply, mulf_apply, subf_apply, scatter128_apply, broadcastInDim_scalar_apply, broadcastInDim_scalar_apply,
    constant_apply, constant_apply]
  refine congrArg (fun t => Ideal.ofBits .f32 0x3F800000#32 * (v (ix2 n c) - (Ideal.ofBits .f32 0x00000000#32 + t))
    - v (ix2 n c)) ?_
  refine Finset.sum_congr rfl fun e _ => ?_
  rw [mulf_apply, edgeWeight128_apply, gather128_apply]

/-- The second Chebyshev term on 128 columns, read at (n, c). -/
theorem cheb2_128_apply (nw : EdgeF) (rowI colI : EdgeI) (t0 t1 : Wide) (n : Fin 50000) (c : Fin 128) :
    cheb2_128 nw rowI colI t0 t1 (ix2 n c)
      = Ideal.ofBits .f32 0x40000000#32 * lhatAt nw rowI colI (fun m => t1 (ix2 m c)) n - t0 (ix2 n c) := by
  unfold cheb2_128
  rw [subf_apply, mulf_apply, broadcastInDim_scalar_apply, constant_apply, lhat128_apply]

end K

section R
open Cert.ReferenceIdeal Cert.ReferenceIdeal.Facts₀
variable [Cert.ReferenceIdeal.Facts]

/-- The step on 64 columns, read at (n, c): `lhatAt` of column `c`. -/
theorem lhat64_apply (nw : EdgeF) (rowI colI : EdgeI) (v : Half) (n : Fin 50000) (c : Fin 64) :
    lhat64 nw rowI colI v (ix2 n c) = lhatAt nw rowI colI (fun m => v (ix2 m c)) n := by
  unfold lhat64 lhatAt
  rw [subf_apply, mulf_apply, subf_apply, scatter64_apply, broadcastInDim_scalar_apply, broadcastInDim_scalar_apply,
    constant_apply, constant_apply]
  refine congrArg (fun t => Ideal.ofBits .f32 0x3F800000#32 * (v (ix2 n c) - (Ideal.ofBits .f32 0x00000000#32 + t))
    - v (ix2 n c)) ?_
  refine Finset.sum_congr rfl fun e _ => ?_
  rw [mulf_apply, edgeWeight64_apply, gather64_apply]

/-- The second Chebyshev term on 64 columns, read at (n, c). -/
theorem cheb2_64_apply (nw : EdgeF) (rowI colI : EdgeI) (t0 t1 : Half) (n : Fin 50000) (c : Fin 64) :
    cheb2_64 nw rowI colI t0 t1 (ix2 n c)
      = Ideal.ofBits .f32 0x40000000#32 * lhatAt nw rowI colI (fun m => t1 (ix2 m c)) n - t0 (ix2 n c) := by
  unfold cheb2_64
  rw [subf_apply, mulf_apply, broadcastInDim_scalar_apply, constant_apply, lhat64_apply]

end R

variable [Cert.KernelIdeal.Facts] [Cert.ReferenceIdeal.Facts]

/-- A restriction read at (n, c) is the wide array at (n, φ c). -/
theorem restrict_apply (φ : Fin 64 → Fin 128) (v : Wide) (n : Fin 50000) (c : Fin 64) :
    restrict φ v (ix2 n c) = v (ix2 n (φ c)) := rfl

/-- THE COLUMN LAW for the step: restricting to any 64 columns commutes with it. -/
theorem lhat_restrict (φ : Fin 64 → Fin 128) (nw : EdgeF) (rowI colI : EdgeI) (v : Wide) :
    restrict φ (lhat128 nw rowI colI v) = lhat64 nw rowI colI (restrict φ v) := by
  funext i
  obtain ⟨n, c, rfl⟩ : ∃ (n : Fin 50000) (c : Fin 64), i = ix2 n c := ⟨i 0, i 1, eq_ix2 i⟩
  rw [restrict_apply, lhat128_apply, lhat64_apply]
  rfl

/-- THE COLUMN LAW for the second Chebyshev term. -/
theorem cheb2_restrict (φ : Fin 64 → Fin 128) (nw : EdgeF) (rowI colI : EdgeI) (t0 t1 : Wide) :
    restrict φ (cheb2_128 nw rowI colI t0 t1) = cheb2_64 nw rowI colI (restrict φ t0) (restrict φ t1) := by
  funext i
  obtain ⟨n, c, rfl⟩ : ∃ (n : Fin 50000) (c : Fin 64), i = ix2 n c := ⟨i 0, i 1, eq_ix2 i⟩
  rw [restrict_apply, cheb2_128_apply, cheb2_64_apply]
  rfl

end Cert.GConv

end
-- ==== Proof.KCore.lean ====
/-
  One node's output row in the reference's shape, over any arrays.

  Let T0 = [X | H] be X and H side by side, T1 = lhat T0 and T2 = 2 · lhat T1 − T0 the Chebyshev terms on 128
  columns, and let the weights and biases be stacked as the kernel's host code stacks them. Then gate g's
  pre-activation computed from row n of T0, T1, T2 against the stack is the reference's: the X-convolution
  of the Chebyshev terms of X, plus the H-convolution of those of H, plus the gate's bias. Three facts meet:

    • the stack reads as the gate's own weights and biases, so each 128-term sum is an X-term plus an
      H-term and the whole regroups to the reference's sum;
    • the left 64 columns of [X | H] are X and the right 64 are H;
    • the step and the second Chebyshev term act on each column by itself, so the left columns of T1, T2
      are the terms of X and the right columns those of H.

  The two results are columns [0, 64) and [64, 128) of the output array: a slice at column offset 0 reads
  column j, at offset 64 column j + 64, and there the output row holds the new hidden and the new cell entry.
-/
import proofs.«161508_j42691974922289_2_alg».proof.Proof.ColumnLaw
import proofs.«161508_j42691974922289_2_alg».proof.Proof.StackRead
import proofs.«161508_j42691974922289_2_alg».proof.Proof.TileSpec

noncomputable section

namespace Cert.GConv

open Idealize.ShloMosaic Idealize.ShloMosaic.ValueIdx

variable [Cert.KernelIdeal.Facts] [Cert.ReferenceIdeal.Facts]

/-- A gate's pre-activation at (n, j) as the reference groups it, from X, H, the edge data and the gate's five
    arrays: both convolutions read the Chebyshev terms x, lhat x, 2 · lhat (lhat x) − x of their operand. -/
def refPre (nw : EdgeF) (row col : EdgeI) (X H : Half) (Wx : Wt) (bx : Bias) (Wh : Wt) (bh : Bias) (bg : GateBias)
    (n : Fin 50000) (j : Fin 64) : EReal :=
  preAt X (lhat64 nw row col X) (cheb2_64 nw row col X (lhat64 nw row col X))
    H (lhat64 nw row col H) (cheb2_64 nw row col H (lhat64 nw row col H)) Wx bx Wh bh bg n j

/-- A node's pre-activation row read off three 128-column arrays is the kernel's pre-activation at that node. -/
theorem preRow_eq_preKAt (t0 t1 t2 : Wide) (Ws : WStack) (bs : BStack) (g : Fin 4) (n : Fin 50000) (j : Fin 64) :
    preRow (fun k => t0 (ix2 n k)) (fun k => t1 (ix2 n k)) (fun k => t2 (ix2 n k)) Ws bs g j
      = preKAt t0 t1 t2 Ws bs g n j := rfl

/-- The output row's left columns hold the new hidden entries … -/
theorem outRow_hidden (a0 a1 a2 : Fin 128 → EReal) (cr : Fin 64 → EReal) (Ws : WStack) (bs : BStack) (j : Fin 64) :
    outRow a0 a1 a2 cr Ws bs (leftCol j)
      = hiddenOf (preRow a0 a1 a2 Ws bs 3 j)
          (cellOf (preRow a0 a1 a2 Ws bs 1 j) (preRow a0 a1 a2 Ws bs 0 j) (preRow a0 a1 a2 Ws bs 2 j) (cr j)) := by
  rw [outRow_left]; rfl

/-- … and its right columns the new cell entries. -/
theorem outRow_cell (a0 a1 a2 : Fin 128 → EReal) (cr : Fin 64 → EReal) (Ws : WStack) (bs : BStack) (j : Fin 64) :
    outRow a0 a1 a2 cr Ws bs (rightCol j)
      = cellOf (preRow a0 a1 a2 Ws bs 1 j) (preRow a0 a1 a2 Ws bs 0 j) (preRow a0 a1 a2 Ws bs 2 j) (cr j) := by
  rw [outRow_right]; rfl

section K
open Cert.KernelIdeal Cert.KernelIdeal.Facts₀

/-! ## The two halves of [X | H] -/

/-- The left 64 columns of X and H side by side are X. -/
theorem restrict_left_concat (X H : Half) : restrict leftCol (concatenate S50000x128 1 [⟨S50000x64, X⟩, ⟨S50000x64, H⟩] concatenates_S50000x64_S50000x64_S50000x128_d1) = X := by
  funext i
  obtain ⟨n, c, rfl⟩ : ∃ (n : Fin 50000) (c : Fin 64), i = ix2 n c := ⟨i 0, i 1, eq_ix2 i⟩
  rw [restrict_apply]
  refine concatenate_apply_piece (t := S50000x128) (1 : Fin 2) [⟨S50000x64, X⟩, ⟨S50000x64, H⟩]
    concatenates_S50000x64_S50000x64_S50000x128_d1 (ix2 n (leftCol c)) 0 (by simp) S50000x64 X rfl rfl 0 rfl
    (ix2 n c) ?_ ?_
  · intro b hb
    match b with
    | ⟨0, _⟩ => rfl
    | ⟨1, _⟩ => exact absurd rfl hb
  · show 0 + c.val = c.val
    exact Nat.zero_add _

/-- The right 64 columns are H. -/
theorem restrict_right_concat (X H : Half) : restrict rightCol (concatenate S50000x128 1 [⟨S50000x64, X⟩, ⟨S50000x64, H⟩] concatenates_S50000x64_S50000x64_S50000x128_d1) = H := by
  funext i
  obtain ⟨n, c, rfl⟩ : ∃ (n : Fin 50000) (c : Fin 64), i = ix2 n c := ⟨i 0, i 1, eq_ix2 i⟩
  rw [restrict_apply]
  refine concatenate_apply_piece (t := S50000x128) (1 : Fin 2) [⟨S50000x64, X⟩, ⟨S50000x64, H⟩]
    concatenates_S50000x64_S50000x64_S50000x128_d1 (ix2 n (rightCol c)) 1 (by simp) S50000x64 H rfl rfl 64 rfl
    (ix2 n c) ?_ ?_
  · intro b hb
    match b with
    | ⟨0, _⟩ => rfl
    | ⟨1, _⟩ => exact absurd rfl hb
  · show 64 + c.val = c.val + 64
    exact Nat.add_comm _ _

/-! ## The two column slices -/

/-- The slice at column offset 0 reads column j. -/
theorem slice_left_apply (A : Wide) (n : Fin 50000) (j : Fin 64) :
    extractStridedSlice S50000x64 ![0, 0] A slices_S50000x128_S50000x64_0_0 (ix2 n j) = A (ix2 n (leftCol j)) :=
  extractStridedSlice_apply _ A _ _ _ fun a => by
    match a with
    | ⟨0, _⟩ => show n.val = 0 + n.val; omega
    | ⟨1, _⟩ => show j.val = 0 + j.val; omega

/-- The slice at column offset 64 reads column j + 64. -/
theorem slice_right_apply (A : Wide) (n : Fin 50000) (j : Fin 64) :
    extractStridedSlice S50000x64 ![0, 64] A slices_S50000x128_S50000x64_0_64 (ix2 n j) = A (ix2 n (rightCol j)) :=
  extractStridedSlice_apply _ A _ _ _ fun a => by
    match a with
    | ⟨0, _⟩ => show n.val = 0 + n.val; omega
    | ⟨1, _⟩ => show j.val + 64 = 64 + j.val; omega

/-! ## A gate's pre-activation from the stacked arrays -/

/-- THE KERNEL'S PRE-ACTIVATION IS THE REFERENCE'S: gate `g`, node `n`, channel `j`, with T0 = [X | H],
    T1 = lhat T0, T2 = 2 · lhat T1 − T0 and the weights and biases stacked. -/
theorem preRow_stacked (nw : EdgeF) (row col : EdgeI) (X H : Half) (Wxi Wxf Wxc Wxo Whi Whf Whc Who : FVec Ideal S3x64x64 .f32)
    (bxi bhi bxf bhf bxc bhc bxo bho : FVec Ideal S64 .f32) (bi bf bc bo : FVec Ideal S1x64 .f32) (g : Fin 4) (n : Fin 50000) (j : Fin 64) :
    preRow (fun k => (concatenate S50000x128 1 [⟨S50000x64, X⟩, ⟨S50000x64, H⟩] concatenates_S50000x64_S50000x64_S50000x128_d1) (ix2 n k))
        (fun k => lhat128 nw row col (concatenate S50000x128 1 [⟨S50000x64, X⟩, ⟨S50000x64, H⟩] concatenates_S50000x64_S50000x64_S50000x128_d1) (ix2 n k))
        (fun k => cheb2_128 nw row col (concatenate S50000x128 1 [⟨S50000x64, X⟩, ⟨S50000x64, H⟩] concatenates_S50000x64_S50000x64_S50000x128_d1) (lhat128 nw row col (concatenate S50000x128 1 [⟨S50000x64, X⟩, ⟨S50000x64, H⟩] concatenates_S50000x64_S50000x64_S50000x128_d1)) (ix2 n k))
        (wstack Wxi Wxf Wxc Wxo Whi Whf Whc Who) (bstack bxi bhi bxf bhf bxc bhc bxo bho bi bf bc bo) g j
      = refPre nw row col X H (![Wxi, Wxf, Wxc, Wxo] g) (![bxi, bxf, bxc, bxo] g) (![Whi, Whf, Whc, Who] g)
          (![bhi, bhf, bhc, bho] g) (![bi, bf, bc, bo] g) n j := by
  rw [preRow_eq_preKAt, preKAt_eq_preAt _ _ _ _ _ (![Wxi, Wxf, Wxc, Wxo] g) (![Whi, Whf, Whc, Who] g)
    (![bxi, bxf, bxc, bxo] g) (![bhi, bhf, bhc, bho] g) (![bi, bf, bc, bo] g) g n j
    (fun κ k => wstack_left Wxi Wxf Wxc Wxo Whi Whf Whc Who κ k g j) (fun κ k => wstack_right Wxi Wxf Wxc Wxo Whi Whf Whc Who κ k g j) (bstack_apply bxi bhi bxf bhf bxc bhc bxo bho bi bf bc bo g j)]
  unfold refPre
  rw [cheb2_restrict, cheb2_restrict, lhat_restrict, lhat_restrict, restrict_left_concat, restrict_right_concat]

end K

end Cert.GConv

end
-- ==== Proof.KSpec.lean ====
/-
  The kernel's two results at an entry, in the reference's shape.

  The new hidden state and the new cell state are the left and the right 64 columns of the output array,
  whose row n is node n's output row computed from row n of the three staged Chebyshev arrays, row n of
  the cell state, and the staged stack of weights and biases. The host code staged T0 = [X | H], T1 = lhat T0
  and T2 = 2 · lhat T1 − T0, with one set of edge weights, target rows and source rows for both applications
  of the step, and the stack as laid out from the sixteen weight and bias arrays. So each gate's
  pre-activation is the reference's — the X-convolution of the Chebyshev terms of X plus the H-convolution
  of those of H plus the gate's bias — and

      c'(n, j) = σ(pre_f) · c(n, j) + σ(pre_i) · tanh(pre_c),      h'(n, j) = σ(pre_o) · tanh(c'(n, j)).
-/
import proofs.«161508_j42691974922289_2_alg».proof.Proof.KRun
import proofs.«161508_j42691974922289_2_alg».proof.Proof.KPrefix
import proofs.«161508_j42691974922289_2_alg».proof.Proof.KStacks
import proofs.«161508_j42691974922289_2_alg».proof.Proof.KCore

set_option maxRecDepth 16384

noncomputable section

namespace Cert.KernelIdeal.Hand

open Cert.KernelIdeal Cert.KernelIdeal.Gen Cert.GConv
open Idealize.ShloMosaic Idealize.ShloMosaic.TcCoe Idealize.ShloMosaic.ValueIdx Idealize.SL.Sem

variable [Cert.ReferenceIdeal.Facts]
variable (m : (ℓ : Loc nD τ sig) → Buf (Elt Ideal) ℓ)

/-- Gate g's pre-activation computed from row n of the three staged arrays against the staged stack is the
    reference's pre-activation of that gate, with the edge data the host code prepared. -/
theorem preRow_spec (c : Dev nD) (g : Fin 4) (n : Fin 50000) (j : Fin 64) :
    preRow (fun k => V m c main_v30 (ix2 n k)) (fun k => V m c main_v47 (ix2 n k)) (fun k => V m c main_v67 (ix2 n k))
        (V m c main_v70) (V m c main_v84) g j
      = refPre (V m c main_v29) (V m c main_v42) (V m c main_v37) (m ((c : Thread nD τ).loc main_arg0)) (m ((c : Thread nD τ).loc main_arg3))
          (![(m ((c : Thread nD τ).loc main_arg5)), (m ((c : Thread nD τ).loc main_arg9)), (m ((c : Thread nD τ).loc main_arg13)), (m ((c : Thread nD τ).loc main_arg17))] g) (![(m ((c : Thread nD τ).loc main_arg6)), (m ((c : Thread nD τ).loc main_arg10)), (m ((c : Thread nD τ).loc main_arg14)), (m ((c : Thread nD τ).loc main_arg18))] g)
          (![(m ((c : Thread nD τ).loc main_arg7)), (m ((c : Thread nD τ).loc main_arg11)), (m ((c : Thread nD τ).loc main_arg15)), (m ((c : Thread nD τ).loc main_arg19))] g) (![(m ((c : Thread nD τ).loc main_arg8)), (m ((c : Thread nD τ).loc main_arg12)), (m ((c : Thread nD τ).loc main_arg16)), (m ((c : Thread nD τ).loc main_arg20))] g)
          (![(m ((c : Thread nD τ).loc main_arg21)), (m ((c : Thread nD τ).loc main_arg22)), (m ((c : Thread nD τ).loc main_arg23)), (m ((c : Thread nD τ).loc main_arg24))] g) n j := by
  rw [pre_t2 m c, pre_rows_target m c, pre_rows_source m c, pre_t1 m c, pre_t0 m c, pre_wstack m c, pre_bstack m c]
  exact preRow_stacked (V m c main_v29) (V m c main_v42) (V m c main_v37) (m ((c : Thread nD τ).loc main_arg0)) (m ((c : Thread nD τ).loc main_arg3))
    (m ((c : Thread nD τ).loc main_arg5)) (m ((c : Thread nD τ).loc main_arg9)) (m ((c : Thread nD τ).loc main_arg13)) (m ((c : Thread nD τ).loc main_arg17)) (m ((c : Thread nD τ).loc main_arg7)) (m ((c : Thread nD τ).loc main_arg11)) (m ((c : Thread nD τ).loc main_arg15)) (m ((c : Thread nD τ).loc main_arg19))
    (m ((c : Thread nD τ).loc main_arg6)) (m ((c : Thread nD τ).loc main_arg8)) (m ((c : Thread nD τ).loc main_arg10)) (m ((c : Thread nD τ).loc main_arg12)) (m ((c : Thread nD τ).loc main_arg14)) (m ((c : Thread nD τ).loc main_arg16)) (m ((c : Thread nD τ).loc main_arg18)) (m ((c : Thread nD τ).loc main_arg20)) (m ((c : Thread nD τ).loc main_arg21)) (m ((c : Thread nD τ).loc main_arg22)) (m ((c : Thread nD τ).loc main_arg23)) (m ((c : Thread nD τ).loc main_arg24)) g n j

/-- The input gate's pre-activation at (n, j), in the reference's grouping. -/
def preI (c : Dev nD) (n : Fin 50000) (j : Fin 64) : EReal :=
  refPre (V m c main_v29) (V m c main_v42) (V m c main_v37) (m ((c : Thread nD τ).loc main_arg0)) (m ((c : Thread nD τ).loc main_arg3))
    (m ((c : Thread nD τ).loc main_arg5)) (m ((c : Thread nD τ).loc main_arg6)) (m ((c : Thread nD τ).loc main_arg7)) (m ((c : Thread nD τ).loc main_arg8)) (m ((c : Thread nD τ).loc main_arg21)) n j

/-- The forget gate's pre-activation at (n, j), in the reference's grouping. -/
def preF (c : Dev nD) (n : Fin 50000) (j : Fin 64) : EReal :=
  refPre (V m c main_v29) (V m c main_v42) (V m c main_v37) (m ((c : Thread nD τ).loc main_arg0)) (m ((c : Thread nD τ).loc main_arg3))
    (m ((c : Thread nD τ).loc main_arg9)) (m ((c : Thread nD τ).loc main_arg10)) (m ((c : Thread nD τ).loc main_arg11)) (m ((c : Thread nD τ).loc main_arg12)) (m ((c : Thread nD τ).loc main_arg22)) n j

/-- The cell-candidate gate's pre-activation at (n, j), in the reference's grouping. -/
def preC (c : Dev nD) (n : Fin 50000) (j : Fin 64) : EReal :=
  refPre (V m c main_v29) (V m c main_v42) (V m c main_v37) (m ((c : Thread nD τ).loc main_arg0)) (m ((c : Thread nD τ).loc main_arg3))
    (m ((c : Thread nD τ).loc main_arg13)) (m ((c : Thread nD τ).loc main_arg14)) (m ((c : Thread nD τ).loc main_arg15)) (m ((c : Thread nD τ).loc main_arg16)) (m ((c : Thread nD τ).loc main_arg23)) n j

/-- The output gate's pre-activation at (n, j), in the reference's grouping. -/
def preO (c : Dev nD) (n : Fin 50000) (j : Fin 64) : EReal :=
  refPre (V m c main_v29) (V m c main_v42) (V m c main_v37) (m ((c : Thread nD τ).loc main_arg0)) (m ((c : Thread nD τ).loc main_arg3))
    (m ((c : Thread nD τ).loc main_arg17)) (m ((c : Thread nD τ).loc main_arg18)) (m ((c : Thread nD τ).loc main_arg19)) (m ((c : Thread nD τ).loc main_arg20)) (m ((c : Thread nD τ).loc main_arg24)) n j

theorem preRow_I (c : Dev nD) (n : Fin 50000) (j : Fin 64) :
    preRow (fun k => V m c main_v30 (ix2 n k)) (fun k => V m c main_v47 (ix2 n k)) (fun k => V m c main_v67 (ix2 n k))
        (V m c main_v70) (V m c main_v84) 0 j = preI m c n j :=
  preRow_spec m c 0 n j

theorem preRow_F (c : Dev nD) (n : Fin 50000) (j : Fin 64) :
    preRow (fun k => V m c main_v30 (ix2 n k)) (fun k => V m c main_v47 (ix2 n k)) (fun k => V m c main_v67 (ix2 n k))
        (V m c main_v70) (V m c main_v84) 1 j = preF m c n j :=
  preRow_spec m c 1 n j

theorem preRow_C (c : Dev nD) (n : Fin 50000) (j : Fin 64) :
    preRow (fun k => V m c main_v30 (ix2 n k)) (fun k => V m c main_v47 (ix2 n k)) (fun k => V m c main_v67 (ix2 n k))
        (V m c main_v70) (V m c main_v84) 2 j = preC m c n j :=
  preRow_spec m c 2 n j

theorem preRow_O (c : Dev nD) (n : Fin 50000) (j : Fin 64) :
    preRow (fun k => V m c main_v30 (ix2 n k)) (fun k => V m c main_v47 (ix2 n k)) (fun k => V m c main_v67 (ix2 n k))
        (V m c main_v70) (V m c main_v84) 3 j = preO m c n j :=
  preRow_spec m c 3 n j

/-- The output array at (n, q) is node n's output row at q. -/
theorem G_apply (c : Dev nD) (n : Fin 50000) (q : Fin 128) :
    G m c (ix2 n q)
      = outRow (fun k => V m c main_v30 (ix2 n k)) (fun k => V m c main_v47 (ix2 n k)) (fun k => V m c main_v67 (ix2 n k))
          (fun j => V m c main_arg4 (ix2 n j)) (V m c main_v70) (V m c main_v84) q := rfl

/-- THE NEW CELL STATE at (n, j): σ(forget) · c + σ(input) · tanh(candidate), each pre-activation the reference's. -/
theorem cell_spec (c : Dev nD) (n : Fin 50000) (j : Fin 64) :
    cellOut m c (ix2 n j)
      = cellOf (preF m c n j) (preI m c n j) (preC m c n j) (m ((c : Thread nD τ).loc main_arg4) (ix2 n j)) := by
  unfold cellOut
  rw [slice_right_apply, G_apply, outRow_cell, preRow_F, preRow_I, preRow_C, V_arg4]

/-- THE NEW HIDDEN STATE at (n, j): σ(output) · tanh of the new cell entry. -/
theorem hidden_spec (c : Dev nD) (n : Fin 50000) (j : Fin 64) :
    hiddenOut m c (ix2 n j)
      = hiddenOf (preO m c n j)
          (cellOf (preF m c n j) (preI m c n j) (preC m c n j) (m ((c : Thread nD τ).loc main_arg4) (ix2 n j))) := by
  unfold hiddenOut
  rw [slice_left_apply, G_apply, outRow_hidden, preRow_O, preRow_F, preRow_I, preRow_C, V_arg4]

end Cert.KernelIdeal.Hand

end
-- ==== Proof.KNames.lean ====
/-
  The graph data both programs compute are the same functions of the edge list and edge weights.

  Both programs compute, by the same operations in the same order: the target rows and source rows of the edges (two
  rows of the edge list); the degree of each node (a scatter-add of the edge weights into the target rows); the
  factor dinv = 1/√degree where the degree is positive and 0 elsewhere; and the per-edge weight
  dinv(row) · w · dinv(col), rows wrapped into range before they index. The kernel's host code does this in five
  stretches; each stretch is read by itself, over whatever the buffers held before it, and the stretches are
  then composed: a buffer a stretch does not write keeps its contents.
-/
import proofs.«161508_j42691974922289_2_alg».proof.Proof.FrameKI
import proofs.«161508_j42691974922289_2_alg».proof.Proof.RefReadQ
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.SL.Sem Idealize.ShloMosaic.StableHlo

/-- Running two lists of operations one after the other. -/
theorem after_append {τ' : Topo} {sig' : RefSig} {Val : EltTy → Type} (l₁ l₂ : List (HloOp τ' sig' Val)) (W : Valuation τ' sig' Val) :
    after (l₁ ++ l₂) W = after l₂ (after l₁ W) := by
  induction l₁ generalizing W with
  | nil => rfl
  | cons op l ih => simp only [List.cons_append, after_cons, ih]

/-- The factor from the degree: 1/√d where d > 0, else 0 (the inner selection keeps the root's operand positive). -/
def factorOf (d : FVec Ideal S50000 .f32) : FVec Ideal S50000 .f32 :=
  select (cmpf .ogt d (broadcastInDim S50000 ![] bcast_S_S50000 (constant S_ .f32 0x00000000#32)))
    (Host.rsqrt (select (cmpf .ogt d (broadcastInDim S50000 ![] bcast_S_S50000 (constant S_ .f32 0x00000000#32))) d
      (broadcastInDim S50000 ![] bcast_S_S50000 (constant S_ .f32 0x3F800000#32))))
    (broadcastInDim S50000 ![] bcast_S_S50000 (constant S_ .f32 0x00000000#32))

/-- A row index wrapped into range: i + 50000 where i < 0. -/
def wrapRow (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- The per-edge weight from the factor, the two rows and the edge weights. -/
def weightOf (dinv : FVec Ideal S50000 .f32) (row col : IVec S800000 32) (w : FVec Ideal S800000 .f32) : FVec Ideal S800000 .f32 :=
  mulf (mulf (Host.gather gather_S50000_S800000x1_S800000_n_0_n_n_0_1_1 dinv
      (broadcastInDim S800000x1 ![0] bcast_S800000_S800000x1_0 (wrapRow row))) w)
    (Host.gather gather_S50000_S800000x1_S800000_n_0_n_n_0_1_1 dinv
      (broadcastInDim S800000x1 ![0] bcast_S800000_S800000x1_0 (wrapRow col)))

abbrev Val0 := Valuation τ sig (Elt Ideal)

/-! ### Each stretch, over whatever the buffers held before it -/

section Stretches
variable (W : Val0)

/-- First stretch: the two rows, the degree, the two comparisons, the constant one. -/
theorem s0_row : after (hostOps0 (F := Ideal)) W (Proc.devRef .tc main_v1) = Cert.ReferenceIdeal.ReadQ.val_main_v5 (F := Ideal) (W (Proc.devRef .tc main_arg1)) := by
  simp only [hostOps0]; after_results_simp
  dsimp only [Cert.ReferenceIdeal.ReadQ.val_main_v4, Cert.ReferenceIdeal.ReadQ.val_main_v5]
  first | done | rfl
theorem s0_col : after (hostOps0 (F := Ideal)) W (Proc.devRef .tc main_v3) = Cert.ReferenceIdeal.ReadQ.val_main_v7 (F := Ideal) (W (Proc.devRef .tc main_arg1)) := by
  simp only [hostOps0]; after_results_simp
  dsimp only [Cert.ReferenceIdeal.ReadQ.val_main_v6, Cert.ReferenceIdeal.ReadQ.val_main_v7]
  first | done | rfl
theorem s0_deg : after (hostOps0 (F := Ideal)) W (Proc.devRef .tc main_v6)
    = Cert.ReferenceIdeal.ReadQ.val_main_v10 (F := Ideal) (W (Proc.devRef .tc main_arg1)) (W (Proc.devRef .tc main_arg2)) := by
  simp only [hostOps0]; after_results_simp
  dsimp only [Cert.ReferenceIdeal.ReadQ.val_main_v4, Cert.ReferenceIdeal.ReadQ.val_main_v5, Cert.ReferenceIdeal.ReadQ.val_main_cst, Cert.ReferenceIdeal.ReadQ.val_main_v8, Cert.ReferenceIdeal.ReadQ.val_main_v9, Cert.ReferenceIdeal.ReadQ.val_main_v10]
  first | done | rfl
theorem s0_pos (W : Val0) : (after (hostOps0 (F := Ideal)) W (Proc.devRef .tc main_v8) : IVec S50000 1)
      = cmpf (F := Ideal) .ogt (after (hostOps0 (F := Ideal)) W (Proc.devRef .tc main_v6) : FVec Ideal S50000 .f32) (broadcastInDim S50000 ![] bcast_S_S50000 (constant (F := Ideal) S_ .f32 0x00000000#32))
    ∧ (after (hostOps0 (F := Ideal)) W (Proc.devRef .tc main_v10) : IVec S50000 1)
      = cmpf (F := Ideal) .ogt (after (hostOps0 (F := Ideal)) W (Proc.devRef .tc main_v6) : FVec Ideal S50000 .f32) (broadcastInDim S50000 ![] bcast_S_S50000 (constant (F := Ideal) S_ .f32 0x00000000#32))
    ∧ (after (hostOps0 (F := Ideal)) W (Proc.devRef .tc main_cst_2) : FVec Ideal S_ .f32) = constant (F := Ideal) S_ .f32 0x3F800000#32 := by
  refine ⟨?_, ?_, ?_⟩ <;> (simp only [hostOps0]; after_results_simp) <;> first | done | rfl

/-- Second stretch (the inner selection): writes only its own three buffers. -/
theorem s1_sel : after (hostOps0_1 (F := Ideal)) W (Proc.devRef .tc main_v11)
    = select (W (Proc.devRef .tc main_v10)) (W (Proc.devRef .tc main_v6)) (broadcastInDim S50000 ![] bcast_S_S50000 (W (Proc.devRef .tc main_cst_2))) := by
  simp only [hostOps0_1]; after_results_simp
  try simp only [TRef.toBuf, TRef.ofBuf, cast_eq, id]
  first | done | rfl
theorem s1_keep (b : Ref sig .tc) (h1 : b ≠ main_call0_v0) (h2 : b ≠ main_call0_v1) (h3 : b ≠ main_v11) :
    after (hostOps0_1 (F := Ideal)) W (Proc.devRef .tc b) = W (Proc.devRef .tc b) :=
  after_of_forall_not_mem (b := Proc.devRef .tc b) _ _ (List.forall_iff_forall_mem.mp (by
    simp only [hostOps0_1, List.Forall, unary_writes, ternary_writes, Finset.mem_singleton]
    exact ⟨devRef_ne_of_ne h1, devRef_ne_of_ne h2, devRef_ne_of_ne h3⟩))

/-- Third stretch: the root, and the constant zero. -/
theorem s2_root : (after (hostOps0_2 (F := Ideal)) W (Proc.devRef .tc main_v12) : FVec Ideal S50000 .f32) = Host.rsqrt (F := Ideal) (show FVec Ideal S50000 .f32 from W (Proc.devRef .tc main_v11))
    ∧ (after (hostOps0_2 (F := Ideal)) W (Proc.devRef .tc main_cst_3) : FVec Ideal S_ .f32) = constant (F := Ideal) S_ .f32 0x00000000#32 := by
  refine ⟨?_, ?_⟩ <;> (simp only [hostOps0_2]; after_results_simp) <;> first | done | rfl
theorem s2_keep (b : Ref sig .tc) (h1 : b ≠ main_v12) (h2 : b ≠ main_cst_3) :
    after (hostOps0_2 (F := Ideal)) W (Proc.devRef .tc b) = W (Proc.devRef .tc b) :=
  after_of_forall_not_mem (b := Proc.devRef .tc b) _ _ (List.forall_iff_forall_mem.mp (by
    simp only [hostOps0_2, List.Forall, unary_writes, nullary_writes, Finset.mem_singleton]
    exact ⟨devRef_ne_of_ne h1, devRef_ne_of_ne h2⟩))

/-- Fourth stretch (the outer selection). -/
theorem s3_sel : after (hostOps0_3 (F := Ideal)) W (Proc.devRef .tc main_v13)
    = select (W (Proc.devRef .tc main_v8)) (W (Proc.devRef .tc main_v12)) (broadcastInDim S50000 ![] bcast_S_S50000 (W (Proc.devRef .tc main_cst_3))) := by
  simp only [hostOps0_3]; after_results_simp
  try simp only [TRef.toBuf, TRef.ofBuf, cast_eq, id]
  first | done | rfl
theorem s3_keep (b : Ref sig .tc) (h1 : b ≠ main_call1_v0) (h2 : b ≠ main_call1_v1) (h3 : b ≠ main_v13) :
    after (hostOps0_3 (F := Ideal)) W (Proc.devRef .tc b) = W (Proc.devRef .tc b) :=
  after_of_forall_not_mem (b := Proc.devRef .tc b) _ _ (List.forall_iff_forall_mem.mp (by
    simp only [hostOps0_3, List.Forall, unary_writes, ternary_writes, Finset.mem_singleton]
    exact ⟨devRef_ne_of_ne h1, devRef_ne_of_ne h2, devRef_ne_of_ne h3⟩))

set_option maxHeartbeats 8000000 in
/-- Fifth stretch: the per-edge weights, the target rows as a column, the wrapped source rows as a column. -/
theorem s4_weight : after (hostOps0_4 (F := Ideal)) W (Proc.devRef .tc main_v29)
    = weightOf (W (Proc.devRef .tc main_v13)) (W (Proc.devRef .tc main_v1)) (W (Proc.devRef .tc main_v3)) (W (Proc.devRef .tc main_arg2)) := by
  simp only [hostOps0_4]; after_results_simp
  first | done | rfl
set_option maxHeartbeats 8000000 in
theorem s4_target : after (hostOps0_4 (F := Ideal)) W (Proc.devRef .tc main_v42)
    = broadcastInDim S800000x1 ![0] bcast_S800000_S800000x1_0 (W (Proc.devRef .tc main_v1)) := by
  simp only [hostOps0_4]; after_results_simp
  first | done | rfl
set_option maxHeartbeats 8000000 in
theorem s4_source : after (hostOps0_4 (F := Ideal)) W (Proc.devRef .tc main_v37)
    = broadcastInDim S800000x1 ![0] bcast_S800000_S800000x1_0 (wrapRow (W (Proc.devRef .tc main_v3))) := by
  simp only [hostOps0_4]; after_results_simp
  first | done | rfl

end Stretches

/-! ### The reference's layers -/

theorem r_factor (ei : IVec S2x800000 32) (w : FVec Ideal S800000 .f32) :
    Cert.ReferenceIdeal.ReadQ.val_main_v17 (F := Ideal) ei w = factorOf (Cert.ReferenceIdeal.ReadQ.val_main_v10 (F := Ideal) ei w) := by
  dsimp only [Cert.ReferenceIdeal.ReadQ.val_main_v17, Cert.ReferenceIdeal.ReadQ.val_main_call1_v1, Cert.ReferenceIdeal.ReadQ.val_main_call1_v0, Cert.ReferenceIdeal.ReadQ.val_main_cst_3, Cert.ReferenceIdeal.ReadQ.val_main_v16, Cert.ReferenceIdeal.ReadQ.val_main_v15, Cert.ReferenceIdeal.ReadQ.val_main_call0_v1, Cert.ReferenceIdeal.ReadQ.val_main_call0_v0, Cert.ReferenceIdeal.ReadQ.val_main_cst_2, Cert.ReferenceIdeal.ReadQ.val_main_v14, Cert.ReferenceIdeal.ReadQ.val_main_v13, Cert.ReferenceIdeal.ReadQ.val_main_cst_1, Cert.ReferenceIdeal.ReadQ.val_main_v12, Cert.ReferenceIdeal.ReadQ.val_main_v11, Cert.ReferenceIdeal.ReadQ.val_main_cst_0]
  first | done | rfl

theorem r_weight (ei : IVec S2x800000 32) (w : FVec Ideal S800000 .f32) :
    Cert.ReferenceIdeal.ReadQ.val_main_v33 (F := Ideal) ei w
      = weightOf (Cert.ReferenceIdeal.ReadQ.val_main_v17 (F := Ideal) ei w) (Cert.ReferenceIdeal.ReadQ.val_main_v5 (F := Ideal) ei) (Cert.ReferenceIdeal.ReadQ.val_main_v7 (F := Ideal) ei) w := by
  dsimp only [Cert.ReferenceIdeal.ReadQ.val_main_v33, Cert.ReferenceIdeal.ReadQ.val_main_v32, Cert.ReferenceIdeal.ReadQ.val_main_v31, Cert.ReferenceIdeal.ReadQ.val_main_v30, Cert.ReferenceIdeal.ReadQ.val_main_v29, Cert.ReferenceIdeal.ReadQ.val_main_v28, Cert.ReferenceIdeal.ReadQ.val_main_c_6, Cert.ReferenceIdeal.ReadQ.val_main_v27, Cert.ReferenceIdeal.ReadQ.val_main_v26, Cert.ReferenceIdeal.ReadQ.val_main_c_5, Cert.ReferenceIdeal.ReadQ.val_main_v25, Cert.ReferenceIdeal.ReadQ.val_main_v24, Cert.ReferenceIdeal.ReadQ.val_main_v23, Cert.ReferenceIdeal.ReadQ.val_main_v22, Cert.ReferenceIdeal.ReadQ.val_main_v21, Cert.ReferenceIdeal.ReadQ.val_main_v20, Cert.ReferenceIdeal.ReadQ.val_main_c_4, Cert.ReferenceIdeal.ReadQ.val_main_v19, Cert.ReferenceIdeal.ReadQ.val_main_v18, Cert.ReferenceIdeal.ReadQ.val_main_c]
  first | done | rfl

theorem r_target (ei : IVec S2x800000 32) :
    Cert.ReferenceIdeal.ReadQ.val_main_v48 (F := Ideal) ei = broadcastInDim S800000x1 ![0] bcast_S800000_S800000x1_0 (Cert.ReferenceIdeal.ReadQ.val_main_v5 (F := Ideal) ei) := by
  dsimp only [Cert.ReferenceIdeal.ReadQ.val_main_v48, Cert.ReferenceIdeal.ReadQ.val_main_v1, Cert.ReferenceIdeal.ReadQ.val_main_v0, Cert.ReferenceIdeal.ReadQ.val_main_v5, Cert.ReferenceIdeal.ReadQ.val_main_v4]
  first | done | rfl

theorem r_source (ei : IVec S2x800000 32) :
    Cert.ReferenceIdeal.ReadQ.val_main_v43 (F := Ideal) ei = broadcastInDim S800000x1 ![0] bcast_S800000_S800000x1_0 (wrapRow (Cert.ReferenceIdeal.ReadQ.val_main_v7 (F := Ideal) ei)) := by
  dsimp only [Cert.ReferenceIdeal.ReadQ.val_main_v43, Cert.ReferenceIdeal.ReadQ.val_main_v42, Cert.ReferenceIdeal.ReadQ.val_main_v41, Cert.ReferenceIdeal.ReadQ.val_main_v40, Cert.ReferenceIdeal.ReadQ.val_main_v39, Cert.ReferenceIdeal.ReadQ.val_main_v38, Cert.ReferenceIdeal.ReadQ.val_main_v3, Cert.ReferenceIdeal.ReadQ.val_main_v2, Cert.ReferenceIdeal.ReadQ.val_main_v7, Cert.ReferenceIdeal.ReadQ.val_main_v6]
  first | done | rfl

/-! ### Composition -/

variable (m : (ℓ : Loc nD τ sig) → Buf (Elt Ideal) ℓ)

/-- The buffers after the first stretch, and so on up to the fourth. -/
def W1 (c : Dev nD) : Val0 := after (hostOps0 (F := Ideal)) (fun b => m (c, b))
def W2 (c : Dev nD) : Val0 := after (hostOps0_1 (F := Ideal)) (W1 m c)
def W3 (c : Dev nD) : Val0 := after (hostOps0_2 (F := Ideal)) (W2 m c)
def W4 (c : Dev nD) : Val0 := after (hostOps0_3 (F := Ideal)) (W3 m c)

theorem V_eq (c : Dev nD) (b : Ref sig .tc) : V m c b = after (hostOps0_4 (F := Ideal)) (W4 m c) (Proc.devRef .tc b) := by
  dsimp only [V, V0, before, W4, W3, W2, W1]
  simp only [List.flatten_cons, List.flatten_nil, List.append_nil, after_append]

/-- The factor the fifth stretch finds: the factor of the degree. -/
theorem W4_factor (c : Dev nD) : W4 m c (Proc.devRef .tc main_v13)
    = factorOf (Cert.ReferenceIdeal.ReadQ.val_main_v10 (F := Ideal) (m ((c : Thread nD τ).loc main_arg1)) (m ((c : Thread nD τ).loc main_arg2))) := by
  have h6 : W1 m c (Proc.devRef .tc main_v6) = Cert.ReferenceIdeal.ReadQ.val_main_v10 (F := Ideal) (m ((c : Thread nD τ).loc main_arg1)) (m ((c : Thread nD τ).loc main_arg2)) := s0_deg _
  obtain ⟨h8, h10, hc2⟩ := s0_pos (fun b => m (c, b))
  unfold W4
  rw [s3_sel]
  unfold W3
  rw [s2_keep _ main_v8 (by decide) (by decide), (s2_root _).1, (s2_root _).2]
  unfold W2
  rw [s1_keep _ main_v8 (by decide) (by decide) (by decide), s1_sel]
  unfold W1
  rw [h8, h10, hc2]
  rw [show after (hostOps0 (F := Ideal)) (fun b => m (c, b)) (Proc.devRef .tc main_v6) = _ from h6]
  first | done | rfl

theorem W4_rows (c : Dev nD) : W4 m c (Proc.devRef .tc main_v1) = Cert.ReferenceIdeal.ReadQ.val_main_v5 (F := Ideal) (m ((c : Thread nD τ).loc main_arg1))
    ∧ W4 m c (Proc.devRef .tc main_v3) = Cert.ReferenceIdeal.ReadQ.val_main_v7 (F := Ideal) (m ((c : Thread nD τ).loc main_arg1)) := by
  unfold W4 W3 W2 W1
  refine ⟨?_, ?_⟩
  · rw [s3_keep _ main_v1 (by decide) (by decide) (by decide), s2_keep _ main_v1 (by decide) (by decide),
      s1_keep _ main_v1 (by decide) (by decide) (by decide), s0_row]
  · rw [s3_keep _ main_v3 (by decide) (by decide) (by decide), s2_keep _ main_v3 (by decide) (by decide),
      s1_keep _ main_v3 (by decide) (by decide) (by decide), s0_col]

/-- No stretch before the fifth writes the edge weights. -/
theorem W4_arg2 (c : Dev nD) : W4 m c (Proc.devRef .tc main_arg2) = m ((c : Thread nD τ).loc main_arg2) := by
  unfold W4 W3 W2 W1
  rw [s3_keep _ main_arg2 (by decide) (by decide) (by decide), s2_keep _ main_arg2 (by decide) (by decide),
    s1_keep _ main_arg2 (by decide) (by decide) (by decide)]
  exact after_of_forall_not_mem (b := Proc.devRef .tc main_arg2) _ _ (List.forall_iff_forall_mem.mp (by
    simp only [hostOps0, List.Forall, nullary_writes, unary_writes, binary_writes, ternary_writes, reshape_writes, Finset.mem_singleton]
    repeat' apply And.intro
    all_goals exact devRef_ne_of_ne (by decide)))

/-- The per-edge weights. -/
theorem pre_weights (c : Dev nD) : V m c main_v29
    = Cert.ReferenceIdeal.ReadQ.val_main_v33 (F := Ideal) (m ((c : Thread nD τ).loc main_arg1)) (m ((c : Thread nD τ).loc main_arg2)) := by
  rw [V_eq, s4_weight, W4_factor, (W4_rows m c).1, (W4_rows m c).2, W4_arg2, r_weight, r_factor]

/-- The target rows, as a column. -/
theorem pre_target (c : Dev nD) : V m c main_v42 = Cert.ReferenceIdeal.ReadQ.val_main_v48 (F := Ideal) (m ((c : Thread nD τ).loc main_arg1)) := by
  rw [V_eq, s4_target, (W4_rows m c).1, r_target]

/-- The wrapped source rows, as a column. -/
theorem pre_source (c : Dev nD) : V m c main_v37 = Cert.ReferenceIdeal.ReadQ.val_main_v43 (F := Ideal) (m ((c : Thread nD τ).loc main_arg1)) := by
  rw [V_eq, s4_source, (W4_rows m c).2, r_source]

end Cert.KernelIdeal.Hand

end
-- ==== Proof.RefStage.lean ====
/-
  The reference's graph steps are the operator of Spec.lean.

  The reference prints the rescaled-Laplacian step sixteen times (twice per convolution, eight
  convolutions): each time the same gather / scale / scatter-add / subtract chain over the same
  per-edge weights and the same wrapped row and column indices, under fresh buffer names. Here the
  per-edge data are named once (nwR, rowR, colR) and every printed occurrence is identified, by
  unfolding, with t1R x = lhat x or t2R x = 2 · lhat (lhat x) − x for its operand x (X or H).
-/
import proofs.«161508_j42691974922289_2_alg».proof.Proof.GateSpec
import proofs.«161508_j42691974922289_2_alg».proof.Proof.RefReadQ

noncomputable section

namespace Cert.GConv

open Idealize.ShloMosaic Idealize.ShloMosaic.ValueIdx
open Cert.ReferenceIdeal.ReadQ

variable [Cert.KernelIdeal.Facts] [Cert.ReferenceIdeal.Facts]

/-- The edge list: row 0 the target nodes, row 1 the source nodes. -/
abbrev EdgeList := IVec Cert.ReferenceIdeal.S2x800000 32

/-- The symmetric-normalised edge weights the reference computes on the host. -/
def nwR (ei : EdgeList) (w : EdgeF) : EdgeF := val_main_v33 (F := Ideal) ei w
/-- The target rows, as a column of indices. -/
def rowR (ei : EdgeList) : EdgeI := val_main_v48 (F := Ideal) ei
/-- The source rows (wrapped into range), as a column of indices. -/
def colR (ei : EdgeList) : EdgeI := val_main_v43 (F := Ideal) ei
/-- The first Chebyshev term of x: lhat x. -/
def t1R (ei : EdgeList) (w : EdgeF) (x : Half) : Half := lhat64 (nwR ei w) (rowR ei) (colR ei) x
/-- The second Chebyshev term of x: 2 · lhat (lhat x) − x. -/
def t2R (ei : EdgeList) (w : EdgeF) (x : Half) : Half :=
  cheb2_64 (nwR ei w) (rowR ei) (colR ei) x (t1R ei w x)

/-! Each printed step, by unfolding the stage definitions (the same operations under other names). -/

-- gate i
theorem stage53 (X : Half) (ei : EdgeList) (w : EdgeF) :
    val_main_v53 (F := Ideal) X ei w = t1R ei w X := rfl
theorem stage77 (X : Half) (ei : EdgeList) (w : EdgeF) :
    val_main_v77 (F := Ideal) X ei w = t2R ei w X := rfl
theorem stage104 (ei : EdgeList) (w : EdgeF) (H : Half) :
    val_main_v104 (F := Ideal) ei w H = t1R ei w H := rfl
theorem stage128 (ei : EdgeList) (w : EdgeF) (H : Half) :
    val_main_v128 (F := Ideal) ei w H = t2R ei w H := rfl

-- gate f
theorem stage164 (X : Half) (ei : EdgeList) (w : EdgeF) :
    val_main_v164 (F := Ideal) X ei w = t1R ei w X := rfl
theorem stage188 (X : Half) (ei : EdgeList) (w : EdgeF) :
    val_main_v188 (F := Ideal) X ei w = t2R ei w X := rfl
theorem stage215 (ei : EdgeList) (w : EdgeF) (H : Half) :
    val_main_v215 (F := Ideal) ei w H = t1R ei w H := rfl
theorem stage239 (ei : EdgeList) (w : EdgeF) (H : Half) :
    val_main_v239 (F := Ideal) ei w H = t2R ei w H := rfl

-- gate c
theorem stage275 (X : Half) (ei : EdgeList) (w : EdgeF) :
    val_main_v275 (F := Ideal) X ei w = t1R ei w X := rfl
theorem stage299 (X : Half) (ei : EdgeList) (w : EdgeF) :
    val_main_v299 (F := Ideal) X ei w = t2R ei w X := rfl
theorem stage326 (ei : EdgeList) (w : EdgeF) (H : Half) :
    val_main_v326 (F := Ideal) ei w H = t1R ei w H := rfl
theorem stage350 (ei : EdgeList) (w : EdgeF) (H : Half) :
    val_main_v350 (F := Ideal) ei w H = t2R ei w H := rfl

-- gate o
theorem stage384 (X : Half) (ei : EdgeList) (w : EdgeF) :
    val_main_v384 (F := Ideal) X ei w = t1R ei w X := rfl
theorem stage408 (X : Half) (ei : EdgeList) (w : EdgeF) :
    val_main_v408 (F := Ideal) X ei w = t2R ei w X := rfl
theorem stage435 (ei : EdgeList) (w : EdgeF) (H : Half) :
    val_main_v435 (F := Ideal) ei w H = t1R ei w H := rfl
theorem stage459 (ei : EdgeList) (w : EdgeF) (H : Half) :
    val_main_v459 (F := Ideal) ei w H = t2R ei w H := rfl

end Cert.GConv

end
-- ==== Proof.RefConv.lean ====
/-
  One graph convolution of the reference, read at an entry.

  A convolution is printed as three matrix products (the operand and its two Chebyshev terms, each
  against one 64 × 64 slab of the weight array, cut out by a slice and a reshape), two additions
  and a broadcast bias. Read at (n, j): a product is the sum over k of the left operand at (n, k)
  times the slab at (k, j); slab s of W at (k, j) is W at (s, k, j), the reshape's flat position
  k · 64 + j splitting back into row k and column j; the bias row at (n, j) is b at j. The graph
  steps inside stay folded (RefStage). The eight convolutions differ only in buffer names.
-/
import proofs.«161508_j42691974922289_2_alg».proof.Proof.RefStage

noncomputable section

namespace Cert.GConv

open Idealize.ShloMosaic Idealize.ShloMosaic.ValueIdx
open Cert.ReferenceIdeal.ReadQ

variable [Cert.KernelIdeal.Facts] [Cert.ReferenceIdeal.Facts]

/-- Flat position k · 64 + j of a 64 × 64 slab lies in row k. -/
theorem slab_row (k j : Fin 64) : (k.val * 64 + j.val) / 64 % 64 = k.val := by
  have hk := k.isLt; have hj := j.isLt; omega
/-- Flat position k · 64 + j of a 64 × 64 slab lies in column j. -/
theorem slab_col (k j : Fin 64) : (k.val * 64 + j.val) % 64 = j.val := by
  have hk := k.isLt; have hj := j.isLt; omega

/-! gate i: the convolution of X, then of H -/

theorem conv84 (x : Half) (ei : EdgeList) (w : EdgeF) (W : Wt) (b : Bias) (n : Fin 50000) (j : Fin 64) :
    val_main_v84 (F := Ideal) x ei w W b (ix2 n j) = convAt x (t1R ei w x) (t2R ei w x) W b n j := by
  have eL0 : ∀ k : Fin 64, lidx_main_v36 (ix2 n j) k = ix2 n k :=
    fun k => funext fun a => match a with | ⟨0, _⟩ => rfl | ⟨1, _⟩ => rfl
  have eL1 : ∀ k : Fin 64, lidx_main_v56 (ix2 n j) k = ix2 n k :=
    fun k => funext fun a => match a with | ⟨0, _⟩ => rfl | ⟨1, _⟩ => rfl
  have eL2 : ∀ k : Fin 64, lidx_main_v80 (ix2 n j) k = ix2 n k :=
    fun k => funext fun a => match a with | ⟨0, _⟩ => rfl | ⟨1, _⟩ => rfl
  have eR0 : ∀ k : Fin 64, idx_main_v34 (idx_main_v35 (ridx_main_v36 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v54 (idx_main_v55 (ridx_main_v56 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v78 (idx_main_v79 (ridx_main_v80 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v82 (idx_main_v83 (ix2 n j)) = ix1 j :=
    funext fun a => match a with | ⟨0, _⟩ => rfl
  rw [val_main_v84_apply, val_main_v81_apply, val_main_v57_apply, val_main_v36_apply,
    val_main_v56_apply, val_main_v80_apply, val_main_v83_apply, val_main_v82_apply, eB]
  simp only [val_main_v35_apply, val_main_v34_apply, val_main_v55_apply, val_main_v54_apply,
    val_main_v79_apply, val_main_v78_apply, eL0, eL1, eL2, eR0, eR1, eR2, stage53, stage77]
  rfl

theorem conv135 (ei : EdgeList) (w : EdgeF) (x : Half) (W : Wt) (b : Bias) (n : Fin 50000) (j : Fin 64) :
    val_main_v135 (F := Ideal) ei w x W b (ix2 n j) = convAt x (t1R ei w x) (t2R ei w x) W b n j := by
  have eL0 : ∀ k : Fin 64, lidx_main_v87 (ix2 n j) k = ix2 n k :=
    fun k => funext fun a => match a with | ⟨0, _⟩ => rfl | ⟨1, _⟩ => rfl
  have eL1 : ∀ k : Fin 64, lidx_main_v107 (ix2 n j) k = ix2 n k :=
    fun k => funext fun a => match a with | ⟨0, _⟩ => rfl | ⟨1, _⟩ => rfl
  have eL2 : ∀ k : Fin 64, lidx_main_v131 (ix2 n j) k = ix2 n k :=
    fun k => funext fun a => match a with | ⟨0, _⟩ => rfl | ⟨1, _⟩ => rfl
  have eR0 : ∀ k : Fin 64, idx_main_v85 (idx_main_v86 (ridx_main_v87 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v105 (idx_main_v106 (ridx_main_v107 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v129 (idx_main_v130 (ridx_main_v131 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v133 (idx_main_v134 (ix2 n j)) = ix1 j :=
    funext fun a => match a with | ⟨0, _⟩ => rfl
  rw [val_main_v135_apply, val_main_v132_apply, val_main_v108_apply, val_main_v87_apply,
    val_main_v107_apply, val_main_v131_apply, val_main_v134_apply, val_main_v133_apply, eB]
  simp only [val_main_v86_apply, val_main_v85_apply, val_main_v106_apply, val_main_v105_apply,
    val_main_v130_apply, val_main_v129_apply, eL0, eL1, eL2, eR0, eR1, eR2, stage104, stage128]
  rfl

/-! gate f: the convolution of X, then of H -/

theorem conv195 (x : Half) (ei : EdgeList) (w : EdgeF) (W : Wt) (b : Bias) (n : Fin 50000) (j : Fin 64) :
    val_main_v195 (F := Ideal) x ei w W b (ix2 n j) = convAt x (t1R ei w x) (t2R ei w x) W b n j := by
  have eL0 : ∀ k : Fin 64, lidx_main_v147 (ix2 n j) k = ix2 n k :=
    fun k => funext fun a => match a with | ⟨0, _⟩ => rfl | ⟨1, _⟩ => rfl
  have eL1 : ∀ k : Fin 64, lidx_main_v167 (ix2 n j) k = ix2 n k :=
    fun k => funext fun a => match a with | ⟨0, _⟩ => rfl | ⟨1, _⟩ => rfl
  have eL2 : ∀ k : Fin 64, lidx_main_v191 (ix2 n j) k = ix2 n k :=
    fun k => funext fun a => match a with | ⟨0, _⟩ => rfl | ⟨1, _⟩ => rfl
  have eR0 : ∀ k : Fin 64, idx_main_v145 (idx_main_v146 (ridx_main_v147 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v165 (idx_main_v166 (ridx_main_v167 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v189 (idx_main_v190 (ridx_main_v191 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v193 (idx_main_v194 (ix2 n j)) = ix1 j :=
    funext fun a => match a with | ⟨0, _⟩ => rfl
  rw [val_main_v195_apply, val_main_v192_apply, val_main_v168_apply, val_main_v147_apply,
    val_main_v167_apply, val_main_v191_apply, val_main_v194_apply, val_main_v193_apply, eB]
  simp only [val_main_v146_apply, val_main_v145_apply, val_main_v166_apply, val_main_v165_apply,
    val_main_v190_apply, val_main_v189_apply, eL0, eL1, eL2, eR0, eR1, eR2, stage164, stage188]
  rfl

theorem conv246 (ei : EdgeList) (w : EdgeF) (x : Half) (W : Wt) (b : Bias) (n : Fin 50000) (j : Fin 64) :
    val_main_v246 (F := Ideal) ei w x W b (ix2 n j) = convAt x (t1R ei w x) (t2R ei w x) W b n j := by
  have eL0 : ∀ k : Fin 64, lidx_main_v198 (ix2 n j) k = ix2 n k :=
    fun k => funext fun a => match a with | ⟨0, _⟩ => rfl | ⟨1, _⟩ => rfl
  have eL1 : ∀ k : Fin 64, lidx_main_v218 (ix2 n j) k = ix2 n k :=
    fun k => funext fun a => match a with | ⟨0, _⟩ => rfl | ⟨1, _⟩ => rfl
  have eL2 : ∀ k : Fin 64, lidx_main_v242 (ix2 n j) k = ix2 n k :=
    fun k => funext fun a => match a with | ⟨0, _⟩ => rfl | ⟨1, _⟩ => rfl
  have eR0 : ∀ k : Fin 64, idx_main_v196 (idx_main_v197 (ridx_main_v198 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v216 (idx_main_v217 (ridx_main_v218 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v240 (idx_main_v241 (ridx_main_v242 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v244 (idx_main_v245 (ix2 n j)) = ix1 j :=
    funext fun a => match a with | ⟨0, _⟩ => rfl
  rw [val_main_v246_apply, val_main_v243_apply, val_main_v219_apply, val_main_v198_apply,
    val_main_v218_apply, val_main_v242_apply, val_main_v245_apply, val_main_v244_apply, eB]
  simp only [val_main_v197_apply, val_main_v196_apply, val_main_v217_apply, val_main_v216_apply,
    val_main_v241_apply, val_main_v240_apply, eL0, eL1, eL2, eR0, eR1, eR2, stage215, stage239]
  rfl

/-! gate c: the convolution of X, then of H -/

theorem conv306 (x : Half) (ei : EdgeList) (w : EdgeF) (W : Wt) (b : Bias) (n : Fin 50000) (j : Fin 64) :
    val_main_v306 (F := Ideal) x ei w W b (ix2 n j) = convAt x (t1R ei w x) (t2R ei w x) W b n j := by
  have eL0 : ∀ k : Fin 64, lidx_main_v258 (ix2 n j) k = ix2 n k :=
    fun k => funext fun a => match a with | ⟨0, _⟩ => rfl | ⟨1, _⟩ => rfl
  have eL1 : ∀ k : Fin 64, lidx_main_v278 (ix2 n j) k = ix2 n k :=
    fun k => funext fun a => match a with | ⟨0, _⟩ => rfl | ⟨1, _⟩ => rfl
  have eL2 : ∀ k : Fin 64, lidx_main_v302 (ix2 n j) k = ix2 n k :=
    fun k => funext fun a => match a with | ⟨0, _⟩ => rfl | ⟨1, _⟩ => rfl
  have eR0 : ∀ k : Fin 64, idx_main_v256 (idx_main_v257 (ridx_main_v258 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v276 (idx_main_v277 (ridx_main_v278 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v300 (idx_main_v301 (ridx_main_v302 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v304 (idx_main_v305 (ix2 n j)) = ix1 j :=
    funext fun a => match a with | ⟨0, _⟩ => rfl
  rw [val_main_v306_apply, val_main_v303_apply, val_main_v279_apply, val_main_v258_apply,
    val_main_v278_apply, val_main_v302_apply, val_main_v305_apply, val_main_v304_apply, eB]
  simp only [val_main_v257_apply, val_main_v256_apply, val_main_v277_apply, val_main_v276_apply,
    val_main_v301_apply, val_main_v300_apply, eL0, eL1, eL2, eR0, eR1, eR2, stage275, stage299]
  rfl

theorem conv357 (ei : EdgeList) (w : EdgeF) (x : Half) (W : Wt) (b : Bias) (n : Fin 50000) (j : Fin 64) :
    val_main_v357 (F := Ideal) ei w x W b (ix2 n j) = convAt x (t1R ei w x) (t2R ei w x) W b n j := by
  have eL0 : ∀ k : Fin 64, lidx_main_v309 (ix2 n j) k = ix2 n k :=
    fun k => funext fun a => match a with | ⟨0, _⟩ => rfl | ⟨1, _⟩ => rfl
  have eL1 : ∀ k : Fin 64, lidx_main_v329 (ix2 n j) k = ix2 n k :=
    fun k => funext fun a => match a with | ⟨0, _⟩ => rfl | ⟨1, _⟩ => rfl
  have eL2 : ∀ k : Fin 64, lidx_main_v353 (ix2 n j) k = ix2 n k :=
    fun k => funext fun a => match a with | ⟨0, _⟩ => rfl | ⟨1, _⟩ => rfl
  have eR0 : ∀ k : Fin 64, idx_main_v307 (idx_main_v308 (ridx_main_v309 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v327 (idx_main_v328 (ridx_main_v329 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v351 (idx_main_v352 (ridx_main_v353 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v355 (idx_main_v356 (ix2 n j)) = ix1 j :=
    funext fun a => match a with | ⟨0, _⟩ => rfl
  rw [val_main_v357_apply, val_main_v354_apply, val_main_v330_apply, val_main_v309_apply,
    val_main_v329_apply, val_main_v353_apply, val_main_v356_apply, val_main_v355_apply, eB]
  simp only [val_main_v308_apply, val_main_v307_apply, val_main_v328_apply, val_main_v327_apply,
    val_main_v352_apply, val_main_v351_apply, eL0, eL1, eL2, eR0, eR1, eR2, stage326, stage350]
  rfl

/-! gate o: the convolution of X, then of H -/

theorem conv415 (x : Half) (ei : EdgeList) (w : EdgeF) (W : Wt) (b : Bias) (n : Fin 50000) (j : Fin 64) :
    val_main_v415 (F := Ideal) x ei w W b (ix2 n j) = convAt x (t1R ei w x) (t2R ei w x) W b n j := by
  have eL0 : ∀ k : Fin 64, lidx_main_v367 (ix2 n j) k = ix2 n k :=
    fun k => funext fun a => match a with | ⟨0, _⟩ => rfl | ⟨1, _⟩ => rfl
  have eL1 : ∀ k : Fin 64, lidx_main_v387 (ix2 n j) k = ix2 n k :=
    fun k => funext fun a => match a with | ⟨0, _⟩ => rfl | ⟨1, _⟩ => rfl
  have eL2 : ∀ k : Fin 64, lidx_main_v411 (ix2 n j) k = ix2 n k :=
    fun k => funext fun a => match a with | ⟨0, _⟩ => rfl | ⟨1, _⟩ => rfl
  have eR0 : ∀ k : Fin 64, idx_main_v365 (idx_main_v366 (ridx_main_v367 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v385 (idx_main_v386 (ridx_main_v387 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v409 (idx_main_v410 (ridx_main_v411 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v413 (idx_main_v414 (ix2 n j)) = ix1 j :=
    funext fun a => match a with | ⟨0, _⟩ => rfl
  rw [val_main_v415_apply, val_main_v412_apply, val_main_v388_apply, val_main_v367_apply,
    val_main_v387_apply, val_main_v411_apply, val_main_v414_apply, val_main_v413_apply, eB]
  simp only [val_main_v366_apply, val_main_v365_apply, val_main_v386_apply, val_main_v385_apply,
    val_main_v410_apply, val_main_v409_apply, eL0, eL1, eL2, eR0, eR1, eR2, stage384, stage408]
  rfl

theorem conv466 (ei : EdgeList) (w : EdgeF) (x : Half) (W : Wt) (b : Bias) (n : Fin 50000) (j : Fin 64) :
    val_main_v466 (F := Ideal) ei w x W b (ix2 n j) = convAt x (t1R ei w x) (t2R ei w x) W b n j := by
  have eL0 : ∀ k : Fin 64, lidx_main_v418 (ix2 n j) k = ix2 n k :=
    fun k => funext fun a => match a with | ⟨0, _⟩ => rfl | ⟨1, _⟩ => rfl
  have eL1 : ∀ k : Fin 64, lidx_main_v438 (ix2 n j) k = ix2 n k :=
    fun k => funext fun a => match a with | ⟨0, _⟩ => rfl | ⟨1, _⟩ => rfl
  have eL2 : ∀ k : Fin 64, lidx_main_v462 (ix2 n j) k = ix2 n k :=
    fun k => funext fun a => match a with | ⟨0, _⟩ => rfl | ⟨1, _⟩ => rfl
  have eR0 : ∀ k : Fin 64, idx_main_v416 (idx_main_v417 (ridx_main_v418 (ix2 n j) k)) = ix3 (0 : Fin 3) k j :=
    fun k => funext fun a => Fin.ext (match a with
      | ⟨0, _⟩ => rfl
      | ⟨1, _⟩ => slab_row k j
      | ⟨2, _⟩ => slab_col k j)
  have eR1 : ∀ k : Fin 64, idx_main_v436 (idx_main_v437 (ridx_main_v438 (ix2 n j) k)) = ix3 (1 : Fin 3) k j :=
    fun k => funext fun a => Fin.ext (match a with
      | ⟨0, _⟩ => rfl
      | ⟨1, _⟩ => slab_row k j
      | ⟨2, _⟩ => slab_col k j)
  have eR2 : ∀ k : Fin 64, idx_main_v460 (idx_main_v461 (ridx_main_v462 (ix2 n j) k)) = ix3 (2 : Fin 3) k j :=
    fun k => funext fun a => Fin.ext (match a with
      | ⟨0, _⟩ => rfl
      | ⟨1, _⟩ => slab_row k j
      | ⟨2, _⟩ => slab_col k j)
  have eB : idx_main_v464 (idx_main_v465 (ix2 n j)) = ix1 j :=
    funext fun a => match a with | ⟨0, _⟩ => rfl
  rw [val_main_v466_apply, val_main_v463_apply, val_main_v439_apply, val_main_v418_apply,
    val_main_v438_apply, val_main_v462_apply, val_main_v465_apply, val_main_v464_apply, eB]
  simp only [val_main_v417_apply, val_main_v416_apply, val_main_v437_apply, val_main_v436_apply,
    val_main_v461_apply, val_main_v460_apply, eL0, eL1, eL2, eR0, eR1, eR2, stage435, stage459]
  rfl

end Cert.GConv

end
-- ==== Proof.RefRead.lean ====
/-
  The reference's two results, read at an entry.

  A gate's pre-activation is the X-convolution plus the H-convolution plus the gate's own bias row;
  the input, forget and output gates pass it through 1 / (1 + exp (−p)), which at the extended
  reals is the logistic function by definition once the literal 0x3F800000 is read as one; the
  candidate passes it through tanh. The new cell state is σ(p_f) · C + σ(p_i) · tanh(p_c) and the
  new hidden state σ(p_o) · tanh of that. Each is read at (n, j) down to the convolutions (RefConv),
  over any argument arrays.
-/
import proofs.«161508_j42691974922289_2_alg».proof.Proof.RefConv
import Idealize.ShloMosaic.Lib.IdealHost

noncomputable section

namespace Cert.GConv

open Idealize.ShloMosaic Idealize.ShloMosaic.ValueIdx
open Cert.ReferenceIdeal.ReadQ

variable [Cert.KernelIdeal.Facts] [Cert.ReferenceIdeal.Facts]

/-- A gate's pre-activation at (n, j) from the argument arrays. -/
def preR (X : Half) (ei : EdgeList) (w : EdgeF) (H : Half) (Wx : Wt) (bx : Bias) (Wh : Wt) (bh : Bias)
    (bg : GateBias) (n : Fin 50000) (j : Fin 64) : EReal :=
  preAt X (t1R ei w X) (t2R ei w X) H (t1R ei w H) (t2R ei w H) Wx bx Wh bh bg n j

/-- The reference's spelling of the logistic function: one over one plus the exponential of the
    negation, the two ones printed as the bit pattern of 1.0. -/
theorem logistic_spelt (p : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) p)))
      = Ideal.logistic p := by
  rw [Ideal.ofBits_def, Ideal.ofBits_one_f32]
  rfl

/-! The three sigmoid gates and the candidate, each a pre-activation then its activation. -/

-- input gate
theorem pre138 (X : Half) (ei : EdgeList) (w : EdgeF) (H : Half) (Wx : Wt) (bx : Bias) (Wh : Wt) (bh : Bias)
    (bg : GateBias) (n : Fin 50000) (j : Fin 64) :
    val_main_v138 (F := Ideal) X ei w H Wx bx Wh bh bg (ix2 n j) = preR X ei w H Wx bx Wh bh bg n j := by
  have eG : idx_main_v137 (ix2 n j) = ix2 (0 : Fin 1) j :=
    funext fun a => match a with | ⟨0, _⟩ => rfl | ⟨1, _⟩ => rfl
  rw [val_main_v138_apply, val_main_v136_apply, val_main_v137_apply, conv84, conv135, eG]
  rfl

theorem sig144 (X : Half) (ei : EdgeList) (w : EdgeF) (H : Half) (Wx : Wt) (bx : Bias) (Wh : Wt) (bh : Bias)
    (bg : GateBias) (n : Fin 50000) (j : Fin 64) :
    val_main_v144 (F := Ideal) X ei w H Wx bx Wh bh bg (ix2 n j)
      = Ideal.logistic (preR X ei w H Wx bx Wh bh bg n j) := by
  rw [val_main_v144_apply, val_main_v143_apply, val_main_cst_26_apply, val_main_v142_apply,
    val_main_v141_apply, val_main_cst_25_apply, val_main_v140_apply, val_main_v139_apply, pre138]
  exact logistic_spelt _

-- forget gate
theorem pre249 (X : Half) (ei : EdgeList) (w : EdgeF) (H : Half) (Wx : Wt) (bx : Bias) (Wh : Wt) (bh : Bias)
    (bg : GateBias) (n : Fin 50000) (j : Fin 64) :
    val_main_v249 (F := Ideal) X ei w H Wx bx Wh bh bg (ix2 n j) = preR X ei w H Wx bx Wh bh bg n j := by
  have eG : idx_main_v248 (ix2 n j) = ix2 (0 : Fin 1) j :=
    funext fun a => match a with | ⟨0, _⟩ => rfl | ⟨1, _⟩ => rfl
  rw [val_main_v249_apply, val_main_v247_apply, val_main_v248_apply, conv195, conv246, eG]
  rfl

theorem sig255 (X : Half) (ei : EdgeList) (w : EdgeF) (H : Half) (Wx : Wt) (bx : Bias) (Wh : Wt) (bh : Bias)
    (bg : GateBias) (n : Fin 50000) (j : Fin 64) :
    val_main_v255 (F := Ideal) X ei w H Wx bx Wh bh bg (ix2 n j)
      = Ideal.logistic (preR X ei w H Wx bx Wh bh bg n j) := by
  rw [val_main_v255_apply, val_main_v254_apply, val_main_cst_46_apply, val_main_v253_apply,
    val_main_v252_apply, val_main_cst_45_apply, val_main_v251_apply, val_main_v250_apply, pre249]
  exact logistic_spelt _

-- candidate
theorem pre360 (X : Half) (ei : EdgeList) (w : EdgeF) (H : Half) (Wx : Wt) (bx : Bias) (Wh : Wt) (bh : Bias)
    (bg : GateBias) (n : Fin 50000) (j : Fin 64) :
    val_main_v360 (F := Ideal) X ei w H Wx bx Wh bh bg (ix2 n j) = preR X ei w H Wx bx Wh bh bg n j := by
  have eG : idx_main_v359 (ix2 n j) = ix2 (0 : Fin 1) j :=
    funext fun a => match a with | ⟨0, _⟩ => rfl | ⟨1, _⟩ => rfl
  rw [val_main_v360_apply, val_main_v358_apply, val_main_v359_apply, conv306, conv357, eG]
  rfl

-- output gate
theorem pre469 (X : Half) (ei : EdgeList) (w : EdgeF) (H : Half) (Wx : Wt) (bx : Bias) (Wh : Wt) (bh : Bias)
    (bg : GateBias) (n : Fin 50000) (j : Fin 64) :
    val_main_v469 (F := Ideal) X ei w H Wx bx Wh bh bg (ix2 n j) = preR X ei w H Wx bx Wh bh bg n j := by
  have eG : idx_main_v468 (ix2 n j) = ix2 (0 : Fin 1) j :=
    funext fun a => match a with | ⟨0, _⟩ => rfl | ⟨1, _⟩ => rfl
  rw [val_main_v469_apply, val_main_v467_apply, val_main_v468_apply, conv415, conv466, eG]
  rfl

theorem sig475 (X : Half) (ei : EdgeList) (w : EdgeF) (H : Half) (Wx : Wt) (bx : Bias) (Wh : Wt) (bh : Bias)
    (bg : GateBias) (n : Fin 50000) (j : Fin 64) :
    val_main_v475 (F := Ideal) X ei w H Wx bx Wh bh bg (ix2 n j)
      = Ideal.logistic (preR X ei w H Wx bx Wh bh bg n j) := by
  rw [val_main_v475_apply, val_main_v474_apply, val_main_cst_84_apply, val_main_v473_apply,
    val_main_v472_apply, val_main_cst_83_apply, val_main_v471_apply, val_main_v470_apply, pre469]
  exact logistic_spelt _

/-- The reference's new cell state at (n, j), from the argument arrays. -/
def cellR (X : Half) (ei : EdgeList) (w : EdgeF) (H C : Half)
    (Wxi : Wt) (bxi : Bias) (Whi : Wt) (bhi : Bias) (Wxf : Wt) (bxf : Bias) (Whf : Wt) (bhf : Bias)
    (Wxc : Wt) (bxc : Bias) (Whc : Wt) (bhc : Bias)
    (bi bf bc : GateBias) (n : Fin 50000) (j : Fin 64) : EReal :=
  cellOf (preR X ei w H Wxf bxf Whf bhf bf n j) (preR X ei w H Wxi bxi Whi bhi bi n j)
    (preR X ei w H Wxc bxc Whc bhc bc n j) (C (ix2 n j))

/-- The reference's new hidden state at (n, j), from the argument arrays. -/
def hiddenR (X : Half) (ei : EdgeList) (w : EdgeF) (H C : Half)
    (Wxi : Wt) (bxi : Bias) (Whi : Wt) (bhi : Bias) (Wxf : Wt) (bxf : Bias) (Whf : Wt) (bhf : Bias)
    (Wxc : Wt) (bxc : Bias) (Whc : Wt) (bhc : Bias) (Wxo : Wt) (bxo : Bias) (Who : Wt) (bho : Bias)
    (bi bf bc bo : GateBias) (n : Fin 50000) (j : Fin 64) : EReal :=
  hiddenOf (preR X ei w H Wxo bxo Who bho bo n j)
    (cellR X ei w H C Wxi bxi Whi bhi Wxf bxf Whf bhf Wxc bxc Whc bhc bi bf bc n j)

/-- The stage that is the new cell state, at (n, j). -/
theorem cell364 (X : Half) (ei : EdgeList) (w : EdgeF) (H C : Half)
    (Wxi : Wt) (bxi : Bias) (Whi : Wt) (bhi : Bias) (Wxf : Wt) (bxf : Bias) (Whf : Wt) (bhf : Bias)
    (Wxc : Wt) (bxc : Bias) (Whc : Wt) (bhc : Bias)
    (bi bf bc : GateBias) (n : Fin 50000) (j : Fin 64) :
    val_main_v364 (F := Ideal) X ei w H C Wxi bxi Whi bhi Wxf bxf Whf bhf Wxc bxc Whc bhc bi bf bc (ix2 n j)
      = cellR X ei w H C Wxi bxi Whi bhi Wxf bxf Whf bhf Wxc bxc Whc bhc bi bf bc n j := by
  rw [val_main_v364_apply, val_main_v362_apply, val_main_v363_apply, val_main_v361_apply, sig255, sig144, pre360]
  rfl

/-- The stage that is the new hidden state, at (n, j). -/
theorem hidden477 (X : Half) (ei : EdgeList) (w : EdgeF) (H C : Half)
    (Wxi : Wt) (bxi : Bias) (Whi : Wt) (bhi : Bias) (Wxf : Wt) (bxf : Bias) (Whf : Wt) (bhf : Bias)
    (Wxc : Wt) (bxc : Bias) (Whc : Wt) (bhc : Bias) (Wxo : Wt) (bxo : Bias) (Who : Wt) (bho : Bias)
    (bi bf bc bo : GateBias) (n : Fin 50000) (j : Fin 64) :
    val_main_v477 (F := Ideal) X ei w H C Wxi bxi Whi bhi Wxf bxf Whf bhf Wxc bxc Whc bhc Wxo bxo Who bho bi bf bc bo (ix2 n j)
      = hiddenR X ei w H C Wxi bxi Whi bhi Wxf bxf Whf bhf Wxc bxc Whc bhc Wxo bxo Who bho bi bf bc bo n j := by
  rw [val_main_v477_apply, val_main_v476_apply, sig475, cell364]
  rfl

end Cert.GConv

end
-- ==== Proof.RefMain.lean ====
/-
  The reference program is its operations run in order.

  The reference program runs its 569 operations in ten windows, one after the other. Each window is the straight
  line of its own operations, and lines run one after the other are their concatenation run as one; so the program
  is the straight line of all the operations. Every operation touches TensorCore buffers only and allocates
  nothing, segment by segment.
-/
import proofs.«161508_j42691974922289_2_alg».proof.Proof.RefOpsP
import Idealize.ShloMosaic.Lib.StableHlo.Run

set_option maxRecDepth 200000

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

/-! ## The windows -/

set_option maxHeartbeats 40000000 in
theorem part0_eq (c : Dev nD) : main_part0 (F := F) c = seq (List.take 64 (opsS (F := F))) := rfl
set_option maxHeartbeats 40000000 in
theorem part1_eq (c : Dev nD) : main_part1 (F := F) c = seq (List.take 60 (List.drop 64 (opsS (F := F)))) := rfl
set_option maxHeartbeats 40000000 in
theorem part2_eq (c : Dev nD) : main_part2 (F := F) c = seq (List.take 60 (List.drop 60 (List.drop 64 (opsS (F := F))))) := rfl
set_option maxHeartbeats 40000000 in
theorem part3_eq (c : Dev nD) : main_part3 (F := F) c = seq (List.take 60 (List.drop 60 (List.drop 60 (List.drop 64 (opsS (F := F)))))) := rfl
set_option maxHeartbeats 40000000 in
theorem part4_eq (c : Dev nD) : main_part4 (F := F) c = seq (List.take 60 (List.drop 60 (List.drop 60 (List.drop 60 (List.drop 64 (opsS (F := F))))))) := rfl
set_option maxHeartbeats 40000000 in
theorem part5_eq (c : Dev nD) : main_part5 (F := F) c = seq (List.take 60 (List.drop 60 (List.drop 60 (List.drop 60 (List.drop 60 (List.drop 64 (opsS (F := F)))))))) := rfl
set_option maxHeartbeats 40000000 in
theorem part6_eq (c : Dev nD) : main_part6 (F := F) c = seq (List.take 60 (List.drop 60 (List.drop 60 (List.drop 60 (List.drop 60 (List.drop 60 (List.drop 64 (opsS (F := F))))))))) := rfl
set_option maxHeartbeats 40000000 in
theorem part7_eq (c : Dev nD) : main_part7 (F := F) c = seq (List.take 60 (List.drop 60 (List.drop 60 (List.drop 60 (List.drop 60 (List.drop 60 (List.drop 60 (List.drop 64 (opsS (F := F)))))))))) := rfl
set_option maxHeartbeats 40000000 in
theorem part8_eq (c : Dev nD) : main_part8 (F := F) c = seq (List.take 60 (List.drop 60 (List.drop 60 (List.drop 60 (List.drop 60 (List.drop 60 (List.drop 60 (List.drop 60 (List.drop 64 (opsS (F := F))))))))))) := rfl
set_option maxHeartbeats 40000000 in
theorem part9_eq (c : Dev nD) : main_part9 (F := F) c = seq (List.drop 60 (List.drop 60 (List.drop 60 (List.drop 60 (List.drop 60 (List.drop 60 (List.drop 60 (List.drop 60 (List.drop 64 (opsS (F := F))))))))))) := rfl

set_option maxHeartbeats 40000000 in
/-- The program is the straight line of all its operations. -/
theorem main_eq (c : Dev nD) : main (F := F) c = seq (opsS (F := F)) := by
  have h : main (F := F) c = (main_part0 c >>= fun _ => main_part1 c >>= fun _ => main_part2 c >>= fun _ => main_part3 c >>= fun _ =>
      main_part4 c >>= fun _ => main_part5 c >>= fun _ => main_part6 c >>= fun _ => main_part7 c >>= fun _ => main_part8 c >>= fun _ => main_part9 c) := rfl
  rw [h, part0_eq, part1_eq, part2_eq, part3_eq, part4_eq, part5_eq, part6_eq, part7_eq, part8_eq, part9_eq]
  simp only [← seq_append, List.take_append_drop]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only, and allocates nothing -/

theorem sub0 : (seg0 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh0 : (seg0 : List (HloOp τ sig (Elt F))).Forall fun op => op.fresh = ∅ := by
  simp only [List.Forall]; repeat' constructor
theorem sub1 : (seg1 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh1 : (seg1 : List (HloOp τ sig (Elt F))).Forall fun op => op.fresh = ∅ := by
  simp only [List.Forall]; repeat' constructor
theorem sub2 : (seg2 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh2 : (seg2 : List (HloOp τ sig (Elt F))).Forall fun op => op.fresh = ∅ := by
  simp only [List.Forall]; repeat' constructor
theorem sub3 : (seg3 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh3 : (seg3 : List (HloOp τ sig (Elt F))).Forall fun op => op.fresh = ∅ := by
  simp only [List.Forall]; repeat' constructor
theorem sub4 : (seg4 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh4 : (seg4 : List (HloOp τ sig (Elt F))).Forall fun op => op.fresh = ∅ := by
  simp only [List.Forall]; repeat' constructor
theorem sub5 : (seg5 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh5 : (seg5 : List (HloOp τ sig (Elt F))).Forall fun op => op.fresh = ∅ := by
  simp only [List.Forall]; repeat' constructor
theorem sub6 : (seg6 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh6 : (seg6 : List (HloOp τ sig (Elt F))).Forall fun op => op.fresh = ∅ := by
  simp only [List.Forall]; repeat' constructor
theorem sub7 : (seg7 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh7 : (seg7 : List (HloOp τ sig (Elt F))).Forall fun op => op.fresh = ∅ := by
  simp only [List.Forall]; repeat' constructor
theorem sub8 : (seg8 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh8 : (seg8 : List (HloOp τ sig (Elt F))).Forall fun op => op.fresh = ∅ := by
  simp only [List.Forall]; repeat' constructor
theorem sub9 : (seg9 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh9 : (seg9 : List (HloOp τ sig (Elt F))).Forall fun op => op.fresh = ∅ := by
  simp only [List.Forall]; repeat' constructor
theorem sub10 : (seg10 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh10 : (seg10 : List (HloOp τ sig (Elt F))).Forall fun op => op.fresh = ∅ := by
  simp only [List.Forall]; repeat' constructor
theorem sub11 : (seg11 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh11 : (seg11 : List (HloOp τ sig (Elt F))).Forall fun op => op.fresh = ∅ := by
  simp only [List.Forall]; repeat' constructor
theorem sub12 : (seg12 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh12 : (seg12 : List (HloOp τ sig (Elt F))).Forall fun op => op.fresh = ∅ := by
  simp only [List.Forall]; repeat' constructor
theorem sub13 : (seg13 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh13 : (seg13 : List (HloOp τ sig (Elt F))).Forall fun op => op.fresh = ∅ := by
  simp only [List.Forall]; repeat' constructor
theorem sub14 : (seg14 : List (HloOp τ sig (Elt F))).Forall fun op => op.bufs ⊆ tcRefs τ sig := by
  simp only [List.Forall, TRef.nullary, TRef.unary, TRef.binary, TRef.ternary, nullary_bufs_sub, unary_bufs_sub, binary_bufs_sub, ternary_bufs_sub, quaternary_bufs_sub,
    reshape_bufs_sub, binaryIndexed_bufs_sub, nary_bufs_sub, unaryIndexed_bufs_sub, and_self]
theorem fresh14 : (seg14 : List (HloOp τ sig (Elt F))).Forall fun op => op.fresh = ∅ := by
  simp only [List.Forall]; repeat' constructor

theorem opsS_sub : (opsS : List (HloOp τ sig (Elt F))).Forall fun op => op.bufs ⊆ tcRefs τ sig := by
  rw [List.forall_iff_forall_mem]
  intro op hop
  simp only [opsS, List.mem_append] at hop
  rcases hop with h | h | h | h | h | h | h | h | h | h | h | h | h | h | h
  · exact (List.forall_iff_forall_mem.mp sub0) op h
  · exact (List.forall_iff_forall_mem.mp sub1) op h
  · exact (List.forall_iff_forall_mem.mp sub2) op h
  · exact (List.forall_iff_forall_mem.mp sub3) op h
  · exact (List.forall_iff_forall_mem.mp sub4) op h
  · exact (List.forall_iff_forall_mem.mp sub5) op h
  · exact (List.forall_iff_forall_mem.mp sub6) op h
  · exact (List.forall_iff_forall_mem.mp sub7) op h
  · exact (List.forall_iff_forall_mem.mp sub8) op h
  · exact (List.forall_iff_forall_mem.mp sub9) op h
  · exact (List.forall_iff_forall_mem.mp sub10) op h
  · exact (List.forall_iff_forall_mem.mp sub11) op h
  · exact (List.forall_iff_forall_mem.mp sub12) op h
  · exact (List.forall_iff_forall_mem.mp sub13) op h
  · exact (List.forall_iff_forall_mem.mp sub14) op h

theorem opsS_fresh : ∀ op ∈ (opsS : List (HloOp τ sig (Elt F))), op.fresh = ∅ := by
  intro op hop
  simp only [opsS, List.mem_append] at hop
  rcases hop with h | h | h | h | h | h | h | h | h | h | h | h | h | h | h
  · exact (List.forall_iff_forall_mem.mp fresh0) op h
  · exact (List.forall_iff_forall_mem.mp fresh1) op h
  · exact (List.forall_iff_forall_mem.mp fresh2) op h
  · exact (List.forall_iff_forall_mem.mp fresh3) op h
  · exact (List.forall_iff_forall_mem.mp fresh4) op h
  · exact (List.forall_iff_forall_mem.mp fresh5) op h
  · exact (List.forall_iff_forall_mem.mp fresh6) op h
  · exact (List.forall_iff_forall_mem.mp fresh7) op h
  · exact (List.forall_iff_forall_mem.mp fresh8) op h
  · exact (List.forall_iff_forall_mem.mp fresh9) op h
  · exact (List.forall_iff_forall_mem.mp fresh10) op h
  · exact (List.forall_iff_forall_mem.mp fresh11) op h
  · exact (List.forall_iff_forall_mem.mp fresh12) op h
  · exact (List.forall_iff_forall_mem.mp fresh13) op h
  · exact (List.forall_iff_forall_mem.mp fresh14) op h

/-- Every execution terminates with every buffer at the fold of the operations over the launch memory. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsS (launchContents m d) (Proc.devRef .tc b) :=
  run_seq scopedRefs_eq scopedSems_eq defs main (fun _ => opsS) main_eq (fun _ => opsS_sub) m ρ (fun _ => opsS_fresh)

end Cert.ReferenceIdeal.RunH

end
-- ==== Proof.RefSegs.lean ====
/-
  The reference's line of host operations, cut at its stage boundaries.

  The reference is a straight line of 569 operations, each writing a buffer no other operation writes. Its list is
  cut into fifteen consecutive segments: the edge weights; then for each gate the X-convolution, the H-convolution
  and the gate's own tail; the cell update; the last product. A segment reads a handful of buffers written before it
  and hands one (the first: three) on. Two general facts make the cut useful: folding a concatenation is folding its
  parts in turn, and a buffer that no operation of a list writes is the same after the list as before it, which here
  is decided by looking the reference up in the list of references the segment writes.
-/
import proofs.«161508_j42691974922289_2_alg».proof.Proof.RefOpsP
import Mathlib.Data.List.Forall2

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

/-! ## Folding a list of operations -/

/-- Folding a concatenation is folding its parts in turn. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Operation k of the list writes exactly reference k of the other list. -/
abbrev WritesEach (l : List (HloOp τ sig (Elt F))) (ys : List (Ref sig .tc)) : Prop :=
  List.Forall₂ (fun op y => op.writes = {Proc.devRef (τ := τ) .tc y}) l ys

/-- A buffer whose reference is not among those a list of operations writes is unchanged by the list. -/
theorem after_frame {l : List (HloOp τ sig (Elt F))} {ys : List (Ref sig .tc)} (h : WritesEach l ys)
    {r : Ref sig .tc} (hr : r ∉ ys) (V : Valuation τ sig (Elt F)) :
    after l V (Proc.devRef .tc r) = V (Proc.devRef .tc r) := by
  induction h generalizing V with
  | nil => rfl
  | @cons op y l ys hw _ ih =>
    rw [after_cons, ih (fun hmem => hr (List.mem_cons_of_mem _ hmem))]
    refine op.result_of_not_mem V ?_
    rw [hw, Finset.mem_singleton]
    exact fun e => hr (Proc.devRef_injective _ e ▸ List.mem_cons_self)

/-! ## The segments, and the references each writes -/

/-- The references operations 0 to 46 write; handed on: main_v1, main_v3, main_v33. -/
abbrev wr0 : List (Ref sig .tc) := [main_v0, main_v1, main_v2, main_v3, main_v4, main_v5, main_v6, main_v7, main_cst, main_v8, main_v9, main_v10, main_cst_0, main_v11, main_v12, main_cst_1, main_v13, main_v14, main_cst_2, main_call0_v0, main_call0_v1, main_v15, main_v16, main_cst_3, main_call1_v0, main_call1_v1, main_v17, main_c, main_v18, main_v19, main_c_4, main_v20, main_v21, main_v22, main_v23, main_v24, main_v25, main_c_5, main_v26, main_v27, main_c_6, main_v28, main_v29, main_v30, main_v31, main_v32, main_v33]
theorem wseg0 : WritesEach (F := F) seg0 wr0 := by
  repeat (first | exact List.Forall₂.nil | refine List.Forall₂.cons rfl ?_)

/-- The references operations 47 to 106 write; handed on: main_v84. -/
abbrev wr1 : List (Ref sig .tc) := [main_v34, main_v35, main_v36, main_v37, main_c_7, main_v38, main_v39, main_c_8, main_v40, main_v41, main_v42, main_v43, main_v44, main_v45, main_v46, main_cst_9, main_v47, main_v48, main_v49, main_v50, main_cst_10, main_v51, main_v52, main_v53, main_v54, main_v55, main_v56, main_v57, main_v58, main_c_11, main_v59, main_v60, main_c_12, main_v61, main_v62, main_v63, main_v64, main_v65, main_v66, main_v67, main_cst_13, main_v68, main_v69, main_v70, main_v71, main_cst_14, main_v72, main_v73, main_v74, main_cst_15, main_v75, main_v76, main_v77, main_v78, main_v79, main_v80, main_v81, main_v82, main_v83, main_v84]
theorem wseg1 : WritesEach (F := F) seg1 wr1 := by
  repeat (first | exact List.Forall₂.nil | refine List.Forall₂.cons rfl ?_)

/-- The references operations 107 to 166 write; handed on: main_v135. -/
abbrev wr2 : List (Ref sig .tc) := [main_v85, main_v86, main_v87, main_v88, main_c_16, main_v89, main_v90, main_c_17, main_v91, main_v92, main_v93, main_v94, main_v95, main_v96, main_v97, main_cst_18, main_v98, main_v99, main_v100, main_v101, main_cst_19, main_v102, main_v103, main_v104, main_v105, main_v106, main_v107, main_v108, main_v109, main_c_20, main_v110, main_v111, main_c_21, main_v112, main_v113, main_v114, main_v115, main_v116, main_v117, main_v118, main_cst_22, main_v119, main_v120, main_v121, main_v122, main_cst_23, main_v123, main_v124, main_v125, main_cst_24, main_v126, main_v127, main_v128, main_v129, main_v130, main_v131, main_v132, main_v133, main_v134, main_v135]
theorem wseg2 : WritesEach (F := F) seg2 wr2 := by
  repeat (first | exact List.Forall₂.nil | refine List.Forall₂.cons rfl ?_)

/-- The references operations 167 to 177 write; handed on: main_v144. -/
abbrev wr3 : List (Ref sig .tc) := [main_v136, main_v137, main_v138, main_v139, main_v140, main_cst_25, main_v141, main_v142, main_cst_26, main_v143, main_v144]
theorem wseg3 : WritesEach (F := F) seg3 wr3 := by
  repeat (first | exact List.Forall₂.nil | refine List.Forall₂.cons rfl ?_)

/-- The references operations 178 to 237 write; handed on: main_v195. -/
abbrev wr4 : List (Ref sig .tc) := [main_v145, main_v146, main_v147, main_v148, main_c_27, main_v149, main_v150, main_c_28, main_v151, main_v152, main_v153, main_v154, main_v155, main_v156, main_v157, main_cst_29, main_v158, main_v159, main_v160, main_v161, main_cst_30, main_v162, main_v163, main_v164, main_v165, main_v166, main_v167, main_v168, main_v169, main_c_31, main_v170, main_v171, main_c_32, main_v172, main_v173, main_v174, main_v175, main_v176, main_v177, main_v178, main_cst_33, main_v179, main_v180, main_v181, main_v182, main_cst_34, main_v183, main_v184, main_v185, main_cst_35, main_v186, main_v187, main_v188, main_v189, main_v190, main_v191, main_v192, main_v193, main_v194, main_v195]
theorem wseg4 : WritesEach (F := F) seg4 wr4 := by
  repeat (first | exact List.Forall₂.nil | refine List.Forall₂.cons rfl ?_)

/-- The references operations 238 to 297 write; handed on: main_v246. -/
abbrev wr5 : List (Ref sig .tc) := [main_v196, main_v197, main_v198, main_v199, main_c_36, main_v200, main_v201, main_c_37, main_v202, main_v203, main_v204, main_v205, main_v206, main_v207, main_v208, main_cst_38, main_v209, main_v210, main_v211, main_v212, main_cst_39, main_v213, main_v214, main_v215, main_v216, main_v217, main_v218, main_v219, main_v220, main_c_40, main_v221, main_v222, main_c_41, main_v223, main_v224, main_v225, main_v226, main_v227, main_v228, main_v229, main_cst_42, main_v230, main_v231, main_v232, main_v233, main_cst_43, main_v234, main_v235, main_v236, main_cst_44, main_v237, main_v238, main_v239, main_v240, main_v241, main_v242, main_v243, main_v244, main_v245, main_v246]
theorem wseg5 : WritesEach (F := F) seg5 wr5 := by
  repeat (first | exact List.Forall₂.nil | refine List.Forall₂.cons rfl ?_)

/-- The references operations 298 to 308 write; handed on: main_v255. -/
abbrev wr6 : List (Ref sig .tc) := [main_v247, main_v248, main_v249, main_v250, main_v251, main_cst_45, main_v252, main_v253, main_cst_46, main_v254, main_v255]
theorem wseg6 : WritesEach (F := F) seg6 wr6 := by
  repeat (first | exact List.Forall₂.nil | refine List.Forall₂.cons rfl ?_)

/-- The references operations 309 to 368 write; handed on: main_v306. -/
abbrev wr7 : List (Ref sig .tc) := [main_v256, main_v257, main_v258, main_v259, main_c_47, main_v260, main_v261, main_c_48, main_v262, main_v263, main_v264, main_v265, main_v266, main_v267, main_v268, main_cst_49, main_v269, main_v270, main_v271, main_v272, main_cst_50, main_v273, main_v274, main_v275, main_v276, main_v277, main_v278, main_v279, main_v280, main_c_51, main_v281, main_v282, main_c_52, main_v283, main_v284, main_v285, main_v286, main_v287, main_v288, main_v289, main_cst_53, main_v290, main_v291, main_v292, main_v293, main_cst_54, main_v294, main_v295, main_v296, main_cst_55, main_v297, main_v298, main_v299, main_v300, main_v301, main_v302, main_v303, main_v304, main_v305, main_v306]
theorem wseg7 : WritesEach (F := F) seg7 wr7 := by
  repeat (first | exact List.Forall₂.nil | refine List.Forall₂.cons rfl ?_)

/-- The references operations 369 to 428 write; handed on: main_v357. -/
abbrev wr8 : List (Ref sig .tc) := [main_v307, main_v308, main_v309, main_v310, main_c_56, main_v311, main_v312, main_c_57, main_v313, main_v314, main_v315, main_v316, main_v317, main_v318, main_v319, main_cst_58, main_v320, main_v321, main_v322, main_v323, main_cst_59, main_v324, main_v325, main_v326, main_v327, main_v328, main_v329, main_v330, main_v331, main_c_60, main_v332, main_v333, main_c_61, main_v334, main_v335, main_v336, main_v337, main_v338, main_v339, main_v340, main_cst_62, main_v341, main_v342, main_v343, main_v344, main_cst_63, main_v345, main_v346, main_v347, main_cst_64, main_v348, main_v349, main_v350, main_v351, main_v352, main_v353, main_v354, main_v355, main_v356, main_v357]
theorem wseg8 : WritesEach (F := F) seg8 wr8 := by
  repeat (first | exact List.Forall₂.nil | refine List.Forall₂.cons rfl ?_)

/-- The references operations 429 to 432 write; handed on: main_v361. -/
abbrev wr9 : List (Ref sig .tc) := [main_v358, main_v359, main_v360, main_v361]
theorem wseg9 : WritesEach (F := F) seg9 wr9 := by
  repeat (first | exact List.Forall₂.nil | refine List.Forall₂.cons rfl ?_)

/-- The references operations 433 to 435 write; handed on: main_v364. -/
abbrev wr10 : List (Ref sig .tc) := [main_v362, main_v363, main_v364]
theorem wseg10 : WritesEach (F := F) seg10 wr10 := by
  repeat (first | exact List.Forall₂.nil | refine List.Forall₂.cons rfl ?_)

/-- The references operations 436 to 495 write; handed on: main_v415. -/
abbrev wr11 : List (Ref sig .tc) := [main_v365, main_v366, main_v367, main_v368, main_c_65, main_v369, main_v370, main_c_66, main_v371, main_v372, main_v373, main_v374, main_v375, main_v376, main_v377, main_cst_67, main_v378, main_v379, main_v380, main_v381, main_cst_68, main_v382, main_v383, main_v384, main_v385, main_v386, main_v387, main_v388, main_v389, main_c_69, main_v390, main_v391, main_c_70, main_v392, main_v393, main_v394, main_v395, main_v396, main_v397, main_v398, main_cst_71, main_v399, main_v400, main_v401, main_v402, main_cst_72, main_v403, main_v404, main_v405, main_cst_73, main_v406, main_v407, main_v408, main_v409, main_v410, main_v411, main_v412, main_v413, main_v414, main_v415]
theorem wseg11 : WritesEach (F := F) seg11 wr11 := by
  repeat (first | exact List.Forall₂.nil | refine List.Forall₂.cons rfl ?_)

/-- The references operations 496 to 555 write; handed on: main_v466. -/
abbrev wr12 : List (Ref sig .tc) := [main_v416, main_v417, main_v418, main_v419, main_c_74, main_v420, main_v421, main_c_75, main_v422, main_v423, main_v424, main_v425, main_v426, main_v427, main_v428, main_cst_76, main_v429, main_v430, main_v431, main_v432, main_cst_77, main_v433, main_v434, main_v435, main_v436, main_v437, main_v438, main_v439, main_v440, main_c_78, main_v441, main_v442, main_c_79, main_v443, main_v444, main_v445, main_v446, main_v447, main_v448, main_v449, main_cst_80, main_v450, main_v451, main_v452, main_v453, main_cst_81, main_v454, main_v455, main_v456, main_cst_82, main_v457, main_v458, main_v459, main_v460, main_v461, main_v462, main_v463, main_v464, main_v465, main_v466]
theorem wseg12 : WritesEach (F := F) seg12 wr12 := by
  repeat (first | exact List.Forall₂.nil | refine List.Forall₂.cons rfl ?_)

/-- The references operations 556 to 566 write; handed on: main_v475. -/
abbrev wr13 : List (Ref sig .tc) := [main_v467, main_v468, main_v469, main_v470, main_v471, main_cst_83, main_v472, main_v473, main_cst_84, main_v474, main_v475]
theorem wseg13 : WritesEach (F := F) seg13 wr13 := by
  repeat (first | exact List.Forall₂.nil | refine List.Forall₂.cons rfl ?_)

/-- The references operations 567 to 568 write; handed on: main_v477. -/
abbrev wr14 : List (Ref sig .tc) := [main_v476, main_v477]
theorem wseg14 : WritesEach (F := F) seg14 wr14 := by
  repeat (first | exact List.Forall₂.nil | refine List.Forall₂.cons rfl ?_)

/-! ## The line as its segments, and the contents at the cuts -/

/-- Segment k (empty past the last). -/
def segAt : Nat → List (HloOp τ sig (Elt F))
  | 0 => seg0
  | 1 => seg1
  | 2 => seg2
  | 3 => seg3
  | 4 => seg4
  | 5 => seg5
  | 6 => seg6
  | 7 => seg7
  | 8 => seg8
  | 9 => seg9
  | 10 => seg10
  | 11 => seg11
  | 12 => seg12
  | 13 => seg13
  | 14 => seg14
  | _ + 15 => []
/-- The references segment k writes. -/
def wrAt : Nat → List (Ref sig .tc)
  | 0 => wr0
  | 1 => wr1
  | 2 => wr2
  | 3 => wr3
  | 4 => wr4
  | 5 => wr5
  | 6 => wr6
  | 7 => wr7
  | 8 => wr8
  | 9 => wr9
  | 10 => wr10
  | 11 => wr11
  | 12 => wr12
  | 13 => wr13
  | 14 => wr14
  | _ + 15 => []
theorem wsegAt : ∀ k, WritesEach (F := F) (segAt k) (wrAt k)
  | 0 => wseg0
  | 1 => wseg1
  | 2 => wseg2
  | 3 => wseg3
  | 4 => wseg4
  | 5 => wseg5
  | 6 => wseg6
  | 7 => wseg7
  | 8 => wseg8
  | 9 => wseg9
  | 10 => wseg10
  | 11 => wseg11
  | 12 => wseg12
  | 13 => wseg13
  | 14 => wseg14
  | _ + 15 => List.Forall₂.nil

/-- The buffers' contents after the first k segments, from the launch memory. -/
def cut (m : (ℓ : Loc nD τ sig) → Buf (Elt F) ℓ) (c : Dev nD) : Nat → Valuation τ sig (Elt F)
  | 0 => launchContents m c
  | k + 1 => after (segAt k) (cut m c k)

/-- After the whole line the contents are those at the last cut. -/
theorem after_opsS (m : (ℓ : Loc nD τ sig) → Buf (Elt F) ℓ) (c : Dev nD) :
    after opsS (launchContents m c) = cut m c 15 := by
  simp only [opsS, after_append]
  rfl

/-- A buffer none of the segments i, …, i + n − 1 writes is the same at cut i + n as at cut i. -/
theorem keep_cut (m : (ℓ : Loc nD τ sig) → Buf (Elt F) ℓ) (c : Dev nD) {r : Ref sig .tc} (i : Nat) :
    ∀ n : Nat, (∀ k ∈ List.range' i n, r ∉ wrAt k) → cut m c (i + n) (Proc.devRef .tc r) = cut m c i (Proc.devRef .tc r)
  | 0, _ => rfl
  | n + 1, h => by
    have hk : r ∉ wrAt (i + n) := h (i + n) (List.mem_range'_1.mpr ⟨Nat.le_add_right i n, by omega⟩)
    have hn : ∀ k ∈ List.range' i n, r ∉ wrAt k := fun k hk' =>
      h k (List.mem_range'_1.mpr ⟨(List.mem_range'_1.mp hk').1, by have := (List.mem_range'_1.mp hk').2; omega⟩)
    show after (segAt (i + n)) (cut m c (i + n)) (Proc.devRef .tc r) = _
    rw [after_frame (wsegAt (i + n)) hk]
    exact keep_cut m c i n hn

/-- An argument buffer, written by no operation, holds the launch memory's array at every cut. -/
theorem arg_cut (m : (ℓ : Loc nD τ sig) → Buf (Elt F) ℓ) (c : Dev nD) {r : Ref sig .tc} (n : Nat)
    (h : ∀ k ∈ List.range' 0 n, r ∉ wrAt k) :
    cut m c n (Proc.devRef .tc r) = m ((c.tc : Thread nD τ).loc r) := by
  have e := keep_cut m c 0 n h
  rw [Nat.zero_add] at e
  exact e

end Cert.ReferenceIdeal.RunH

end
-- ==== Proof.RefSegG0.lean ====
/-
  The edge weights and the input gate, segment by segment.

  Each segment is folded over an arbitrary valuation W of the buffers: the operations' results are read off one by
  one, the buffers the segment only reads are replaced by what the hypotheses say they hold, and what is left is the
  stage's own definition unfolded (the same operations in the same order).
-/
import proofs.«161508_j42691974922289_2_alg».proof.Proof.RefSegs
import proofs.«161508_j42691974922289_2_alg».proof.Proof.RefReadQ

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

variable (X : (⟨S50000x64, .f32⟩ : BufTy).Contents (Elt F))
  (ei : (⟨S2x800000, .i32⟩ : BufTy).Contents (Elt F))
  (w : (⟨S800000, .f32⟩ : BufTy).Contents (Elt F))
  (H : (⟨S50000x64, .f32⟩ : BufTy).Contents (Elt F))
  (C : (⟨S50000x64, .f32⟩ : BufTy).Contents (Elt F))
  (Wxi : (⟨S3x64x64, .f32⟩ : BufTy).Contents (Elt F))
  (bxi : (⟨S64, .f32⟩ : BufTy).Contents (Elt F))
  (Whi : (⟨S3x64x64, .f32⟩ : BufTy).Contents (Elt F))
  (bhi : (⟨S64, .f32⟩ : BufTy).Contents (Elt F))
  (Wxf : (⟨S3x64x64, .f32⟩ : BufTy).Contents (Elt F))
  (bxf : (⟨S64, .f32⟩ : BufTy).Contents (Elt F))
  (Whf : (⟨S3x64x64, .f32⟩ : BufTy).Contents (Elt F))
  (bhf : (⟨S64, .f32⟩ : BufTy).Contents (Elt F))
  (Wxc : (⟨S3x64x64, .f32⟩ : BufTy).Contents (Elt F))
  (bxc : (⟨S64, .f32⟩ : BufTy).Contents (Elt F))
  (Whc : (⟨S3x64x64, .f32⟩ : BufTy).Contents (Elt F))
  (bhc : (⟨S64, .f32⟩ : BufTy).Contents (Elt F))
  (Wxo : (⟨S3x64x64, .f32⟩ : BufTy).Contents (Elt F))
  (bxo : (⟨S64, .f32⟩ : BufTy).Contents (Elt F))
  (Who : (⟨S3x64x64, .f32⟩ : BufTy).Contents (Elt F))
  (bho : (⟨S64, .f32⟩ : BufTy).Contents (Elt F))
  (bi : (⟨S1x64, .f32⟩ : BufTy).Contents (Elt F))
  (bf : (⟨S1x64, .f32⟩ : BufTy).Contents (Elt F))
  (bc : (⟨S1x64, .f32⟩ : BufTy).Contents (Elt F))
  (bo : (⟨S1x64, .f32⟩ : BufTy).Contents (Elt F))
set_option maxHeartbeats 4000000 in
/-- Segment 0 leaves main_v1 at its stage, given the stages (or arrays) of the buffers it reads. -/
theorem seg0_main_v1 (W : Valuation τ sig (Elt F))
    (h_main_arg1 : W (Proc.devRef .tc main_arg1) = ei)
    (h_main_arg2 : W (Proc.devRef .tc main_arg2) = w) :
    after seg0 W (Proc.devRef .tc main_v1) = ReadQ.val_main_v1 (F := F) ei := by
  simp only [seg0]
  after_results_simp
  simp only [h_main_arg1, h_main_arg2]
  rfl
set_option maxHeartbeats 4000000 in
/-- Segment 0 leaves main_v3 at its stage, given the stages (or arrays) of the buffers it reads. -/
theorem seg0_main_v3 (W : Valuation τ sig (Elt F))
    (h_main_arg1 : W (Proc.devRef .tc main_arg1) = ei)
    (h_main_arg2 : W (Proc.devRef .tc main_arg2) = w) :
    after seg0 W (Proc.devRef .tc main_v3) = ReadQ.val_main_v3 (F := F) ei := by
  simp only [seg0]
  after_results_simp
  simp only [h_main_arg1, h_main_arg2]
  rfl
set_option maxHeartbeats 4000000 in
/-- Segment 0 leaves main_v33 at its stage, given the stages (or arrays) of the buffers it reads. -/
theorem seg0_main_v33 (W : Valuation τ sig (Elt F))
    (h_main_arg1 : W (Proc.devRef .tc main_arg1) = ei)
    (h_main_arg2 : W (Proc.devRef .tc main_arg2) = w) :
    after seg0 W (Proc.devRef .tc main_v33) = ReadQ.val_main_v33 (F := F) ei w := by
  simp only [seg0]
  after_results_simp
  simp only [h_main_arg1, h_main_arg2]
  rfl
set_option maxHeartbeats 4000000 in
/-- Segment 1 leaves main_v84 at its stage, given the stages (or arrays) of the buffers it reads. -/
theorem seg1_main_v84 (W : Valuation τ sig (Elt F))
    (h_main_arg5 : W (Proc.devRef .tc main_arg5) = Wxi)
    (h_main_arg0 : W (Proc.devRef .tc main_arg0) = X)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg6 : W (Proc.devRef .tc main_arg6) = bxi) :
    after seg1 W (Proc.devRef .tc main_v84) = ReadQ.val_main_v84 (F := F) X ei w Wxi bxi := by
  simp only [seg1]
  after_results_simp
  simp only [h_main_arg5, h_main_arg0, h_main_v33, h_main_v3, h_main_v1, h_main_arg6]
  rfl
set_option maxHeartbeats 4000000 in
/-- Segment 2 leaves main_v135 at its stage, given the stages (or arrays) of the buffers it reads. -/
theorem seg2_main_v135 (W : Valuation τ sig (Elt F))
    (h_main_arg7 : W (Proc.devRef .tc main_arg7) = Whi)
    (h_main_arg3 : W (Proc.devRef .tc main_arg3) = H)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg8 : W (Proc.devRef .tc main_arg8) = bhi) :
    after seg2 W (Proc.devRef .tc main_v135) = ReadQ.val_main_v135 (F := F) ei w H Whi bhi := by
  simp only [seg2]
  after_results_simp
  simp only [h_main_arg7, h_main_arg3, h_main_v33, h_main_v3, h_main_v1, h_main_arg8]
  rfl
set_option maxHeartbeats 4000000 in
/-- Segment 3 leaves main_v144 at its stage, given the stages (or arrays) of the buffers it reads. -/
theorem seg3_main_v144 (W : Valuation τ sig (Elt F))
    (h_main_v84 : W (Proc.devRef .tc main_v84) = (ReadQ.val_main_v84 (F := F) X ei w Wxi bxi))
    (h_main_v135 : W (Proc.devRef .tc main_v135) = (ReadQ.val_main_v135 (F := F) ei w H Whi bhi))
    (h_main_arg21 : W (Proc.devRef .tc main_arg21) = bi) :
    after seg3 W (Proc.devRef .tc main_v144) = ReadQ.val_main_v144 (F := F) X ei w H Wxi bxi Whi bhi bi := by
  simp only [seg3]
  after_results_simp
  simp only [h_main_v84, h_main_v135, h_main_arg21]
  rfl

end Cert.ReferenceIdeal.RunH

end
-- ==== Proof.RefSegG1.lean ====
/-
  The forget gate, segment by segment.

  Each segment is folded over an arbitrary valuation W of the buffers: the operations' results are read off one by
  one, the buffers the segment only reads are replaced by what the hypotheses say they hold, and what is left is the
  stage's own definition unfolded (the same operations in the same order).
-/
import proofs.«161508_j42691974922289_2_alg».proof.Proof.RefSegs
import proofs.«161508_j42691974922289_2_alg».proof.Proof.RefReadQ

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

variable (X : (⟨S50000x64, .f32⟩ : BufTy).Contents (Elt F))
  (ei : (⟨S2x800000, .i32⟩ : BufTy).Contents (Elt F))
  (w : (⟨S800000, .f32⟩ : BufTy).Contents (Elt F))
  (H : (⟨S50000x64, .f32⟩ : BufTy).Contents (Elt F))
  (C : (⟨S50000x64, .f32⟩ : BufTy).Contents (Elt F))
  (Wxi : (⟨S3x64x64, .f32⟩ : BufTy).Contents (Elt F))
  (bxi : (⟨S64, .f32⟩ : BufTy).Contents (Elt F))
  (Whi : (⟨S3x64x64, .f32⟩ : BufTy).Contents (Elt F))
  (bhi : (⟨S64, .f32⟩ : BufTy).Contents (Elt F))
  (Wxf : (⟨S3x64x64, .f32⟩ : BufTy).Contents (Elt F))
  (bxf : (⟨S64, .f32⟩ : BufTy).Contents (Elt F))
  (Whf : (⟨S3x64x64, .f32⟩ : BufTy).Contents (Elt F))
  (bhf : (⟨S64, .f32⟩ : BufTy).Contents (Elt F))
  (Wxc : (⟨S3x64x64, .f32⟩ : BufTy).Contents (Elt F))
  (bxc : (⟨S64, .f32⟩ : BufTy).Contents (Elt F))
  (Whc : (⟨S3x64x64, .f32⟩ : BufTy).Contents (Elt F))
  (bhc : (⟨S64, .f32⟩ : BufTy).Contents (Elt F))
  (Wxo : (⟨S3x64x64, .f32⟩ : BufTy).Contents (Elt F))
  (bxo : (⟨S64, .f32⟩ : BufTy).Contents (Elt F))
  (Who : (⟨S3x64x64, .f32⟩ : BufTy).Contents (Elt F))
  (bho : (⟨S64, .f32⟩ : BufTy).Contents (Elt F))
  (bi : (⟨S1x64, .f32⟩ : BufTy).Contents (Elt F))
  (bf : (⟨S1x64, .f32⟩ : BufTy).Contents (Elt F))
  (bc : (⟨S1x64, .f32⟩ : BufTy).Contents (Elt F))
  (bo : (⟨S1x64, .f32⟩ : BufTy).Contents (Elt F))
set_option maxHeartbeats 4000000 in
/-- Segment 4 leaves main_v195 at its stage, given the stages (or arrays) of the buffers it reads. -/
theorem seg4_main_v195 (W : Valuation τ sig (Elt F))
    (h_main_arg9 : W (Proc.devRef .tc main_arg9) = Wxf)
    (h_main_arg0 : W (Proc.devRef .tc main_arg0) = X)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg10 : W (Proc.devRef .tc main_arg10) = bxf) :
    after seg4 W (Proc.devRef .tc main_v195) = ReadQ.val_main_v195 (F := F) X ei w Wxf bxf := by
  simp only [seg4]
  after_results_simp
  simp only [h_main_arg9, h_main_arg0, h_main_v33, h_main_v3, h_main_v1, h_main_arg10]
  rfl
set_option maxHeartbeats 4000000 in
/-- Segment 5 leaves main_v246 at its stage, given the stages (or arrays) of the buffers it reads. -/
theorem seg5_main_v246 (W : Valuation τ sig (Elt F))
    (h_main_arg11 : W (Proc.devRef .tc main_arg11) = Whf)
    (h_main_arg3 : W (Proc.devRef .tc main_arg3) = H)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg12 : W (Proc.devRef .tc main_arg12) = bhf) :
    after seg5 W (Proc.devRef .tc main_v246) = ReadQ.val_main_v246 (F := F) ei w H Whf bhf := by
  simp only [seg5]
  after_results_simp
  simp only [h_main_arg11, h_main_arg3, h_main_v33, h_main_v3, h_main_v1, h_main_arg12]
  rfl
set_option maxHeartbeats 4000000 in
/-- Segment 6 leaves main_v255 at its stage, given the stages (or arrays) of the buffers it reads. -/
theorem seg6_main_v255 (W : Valuation τ sig (Elt F))
    (h_main_v195 : W (Proc.devRef .tc main_v195) = (ReadQ.val_main_v195 (F := F) X ei w Wxf bxf))
    (h_main_v246 : W (Proc.devRef .tc main_v246) = (ReadQ.val_main_v246 (F := F) ei w H Whf bhf))
    (h_main_arg22 : W (Proc.devRef .tc main_arg22) = bf) :
    after seg6 W (Proc.devRef .tc main_v255) = ReadQ.val_main_v255 (F := F) X ei w H Wxf bxf Whf bhf bf := by
  simp only [seg6]
  after_results_simp
  simp only [h_main_v195, h_main_v246, h_main_arg22]
  rfl

end Cert.ReferenceIdeal.RunH

end
-- ==== Proof.RefSegG2.lean ====
/-
  The candidate and the cell update, segment by segment.

  Each segment is folded over an arbitrary valuation W of the buffers: the operations' results are read off one by
  one, the buffers the segment only reads are replaced by what the hypotheses say they hold, and what is left is the
  stage's own definition unfolded (the same operations in the same order).
-/
import proofs.«161508_j42691974922289_2_alg».proof.Proof.RefSegs
import proofs.«161508_j42691974922289_2_alg».proof.Proof.RefReadQ

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

variable (X : (⟨S50000x64, .f32⟩ : BufTy).Contents (Elt F))
  (ei : (⟨S2x800000, .i32⟩ : BufTy).Contents (Elt F))
  (w : (⟨S800000, .f32⟩ : BufTy).Contents (Elt F))
  (H : (⟨S50000x64, .f32⟩ : BufTy).Contents (Elt F))
  (C : (⟨S50000x64, .f32⟩ : BufTy).Contents (Elt F))
  (Wxi : (⟨S3x64x64, .f32⟩ : BufTy).Contents (Elt F))
  (bxi : (⟨S64, .f32⟩ : BufTy).Contents (Elt F))
  (Whi : (⟨S3x64x64, .f32⟩ : BufTy).Contents (Elt F))
  (bhi : (⟨S64, .f32⟩ : BufTy).Contents (Elt F))
  (Wxf : (⟨S3x64x64, .f32⟩ : BufTy).Contents (Elt F))
  (bxf : (⟨S64, .f32⟩ : BufTy).Contents (Elt F))
  (Whf : (⟨S3x64x64, .f32⟩ : BufTy).Contents (Elt F))
  (bhf : (⟨S64, .f32⟩ : BufTy).Contents (Elt F))
  (Wxc : (⟨S3x64x64, .f32⟩ : BufTy).Contents (Elt F))
  (bxc : (⟨S64, .f32⟩ : BufTy).Contents (Elt F))
  (Whc : (⟨S3x64x64, .f32⟩ : BufTy).Contents (Elt F))
  (bhc : (⟨S64, .f32⟩ : BufTy).Contents (Elt F))
  (Wxo : (⟨S3x64x64, .f32⟩ : BufTy).Contents (Elt F))
  (bxo : (⟨S64, .f32⟩ : BufTy).Contents (Elt F))
  (Who : (⟨S3x64x64, .f32⟩ : BufTy).Contents (Elt F))
  (bho : (⟨S64, .f32⟩ : BufTy).Contents (Elt F))
  (bi : (⟨S1x64, .f32⟩ : BufTy).Contents (Elt F))
  (bf : (⟨S1x64, .f32⟩ : BufTy).Contents (Elt F))
  (bc : (⟨S1x64, .f32⟩ : BufTy).Contents (Elt F))
  (bo : (⟨S1x64, .f32⟩ : BufTy).Contents (Elt F))
set_option maxHeartbeats 4000000 in
/-- Segment 7 leaves main_v306 at its stage, given the stages (or arrays) of the buffers it reads. -/
theorem seg7_main_v306 (W : Valuation τ sig (Elt F))
    (h_main_arg13 : W (Proc.devRef .tc main_arg13) = Wxc)
    (h_main_arg0 : W (Proc.devRef .tc main_arg0) = X)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg14 : W (Proc.devRef .tc main_arg14) = bxc) :
    after seg7 W (Proc.devRef .tc main_v306) = ReadQ.val_main_v306 (F := F) X ei w Wxc bxc := by
  simp only [seg7]
  after_results_simp
  simp only [h_main_arg13, h_main_arg0, h_main_v33, h_main_v3, h_main_v1, h_main_arg14]
  rfl
set_option maxHeartbeats 4000000 in
/-- Segment 8 leaves main_v357 at its stage, given the stages (or arrays) of the buffers it reads. -/
theorem seg8_main_v357 (W : Valuation τ sig (Elt F))
    (h_main_arg15 : W (Proc.devRef .tc main_arg15) = Whc)
    (h_main_arg3 : W (Proc.devRef .tc main_arg3) = H)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg16 : W (Proc.devRef .tc main_arg16) = bhc) :
    after seg8 W (Proc.devRef .tc main_v357) = ReadQ.val_main_v357 (F := F) ei w H Whc bhc := by
  simp only [seg8]
  after_results_simp
  simp only [h_main_arg15, h_main_arg3, h_main_v33, h_main_v3, h_main_v1, h_main_arg16]
  rfl
set_option maxHeartbeats 4000000 in
/-- Segment 9 leaves main_v361 at its stage, given the stages (or arrays) of the buffers it reads. -/
theorem seg9_main_v361 (W : Valuation τ sig (Elt F))
    (h_main_v306 : W (Proc.devRef .tc main_v306) = (ReadQ.val_main_v306 (F := F) X ei w Wxc bxc))
    (h_main_v357 : W (Proc.devRef .tc main_v357) = (ReadQ.val_main_v357 (F := F) ei w H Whc bhc))
    (h_main_arg23 : W (Proc.devRef .tc main_arg23) = bc) :
    after seg9 W (Proc.devRef .tc main_v361) = ReadQ.val_main_v361 (F := F) X ei w H Wxc bxc Whc bhc bc := by
  simp only [seg9]
  after_results_simp
  simp only [h_main_v306, h_main_v357, h_main_arg23]
  rfl
set_option maxHeartbeats 4000000 in
/-- Segment 10 leaves main_v364 at its stage, given the stages (or arrays) of the buffers it reads. -/
theorem seg10_main_v364 (W : Valuation τ sig (Elt F))
    (h_main_v255 : W (Proc.devRef .tc main_v255) = (ReadQ.val_main_v255 (F := F) X ei w H Wxf bxf Whf bhf bf))
    (h_main_arg4 : W (Proc.devRef .tc main_arg4) = C)
    (h_main_v144 : W (Proc.devRef .tc main_v144) = (ReadQ.val_main_v144 (F := F) X ei w H Wxi bxi Whi bhi bi))
    (h_main_v361 : W (Proc.devRef .tc main_v361) = (ReadQ.val_main_v361 (F := F) X ei w H Wxc bxc Whc bhc bc)) :
    after seg10 W (Proc.devRef .tc main_v364) = ReadQ.val_main_v364 (F := F) X ei w H C Wxi bxi Whi bhi Wxf bxf Whf bhf Wxc bxc Whc bhc bi bf bc := by
  simp only [seg10]
  after_results_simp
  simp only [h_main_v255, h_main_arg4, h_main_v144, h_main_v361]
  rfl

end Cert.ReferenceIdeal.RunH

end
-- ==== Proof.RefSegG3.lean ====
/-
  The output gate and the last product, segment by segment.

  Each segment is folded over an arbitrary valuation W of the buffers: the operations' results are read off one by
  one, the buffers the segment only reads are replaced by what the hypotheses say they hold, and what is left is the
  stage's own definition unfolded (the same operations in the same order).
-/
import proofs.«161508_j42691974922289_2_alg».proof.Proof.RefSegs
import proofs.«161508_j42691974922289_2_alg».proof.Proof.RefReadQ

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

variable (X : (⟨S50000x64, .f32⟩ : BufTy).Contents (Elt F))
  (ei : (⟨S2x800000, .i32⟩ : BufTy).Contents (Elt F))
  (w : (⟨S800000, .f32⟩ : BufTy).Contents (Elt F))
  (H : (⟨S50000x64, .f32⟩ : BufTy).Contents (Elt F))
  (C : (⟨S50000x64, .f32⟩ : BufTy).Contents (Elt F))
  (Wxi : (⟨S3x64x64, .f32⟩ : BufTy).Contents (Elt F))
  (bxi : (⟨S64, .f32⟩ : BufTy).Contents (Elt F))
  (Whi : (⟨S3x64x64, .f32⟩ : BufTy).Contents (Elt F))
  (bhi : (⟨S64, .f32⟩ : BufTy).Contents (Elt F))
  (Wxf : (⟨S3x64x64, .f32⟩ : BufTy).Contents (Elt F))
  (bxf : (⟨S64, .f32⟩ : BufTy).Contents (Elt F))
  (Whf : (⟨S3x64x64, .f32⟩ : BufTy).Contents (Elt F))
  (bhf : (⟨S64, .f32⟩ : BufTy).Contents (Elt F))
  (Wxc : (⟨S3x64x64, .f32⟩ : BufTy).Contents (Elt F))
  (bxc : (⟨S64, .f32⟩ : BufTy).Contents (Elt F))
  (Whc : (⟨S3x64x64, .f32⟩ : BufTy).Contents (Elt F))
  (bhc : (⟨S64, .f32⟩ : BufTy).Contents (Elt F))
  (Wxo : (⟨S3x64x64, .f32⟩ : BufTy).Contents (Elt F))
  (bxo : (⟨S64, .f32⟩ : BufTy).Contents (Elt F))
  (Who : (⟨S3x64x64, .f32⟩ : BufTy).Contents (Elt F))
  (bho : (⟨S64, .f32⟩ : BufTy).Contents (Elt F))
  (bi : (⟨S1x64, .f32⟩ : BufTy).Contents (Elt F))
  (bf : (⟨S1x64, .f32⟩ : BufTy).Contents (Elt F))
  (bc : (⟨S1x64, .f32⟩ : BufTy).Contents (Elt F))
  (bo : (⟨S1x64, .f32⟩ : BufTy).Contents (Elt F))
set_option maxHeartbeats 4000000 in
/-- Segment 11 leaves main_v415 at its stage, given the stages (or arrays) of the buffers it reads. -/
theorem seg11_main_v415 (W : Valuation τ sig (Elt F))
    (h_main_arg17 : W (Proc.devRef .tc main_arg17) = Wxo)
    (h_main_arg0 : W (Proc.devRef .tc main_arg0) = X)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg18 : W (Proc.devRef .tc main_arg18) = bxo) :
    after seg11 W (Proc.devRef .tc main_v415) = ReadQ.val_main_v415 (F := F) X ei w Wxo bxo := by
  simp only [seg11]
  after_results_simp
  simp only [h_main_arg17, h_main_arg0, h_main_v33, h_main_v3, h_main_v1, h_main_arg18]
  rfl
set_option maxHeartbeats 4000000 in
/-- Segment 12 leaves main_v466 at its stage, given the stages (or arrays) of the buffers it reads. -/
theorem seg12_main_v466 (W : Valuation τ sig (Elt F))
    (h_main_arg19 : W (Proc.devRef .tc main_arg19) = Who)
    (h_main_arg3 : W (Proc.devRef .tc main_arg3) = H)
    (h_main_v33 : W (Proc.devRef .tc main_v33) = (ReadQ.val_main_v33 (F := F) ei w))
    (h_main_v3 : W (Proc.devRef .tc main_v3) = (ReadQ.val_main_v3 (F := F) ei))
    (h_main_v1 : W (Proc.devRef .tc main_v1) = (ReadQ.val_main_v1 (F := F) ei))
    (h_main_arg20 : W (Proc.devRef .tc main_arg20) = bho) :
    after seg12 W (Proc.devRef .tc main_v466) = ReadQ.val_main_v466 (F := F) ei w H Who bho := by
  simp only [seg12]
  after_results_simp
  simp only [h_main_arg19, h_main_arg3, h_main_v33, h_main_v3, h_main_v1, h_main_arg20]
  rfl
set_option maxHeartbeats 4000000 in
/-- Segment 13 leaves main_v475 at its stage, given the stages (or arrays) of the buffers it reads. -/
theorem seg13_main_v475 (W : Valuation τ sig (Elt F))
    (h_main_v415 : W (Proc.devRef .tc main_v415) = (ReadQ.val_main_v415 (F := F) X ei w Wxo bxo))
    (h_main_v466 : W (Proc.devRef .tc main_v466) = (ReadQ.val_main_v466 (F := F) ei w H Who bho))
    (h_main_arg24 : W (Proc.devRef .tc main_arg24) = bo) :
    after seg13 W (Proc.devRef .tc main_v475) = ReadQ.val_main_v475 (F := F) X ei w H Wxo bxo Who bho bo := by
  simp only [seg13]
  after_results_simp
  simp only [h_main_v415, h_main_v466, h_main_arg24]
  rfl
set_option maxHeartbeats 4000000 in
/-- Segment 14 leaves main_v477 at its stage, given the stages (or arrays) of the buffers it reads. -/
theorem seg14_main_v477 (W : Valuation τ sig (Elt F))
    (h_main_v364 : W (Proc.devRef .tc main_v364) = (ReadQ.val_main_v364 (F := F) X ei w H C Wxi bxi Whi bhi Wxf bxf Whf bhf Wxc bxc Whc bhc bi bf bc))
    (h_main_v475 : W (Proc.devRef .tc main_v475) = (ReadQ.val_main_v475 (F := F) X ei w H Wxo bxo Who bho bo)) :
    after seg14 W (Proc.devRef .tc main_v477) = ReadQ.val_main_v477 (F := F) X ei w H C Wxi bxi Whi bhi Wxf bxf Whf bhf Wxc bxc Whc bhc Wxo bxo Who bho bi bf bc bo := by
  simp only [seg14]
  after_results_simp
  simp only [h_main_v364, h_main_v475]
  rfl

end Cert.ReferenceIdeal.RunH

end
-- ==== Proof.RefAfter.lean ====
/-
  The reference's line, folded: what its two result buffers and its argument buffers hold at the end.

  The contents at each cut follow from the contents at the cut before: the segment's own lemma gives the buffer it
  hands on, from the stages of the buffers it reads; those are unchanged since the cut where they were written,
  because no later segment writes them (each reference is written once), and the argument buffers are written by
  nobody. At the last cut the two results stand at their last stages and the arguments at the launch memory's arrays.
-/
import proofs.«161508_j42691974922289_2_alg».proof.Proof.RefSegG0
import proofs.«161508_j42691974922289_2_alg».proof.Proof.RefSegG1
import proofs.«161508_j42691974922289_2_alg».proof.Proof.RefSegG2
import proofs.«161508_j42691974922289_2_alg».proof.Proof.RefSegG3

set_option maxRecDepth 16384

noncomputable section

namespace Cert.ReferenceIdeal.RunH

open Cert.ReferenceIdeal Cert.ReferenceIdeal.Gen
open Idealize.ShloMosaic Idealize.ShloMosaic.TcCoe Idealize.SL.Sem Idealize.ShloMosaic.StableHlo

variable {F : FTy → Type} [FloatOps F]

section
variable (m : (ℓ : Loc nD τ sig) → Buf (Elt F) ℓ) (c : Dev nD)

/-! ## Each handed-on buffer at the cut after its segment -/

theorem at_main_v1 : cut m c 1 (Proc.devRef .tc main_v1) = ReadQ.val_main_v1 (F := F) (m ((c.tc : Thread nD τ).loc main_arg1)) :=
  seg0_main_v1 (m ((c.tc : Thread nD τ).loc main_arg1)) (m ((c.tc : Thread nD τ).loc main_arg2)) (cut m c 0)
    (arg_cut m c 0 (by decide))
    (arg_cut m c 0 (by decide))

theorem at_main_v3 : cut m c 1 (Proc.devRef .tc main_v3) = ReadQ.val_main_v3 (F := F) (m ((c.tc : Thread nD τ).loc main_arg1)) :=
  seg0_main_v3 (m ((c.tc : Thread nD τ).loc main_arg1)) (m ((c.tc : Thread nD τ).loc main_arg2)) (cut m c 0)
    (arg_cut m c 0 (by decide))
    (arg_cut m c 0 (by decide))

theorem at_main_v33 : cut m c 1 (Proc.devRef .tc main_v33) = ReadQ.val_main_v33 (F := F) (m ((c.tc : Thread nD τ).loc main_arg1)) (m ((c.tc : Thread nD τ).loc main_arg2)) :=
  seg0_main_v33 (m ((c.tc : Thread nD τ).loc main_arg1)) (m ((c.tc : Thread nD τ).loc main_arg2)) (cut m c 0)
    (arg_cut m c 0 (by decide))
    (arg_cut m c 0 (by decide))

theorem at_main_v84 : cut m c 2 (Proc.devRef .tc main_v84) = ReadQ.val_main_v84 (F := F) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) :=
  seg1_main_v84 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (cut m c 1)
    (arg_cut m c 1 (by decide))
    (arg_cut m c 1 (by decide))
    (at_main_v33 m c)
    (at_main_v3 m c)
    (at_main_v1 m c)
    (arg_cut m c 1 (by decide))

theorem at_main_v135 : cut m c 3 (Proc.devRef .tc main_v135) = ReadQ.val_main_v135 (F := F) (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) :=
  seg2_main_v135 (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (cut m c 2)
    (arg_cut m c 2 (by decide))
    (arg_cut m c 2 (by decide))
    ((keep_cut m c 1 1 (by decide)).trans (at_main_v33 m c))
    ((keep_cut m c 1 1 (by decide)).trans (at_main_v3 m c))
    ((keep_cut m c 1 1 (by decide)).trans (at_main_v1 m c))
    (arg_cut m c 2 (by decide))

theorem at_main_v144 : cut m c 4 (Proc.devRef .tc main_v144) = ReadQ.val_main_v144 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) :=
  seg3_main_v144 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg21)) (cut m c 3)
    ((keep_cut m c 2 1 (by decide)).trans (at_main_v84 m c))
    (at_main_v135 m c)
    (arg_cut m c 3 (by decide))

theorem at_main_v195 : cut m c 5 (Proc.devRef .tc main_v195) = ReadQ.val_main_v195 (F := F) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) :=
  seg4_main_v195 (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (cut m c 4)
    (arg_cut m c 4 (by decide))
    (arg_cut m c 4 (by decide))
    ((keep_cut m c 1 3 (by decide)).trans (at_main_v33 m c))
    ((keep_cut m c 1 3 (by decide)).trans (at_main_v3 m c))
    ((keep_cut m c 1 3 (by decide)).trans (at_main_v1 m c))
    (arg_cut m c 4 (by decide))

theorem at_main_v246 : cut m c 6 (Proc.devRef .tc main_v246) = ReadQ.val_main_v246 (F := F) (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12)) :=
  seg5_main_v246 (m ((c.tc : Thread nD τ).loc main_arg1)) (m ((c.tc : Thread nD τ).loc main_arg2)) (m ((c.tc : Thread nD τ).loc main_arg3)) (m ((c.tc : Thread nD τ).loc main_arg11)) (m ((c.tc : Thread nD τ).loc main_arg12)) (cut m c 5)
    (arg_cut m c 5 (by decide))
    (arg_cut m c 5 (by decide))
    ((keep_cut m c 1 4 (by decide)).trans (at_main_v33 m c))
    ((keep_cut m c 1 4 (by decide)).trans (at_main_v3 m c))
    ((keep_cut m c 1 4 (by decide)).trans (at_main_v1 m c))
    (arg_cut m c 5 (by decide))

theorem at_main_v255 : cut m c 7 (Proc.devRef .tc main_v255) = ReadQ.val_main_v255 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg22)) :=
  seg6_main_v255 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg22)) (cut m c 6)
    ((keep_cut m c 5 1 (by decide)).trans (at_main_v195 m c))
    (at_main_v246 m c)
    (arg_cut m c 6 (by decide))

theorem at_main_v306 : cut m c 8 (Proc.devRef .tc main_v306) = ReadQ.val_main_v306 (F := F) (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) :=
  seg7_main_v306 (m ((c.tc : Thread nD τ).loc main_arg0)) (m ((c.tc : Thread nD τ).loc main_arg1)) (m ((c.tc : Thread nD τ).loc main_arg2)) (m ((c.tc : Thread nD τ).loc main_arg13)) (m ((c.tc : Thread nD τ).loc main_arg14)) (cut m c 7)
    (arg_cut m c 7 (by decide))
    (arg_cut m c 7 (by decide))
    ((keep_cut m c 1 6 (by decide)).trans (at_main_v33 m c))
    ((keep_cut m c 1 6 (by decide)).trans (at_main_v3 m c))
    ((keep_cut m c 1 6 (by decide)).trans (at_main_v1 m c))
    (arg_cut m c 7 (by decide))

theorem at_main_v357 : cut m c 9 (Proc.devRef .tc main_v357) = ReadQ.val_main_v357 (F := F) (m ((c.tc : Thread nD τ).loc main_arg1)) (m ((c.tc : Thread nD τ).loc main_arg2)) (m ((c.tc : Thread nD τ).loc main_arg3)) (m ((c.tc : Thread nD τ).loc main_arg15)) (m ((c.tc : Thread nD τ).loc main_arg16)) :=
  seg8_main_v357 (m ((c.tc : Thread nD τ).loc main_arg1)) (m ((c.tc : Thread nD τ).loc main_arg2)) (m ((c.tc : Thread nD τ).loc main_arg3)) (m ((c.tc : Thread nD τ).loc main_arg15)) (m ((c.tc : Thread nD τ).loc main_arg16)) (cut m c 8)
    (arg_cut m c 8 (by decide))
    (arg_cut m c 8 (by decide))
    ((keep_cut m c 1 7 (by decide)).trans (at_main_v33 m c))
    ((keep_cut m c 1 7 (by decide)).trans (at_main_v3 m c))
    ((keep_cut m c 1 7 (by decide)).trans (at_main_v1 m c))
    (arg_cut m c 8 (by decide))

theorem at_main_v361 : cut m c 10 (Proc.devRef .tc main_v361) = ReadQ.val_main_v361 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg23)) :=
  seg9_main_v361 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg23)) (cut m c 9)
    ((keep_cut m c 8 1 (by decide)).trans (at_main_v306 m c))
    (at_main_v357 m c)
    (arg_cut m c 9 (by decide))

theorem at_main_v364 : cut m c 11 (Proc.devRef .tc main_v364) = ReadQ.val_main_v364 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) :=
  seg10_main_v364 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) (cut m c 10)
    ((keep_cut m c 7 3 (by decide)).trans (at_main_v255 m c))
    (arg_cut m c 10 (by decide))
    ((keep_cut m c 4 6 (by decide)).trans (at_main_v144 m c))
    (at_main_v361 m c)

theorem at_main_v415 : cut m c 12 (Proc.devRef .tc main_v415) = ReadQ.val_main_v415 (F := F) (m ((c.tc : Thread nD τ).loc main_arg0)) (m ((c.tc : Thread nD τ).loc main_arg1)) (m ((c.tc : Thread nD τ).loc main_arg2)) (m ((c.tc : Thread nD τ).loc main_arg17)) (m ((c.tc : Thread nD τ).loc main_arg18)) :=
  seg11_main_v415 (m ((c.tc : Thread nD τ).loc main_arg0)) (m ((c.tc : Thread nD τ).loc main_arg1)) (m ((c.tc : Thread nD τ).loc main_arg2)) (m ((c.tc : Thread nD τ).loc main_arg17)) (m ((c.tc : Thread nD τ).loc main_arg18)) (cut m c 11)
    (arg_cut m c 11 (by decide))
    (arg_cut m c 11 (by decide))
    ((keep_cut m c 1 10 (by decide)).trans (at_main_v33 m c))
    ((keep_cut m c 1 10 (by decide)).trans (at_main_v3 m c))
    ((keep_cut m c 1 10 (by decide)).trans (at_main_v1 m c))
    (arg_cut m c 11 (by decide))

theorem at_main_v466 : cut m c 13 (Proc.devRef .tc main_v466) = ReadQ.val_main_v466 (F := F) (m ((c.tc : Thread nD τ).loc main_arg1)) (m ((c.tc : Thread nD τ).loc main_arg2)) (m ((c.tc : Thread nD τ).loc main_arg3)) (m ((c.tc : Thread nD τ).loc main_arg19)) (m ((c.tc : Thread nD τ).loc main_arg20)) :=
  seg12_main_v466 (m ((c.tc : Thread nD τ).loc main_arg1)) (m ((c.tc : Thread nD τ).loc main_arg2)) (m ((c.tc : Thread nD τ).loc main_arg3)) (m ((c.tc : Thread nD τ).loc main_arg19)) (m ((c.tc : Thread nD τ).loc main_arg20)) (cut m c 12)
    (arg_cut m c 12 (by decide))
    (arg_cut m c 12 (by decide))
    ((keep_cut m c 1 11 (by decide)).trans (at_main_v33 m c))
    ((keep_cut m c 1 11 (by decide)).trans (at_main_v3 m c))
    ((keep_cut m c 1 11 (by decide)).trans (at_main_v1 m c))
    (arg_cut m c 12 (by decide))

theorem at_main_v475 : cut m c 14 (Proc.devRef .tc main_v475) = ReadQ.val_main_v475 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg24)) :=
  seg13_main_v475 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg24)) (cut m c 13)
    ((keep_cut m c 12 1 (by decide)).trans (at_main_v415 m c))
    (at_main_v466 m c)
    (arg_cut m c 13 (by decide))

theorem at_main_v477 : cut m c 15 (Proc.devRef .tc main_v477) = ReadQ.val_main_v477 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) :=
  seg14_main_v477 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (cut m c 14)
    ((keep_cut m c 11 3 (by decide)).trans (at_main_v364 m c))
    (at_main_v475 m c)

/-! ## The end of the line -/

/-- The argument buffers' references. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24]

/-- The new hidden state's buffer ends at its last stage. -/
theorem hidden_after : after opsS (launchContents m c) (Proc.devRef .tc main_v477) = ReadQ.val_main_v477 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) := by
  rw [after_opsS]
  exact at_main_v477 m c

/-- The new cell state's buffer ends at its last stage. -/
theorem cell_after : after opsS (launchContents m c) (Proc.devRef .tc main_v364) = ReadQ.val_main_v364 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23)) := by
  rw [after_opsS]
  exact (keep_cut m c 11 4 (by decide)).trans (at_main_v364 m c)

/-- No operation writes an argument buffer. -/
theorem kept_after {r : Ref sig .tc} (hr : r ∈ argRefs) :
    after opsS (launchContents m c) (Proc.devRef .tc r) = m ((c.tc : Thread nD τ).loc r) := by
  rw [after_opsS]
  refine arg_cut m c 15 ?_
  revert r
  decide

end

end Cert.ReferenceIdeal.RunH

end
-- ==== Proof.RefRun.lean ====
/-
  The reference program's run, with its two results named.

  Every execution of the reference ends with each buffer at the fold of its 569 operations over the launch memory.
  Read stage by stage, the buffer of the new hidden state holds the last stage's function of the 25 argument
  arrays, the buffer of the new cell state holds its stage's function of the 20 arrays it depends on, and no
  operation writes an argument array.
-/
import proofs.«161508_j42691974922289_2_alg».proof.Proof.RefMain
import proofs.«161508_j42691974922289_2_alg».proof.Proof.RefAfter

noncomputable section

namespace Cert.ReferenceIdeal.RunH

open Cert.ReferenceIdeal Cert.ReferenceIdeal.Gen
open Idealize.ShloMosaic Idealize.ShloMosaic.TcCoe Idealize.SL.Sem Idealize.ShloMosaic.StableHlo

/-- The run: both results at their stage functions of the arguments, every argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v477) = Cert.ReferenceIdeal.ReadQ.val_main_v477 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_v364) = Cert.ReferenceIdeal.ReadQ.val_main_v364 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v477).trans (hidden_after m c), (h c main_v364).trans (cell_after m c),
    (h c main_arg0).trans (kept_after m c (by simp [argRefs])),
    (h c main_arg1).trans (kept_after m c (by simp [argRefs])),
    (h c main_arg2).trans (kept_after m c (by simp [argRefs])),
    (h c main_arg3).trans (kept_after m c (by simp [argRefs])),
    (h c main_arg4).trans (kept_after m c (by simp [argRefs])),
    (h c main_arg5).trans (kept_after m c (by simp [argRefs])),
    (h c main_arg6).trans (kept_after m c (by simp [argRefs])),
    (h c main_arg7).trans (kept_after m c (by simp [argRefs])),
    (h c main_arg8).trans (kept_after m c (by simp [argRefs])),
    (h c main_arg9).trans (kept_after m c (by simp [argRefs])),
    (h c main_arg10).trans (kept_after m c (by simp [argRefs])),
    (h c main_arg11).trans (kept_after m c (by simp [argRefs])),
    (h c main_arg12).trans (kept_after m c (by simp [argRefs])),
    (h c main_arg13).trans (kept_after m c (by simp [argRefs])),
    (h c main_arg14).trans (kept_after m c (by simp [argRefs])),
    (h c main_arg15).trans (kept_after m c (by simp [argRefs])),
    (h c main_arg16).trans (kept_after m c (by simp [argRefs])),
    (h c main_arg17).trans (kept_after m c (by simp [argRefs])),
    (h c main_arg18).trans (kept_after m c (by simp [argRefs])),
    (h c main_arg19).trans (kept_after m c (by simp [argRefs])),
    (h c main_arg20).trans (kept_after m c (by simp [argRefs])),
    (h c main_arg21).trans (kept_after m c (by simp [argRefs])),
    (h c main_arg22).trans (kept_after m c (by simp [argRefs])),
    (h c main_arg23).trans (kept_after m c (by simp [argRefs])),
    (h c main_arg24).trans (kept_after m c (by simp [argRefs]))⟩) (run_fold m ρ)

end Cert.ReferenceIdeal.RunH

end
-- ==== Proof.lean ====
/-
  The certificate: a graph-convolutional LSTM step computed by a tiled gate kernel and by a plain reference.

  Both programs compute, for every node n and channel j, four gate pre-activations

      pre_g(n, j) = (conv_g X + conv_g H)(n, j) + b_g(j),
      conv x (n, j) = Σ_k t0(n,k)·W(0,k,j) + Σ_k t1(n,k)·W(1,k,j) + Σ_k t2(n,k)·W(2,k,j) + b(j),

  over the Chebyshev terms t0 = x, t1 = lhat x, t2 = 2·lhat t1 − t0 of the rescaled graph Laplacian, and then
  c' = σ(pre_f)·c + σ(pre_i)·tanh(pre_c), h' = σ(pre_o)·tanh(c'). The reference applies lhat to X and to H (64 columns
  each) and contracts each against its own weights; the kernel's host code applies lhat once to [X | H] (128 columns)
  and the kernel contracts the three 128-column terms against the stacked weights, adds the stacked bias, and applies
  the gates, tile by tile. lhat acts on each column by itself, so restricting the 128-column terms to either half
  gives the reference's terms; a 128-term contraction against stacked weights is the sum of the two 64-term
  contractions; and the remaining difference is the order in which the six contractions and three biases are
  added — commutativity and associativity of addition on the extended reals, nothing else. The two frames of the
  kernel program are proved once for any float instance; the reference's run is read stage by stage.
-/
import proofs.«161508_j42691974922289_2_alg».proof.Defs
import proofs.«161508_j42691974922289_2_alg».proof.Proof.FrameK
import proofs.«161508_j42691974922289_2_alg».proof.Proof.KRun
import proofs.«161508_j42691974922289_2_alg».proof.Proof.KBlock
import proofs.«161508_j42691974922289_2_alg».proof.Proof.KSpec
import proofs.«161508_j42691974922289_2_alg».proof.Proof.KNames
import proofs.«161508_j42691974922289_2_alg».proof.Proof.RefRead
import proofs.«161508_j42691974922289_2_alg».proof.Proof.RefRun
import proofs.«161508_j42691974922289_2_alg».proof.Proof.Gen.Pre_finite_inputs
import Idealize.ShloMosaic.Adequacy
import Idealize.ShloMosaic.Init

set_option maxRecDepth 65536

noncomputable section

namespace Cert.Proof

open Idealize.ShloMosaic Idealize.ShloMosaic.TcCoe Idealize.ShloMosaic.ValueIdx Idealize.SL.Sem
open Cert.GConv

/-- The kernel program runs and leaves its arguments unchanged (at the word level). -/
theorem frame_k : Cert.frame_Kernel := fun m ρ _ => Cert.Kernel.Hand.frame (F := Bits) m ρ

/-- The idealized kernel program runs and leaves its arguments unchanged. -/
theorem frame_ki : Cert.frame_KernelIdeal := fun m ρ _ => Cert.KernelIdeal.Hand.frame (F := Ideal) m ρ

/-- The reference runs and leaves its arguments unchanged: its run, with the two results dropped. -/
theorem frame_ri : Cert.frame_ReferenceIdeal := fun m ρ _ =>
  (θ_run Cert.ReferenceIdeal.defs _ _).mono (fun _ h c => (h c).2.2) (Cert.ReferenceIdeal.RunH.run m ρ)

/-- The real-number reading of the kernel program has the same operations as the word-level one: nothing to preserve. -/
theorem preserves : Cert.preserves_Kernel_KernelIdeal := trivial

section Agree

variable (m : (ℓ : Loc Cert.KernelIdeal.nD Cert.KernelIdeal.τ Cert.KernelIdeal.sig) → Buf (Elt Ideal) ℓ)

/-- The reference's new hidden state, computed from the kernel's own argument arrays, is the kernel's. -/
theorem hidden_agree (c : Dev Cert.KernelIdeal.nD) :
    Cert.ReferenceIdeal.ReadQ.val_main_v477 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))
      = Cert.KernelIdeal.Hand.hiddenOut m c := by
  funext i
  obtain ⟨n, j, rfl⟩ : ∃ (n : Fin 50000) (j : Fin 64), i = ix2 n j := ⟨i 0, i 1, eq_ix2 i⟩
  rw [hidden477]
  refine Eq.trans ?_ (Cert.KernelIdeal.Hand.hidden_spec m c n j).symm
  unfold hiddenR cellR preR Cert.KernelIdeal.Hand.preO Cert.KernelIdeal.Hand.preF Cert.KernelIdeal.Hand.preI Cert.KernelIdeal.Hand.preC refPre t2R t1R nwR rowR colR
  rw [Cert.KernelIdeal.Hand.pre_weights, Cert.KernelIdeal.Hand.pre_target, Cert.KernelIdeal.Hand.pre_source]

/-- So is its new cell state. -/
theorem cell_agree (c : Dev Cert.KernelIdeal.nD) :
    Cert.ReferenceIdeal.ReadQ.val_main_v364 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      = Cert.KernelIdeal.Hand.cellOut m c := by
  funext i
  obtain ⟨n, j, rfl⟩ : ∃ (n : Fin 50000) (j : Fin 64), i = ix2 n j := ⟨i 0, i 1, eq_ix2 i⟩
  rw [cell364]
  refine Eq.trans ?_ (Cert.KernelIdeal.Hand.cell_spec m c n j).symm
  unfold cellR preR Cert.KernelIdeal.Hand.preF Cert.KernelIdeal.Hand.preI Cert.KernelIdeal.Hand.preC refPre t2R t1R nwR rowR colR
  rw [Cert.KernelIdeal.Hand.pre_weights, Cert.KernelIdeal.Hand.pre_target, Cert.KernelIdeal.Hand.pre_source]

end Agree

/-- From memories agreeing on the arguments both programs run, end with equal results, and keep their arguments. -/
theorem algebraic : Cert.algebraic_KernelIdeal_ReferenceIdeal := by
  intro m ρ m' ρ' _ hagree
  refine ⟨fun c => Cert.KernelIdeal.Hand.hiddenOut m c, fun c => Cert.KernelIdeal.Hand.cellOut m c,
    Cert.KernelIdeal.Hand.kernel_run m ρ Cert.KernelIdeal.Hand.outBlock_apply, ?_⟩
  refine (θ_run Cert.ReferenceIdeal.defs _ _).mono (fun _ h c => ⟨(h c).1.trans ?_, (h c).2.1.trans ?_, (h c).2.2⟩)
    (Cert.ReferenceIdeal.RunH.run m' ρ')
  · obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]
    exact hidden_agree m c
  · obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h21, h22, h23]
    exact cell_agree m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
